-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x3x112x112 : Shape := ⟨5, ![4, 128, 3, 112, 112]⟩
abbrev S4x128x1024 : Shape := ⟨3, ![4, 128, 1024]⟩
abbrev S_ : Shape := ⟨0, ![]⟩

class Facts : Prop where
  bcast_S_S4x128x3x112x112 : S_.BroadcastsInDim S4x128x3x112x112 (![] : Fin 0 → Fin S4x128x3x112x112.rank)
  reducesTo_S4x128x3x112x112_S_d0_1_2_3_4 : S4x128x3x112x112.ReducesTo [0, 1, 2, 3, 4] S_
  h_S_ : 0 < S_.numel
  bcast_S_S4x128x1024 : S_.BroadcastsInDim S4x128x1024 (![] : Fin 0 → Fin S4x128x1024.rank)
  reducesTo_S4x128x1024_S_d0_1_2 : S4x128x1024.ReducesTo [0, 1, 2] S_

variable [Facts]

def fn {F : FTy → Type} [FloatOps F] (main_arg0 : FVec F S4x128x3x112x112 .f32) (main_arg1 : FVec F S4x128x1024 .f32) : IVec S_ 1 :=
  let main_v0 : FVec F S4x128x3x112x112 .f32 := Host.absf main_arg0
  let main_cst : FVec F S_ .f32 := constant S_ .f32 0x7F800000#32
  let main_v1 : FVec F S4x128x3x112x112 .f32 := broadcastInDim S4x128x3x112x112 ![] bcast_S_S4x128x3x112x112 main_cst
  let main_v2 : IVec S4x128x3x112x112 1 := cmpf .olt main_v0 main_v1
  let main_c : IVec S_ 1 := constantI S_ 1 1#1
  let main_v3 : IVec S_ 1 := (fun x v => Host.reduce IntOp.andi x v reducesTo_S4x128x3x112x112_S_d0_1_2_3_4 h_S_) main_v2 main_c
  let main_v4 : FVec F S4x128x1024 .f32 := Host.absf main_arg1
  let main_cst_0 : FVec F S_ .f32 := constant S_ .f32 0x7F800000#32
  let main_v5 : FVec F S4x128x1024 .f32 := broadcastInDim S4x128x1024 ![] bcast_S_S4x128x1024 main_cst_0
  let main_v6 : IVec S4x128x1024 1 := cmpf .olt main_v4 main_v5
  let main_c_1 : IVec S_ 1 := constantI S_ 1 1#1
  let main_v7 : IVec S_ 1 := (fun x v => Host.reduce IntOp.andi x v reducesTo_S4x128x1024_S_d0_1_2 h_S_) main_v6 main_c_1
  let main_v8 : IVec S_ 1 := andi main_v3 main_v7
  main_v8
-- ==== Kernel.lean ====
abbrev S4x128x3x112x112 : Shape := ⟨5, ![4, 128, 3, 112, 112]⟩
abbrev S4x128x1024 : Shape := ⟨3, ![4, 128, 1024]⟩
abbrev S4x64x3x112x112 : Shape := ⟨5, ![4, 64, 3, 112, 112]⟩
abbrev S4x64x1024 : Shape := ⟨3, ![4, 64, 1024]⟩
abbrev S4x3x56x112 : Shape := ⟨4, ![4, 3, 56, 112]⟩
abbrev S8x1024 : Shape := ⟨2, ![8, 1024]⟩
abbrev S4 : Shape := ⟨1, ![4]⟩
abbrev S_ : Shape := ⟨0, ![]⟩
abbrev S1x1024 : Shape := ⟨2, ![1, 1024]⟩
abbrev S1024 : Shape := ⟨1, ![1024]⟩
abbrev S1x1x1024 : Shape := ⟨3, ![1, 1, 1024]⟩
abbrev S1x3x56x112 : Shape := ⟨4, ![1, 3, 56, 112]⟩
abbrev S3x56x112 : Shape := ⟨3, ![3, 56, 112]⟩
abbrev S1x1x3x56x112 : Shape := ⟨5, ![1, 1, 3, 56, 112]⟩
abbrev S1 : Shape := ⟨1, ![1]⟩
abbrev S1x8x1024 : Shape := ⟨3, ![1, 8, 1024]⟩

abbrev nBuf : Table → Nat
  | .hbm => 4
  | .local .scVector .vmem => 2
  | _ => 0

abbrev bufTy : (tb : Table) → Fin (nBuf tb) → BufTy
  | .hbm, ⟨0, _⟩ => ⟨S4x128x3x112x112, .f32⟩
  | .hbm, ⟨1, _⟩ => ⟨S4x128x1024, .f32⟩
  | .hbm, ⟨2, _⟩ => ⟨S4x64x3x112x112, .f32⟩
  | .hbm, ⟨3, _⟩ => ⟨S4x64x1024, .f32⟩
  | .local .scVector .vmem, ⟨0, _⟩ => ⟨S4x3x56x112, .f32⟩
  | .local .scVector .vmem, ⟨1, _⟩ => ⟨S8x1024, .f32⟩
  | _, _ => ⟨S4x128x3x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c2_i32_11 : BitVec 32 := 2#32
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v30 : BitVec 32 := Scalar.addi v29 c0_i32_10
  let v31 : BitVec 32 := Scalar.muli c2_i32_11 v30
  let c0_i32_71 : BitVec 32 := 0#32
  ![v19.toNat, v31.toNat, 0]
def k0_off2 (i : grid0.Coords) (c0_i32_21 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c2_i32_22 : BitVec 32 := 2#32
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v46 : BitVec 32 := Scalar.addi v29 c0_i32_21
  let v47 : BitVec 32 := Scalar.muli c2_i32_22 v46
  let c0_i32_114 : BitVec 32 := 0#32
  let c0_i32_115 : BitVec 32 := 0#32
  let c0_i32_116 : BitVec 32 := 0#32
  ![v19.toNat, v47.toNat, 0, 0, 0]
def k0_off3 (i : grid0.Coords) (c0_i32_23 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c2_i32_24 : BitVec 32 := 2#32
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v48 : BitVec 32 := Scalar.addi v29 c0_i32_23
  let v49 : BitVec 32 := Scalar.muli c2_i32_24 v48
  let c0_i32_128 : BitVec 32 := 0#32
  let c56_i32 : BitVec 32 := 56#32
  let c0_i32_129 : BitVec 32 := 0#32
  ![v19.toNat, v49.toNat, 0, 56, 0]
def k0_off4 (i : grid0.Coords) (c0_i32_53 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v78 : BitVec 32 := Scalar.addi v29 c0_i32_53
  let c0_i32_183 : BitVec 32 := 0#32
  let c0_i32_184 : BitVec 32 := 0#32
  let c0_i32_185 : BitVec 32 := 0#32
  ![v19.toNat, v78.toNat, 0, 0, 0]
def k0_off5 (i : grid0.Coords) (c0_i32_54 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v79 : BitVec 32 := Scalar.addi v29 c0_i32_54
  let c0_i32_239 : BitVec 32 := 0#32
  let c56_i32_240 : BitVec 32 := 56#32
  let c0_i32_241 : BitVec 32 := 0#32
  ![v19.toNat, v79.toNat, 0, 56, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_1044 : BitVec 32 := 0#32
  ![v19.toNat, v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S8x1024_S1x1024_0_0 : ∀ a, (![0, 0] : Fin 2 → Nat) a + S1x1024.size a ≤ S8x1024.size a
  squeezes_S1x1024_S1024 : S1x1024.Squeezes S1024
  squeezes_S1x1x1024_S1024 : S1x1x1024.Squeezes S1024
  inb_S8x1024_S1x1024_1_0 : ∀ a, (![1, 0] : Fin 2 → Nat) a + S1x1024.size a ≤ S8x1024.size a
  inb_S8x1024_S1x1024_2_0 : ∀ a, (![2, 0] : Fin 2 → Nat) a + S1x1024.size a ≤ S8x1024.size a
  inb_S8x1024_S1x1024_3_0 : ∀ a, (![3, 0] : Fin 2 → Nat) a + S1x1024.size a ≤ S8x1024.size a
  inb_S8x1024_S1x1024_4_0 : ∀ a, (![4, 0] : Fin 2 → Nat) a + S1x1024.size a ≤ S8x1024.size a
  inb_S8x1024_S1x1024_5_0 : ∀ a, (![5, 0] : Fin 2 → Nat) a + S1x1024.size a ≤ S8x1024.size a
  inb_S8x1024_S1x1024_6_0 : ∀ a, (![6, 0] : Fin 2 → Nat) a + S1x1024.size a ≤ S8x1024.size a
  inb_S8x1024_S1x1024_7_0 : ∀ a, (![7, 0] : Fin 2 → Nat) a + S1x1024.size a ≤ S8x1024.size a
  inb_S4x3x56x112_S1x3x56x112_0_0_0_0 : ∀ a, (![0, 0, 0, 0] : Fin 4 → Nat) a + S1x3x56x112.size a ≤ S4x3x56x112.size a
  squeezes_S1x3x56x112_S3x56x112 : S1x3x56x112.Squeezes S3x56x112
  squeezes_S1x1x3x56x112_S3x56x112 : S1x1x3x56x112.Squeezes S3x56x112
  inb_S4_S1_0 : ∀ a, (![0] : Fin 1 → Nat) a + S1.size a ≤ S4.size a
  squeezes_S1_S_ : S1.Squeezes S_
  inb_S4x3x56x112_S1x3x56x112_1_0_0_0 : ∀ a, (![1, 0, 0, 0] : Fin 4 → Nat) a + S1x3x56x112.size a ≤ S4x3x56x112.size a
  inb_S4_S1_1 : ∀ a, (![1] : Fin 1 → Nat) a + S1.size a ≤ S4.size a
  inb_S4x3x56x112_S1x3x56x112_2_0_0_0 : ∀ a, (![2, 0, 0, 0] : Fin 4 → Nat) a + S1x3x56x112.size a ≤ S4x3x56x112.size a
  inb_S4_S1_2 : ∀ a, (![2] : Fin 1 → Nat) a + S1.size a ≤ S4.size a
  inb_S4x3x56x112_S1x3x56x112_3_0_0_0 : ∀ a, (![3, 0, 0, 0] : Fin 4 → Nat) a + S1x3x56x112.size a ≤ S4x3x56x112.size a
  inb_S4_S1_3 : ∀ a, (![3] : Fin 1 → Nat) a + S1.size a ≤ S4.size a
  squeezes_S1x8x1024_S8x1024 : S1x8x1024.Squeezes S8x1024
  hcc0_scratch2 : 0 + S4.numel ≤ 10
  hcc0_scratch3 : 4 + S4.numel ≤ 10
  hcc0_scratch4 : 8 + S_.numel ≤ 10
  hcc0_scratch5 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 r.val)) a + S1x1x1024.size a ≤ S4x128x1024.size a
  k0_off2_inb : ∀ i : grid0.Coords, ∀ (r : Fin 8), ∀ a, (k0_off2 i (BitVec.ofNat 32 r.val)) a + S1x1x3x56x112.size a ≤ S4x128x3x112x112.size a
  k0_off3_inb : ∀ i : grid0.Coords, ∀ (r : Fin 8), ∀ a, (k0_off3 i (BitVec.ofNat 32 r.val)) a + S1x1x3x56x112.size a ≤ S4x128x3x112x112.size a
  k0_off4_inb : ∀ i : grid0.Coords, ∀ (r : Fin 8), ∀ a, (k0_off4 i (BitVec.ofNat 32 r.val)) a + S1x1x3x56x112.size a ≤ S4x64x3x112x112.size a
  k0_off5_inb : ∀ i : grid0.Coords, ∀ (r : Fin 8), ∀ a, (k0_off5 i (BitVec.ofNat 32 r.val)) a + S1x1x3x56x112.size a ≤ S4x64x3x112x112.size a
  k0_off6_inb : ∀ i : grid0.Coords, ∀ a, (k0_off6 i) a + S1x8x1024.size a ≤ S4x64x1024.size a

variable [Facts₀]

abbrev cc0_scratch2 : DmaSems sig S4 := SemArray.consecutive 0 S4 hcc0_scratch2
abbrev cc0_scratch3 : DmaSems sig S4 := SemArray.consecutive 4 S4 hcc0_scratch3
abbrev cc0_scratch4 : DmaSems sig S_ := SemArray.consecutive 8 S_ hcc0_scratch4
abbrev cc0_scratch5 : DmaSems sig S_ := SemArray.consecutive 9 S_ hcc0_scratch5

class Facts : Prop extends Facts₀ where

variable [Facts]
-- ==== ReferenceIdeal.lean ====
abbrev S4x128x3x112x112 : Shape := ⟨5, ![4, 128, 3, 112, 112]⟩
abbrev S4x128x1024 : Shape := ⟨3, ![4, 128, 1024]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S4x64x3x112x112 : Shape := ⟨5, ![4, 64, 3, 112, 112]⟩
abbrev S4x64x1024 : Shape := ⟨3, ![4, 64, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x128x3x112x112, .f32⟩
  | .hbm, ⟨1, _⟩ => ⟨S4x128x1024, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S1, .i32⟩
  | .hbm, ⟨18, _⟩ => ⟨S_, .i32⟩
  | .hbm, ⟨19, _⟩ => ⟨S64x1, .i32⟩
  | .hbm, ⟨20, _⟩ => ⟨S64x1, .i1⟩
  | .hbm, ⟨21, _⟩ => ⟨S1x1, .i32⟩
  | .hbm, ⟨22, _⟩ => ⟨S64x1, .i32⟩
  | .hbm, ⟨23, _⟩ => ⟨S64x1, .i1⟩
  | .hbm, ⟨24, _⟩ => ⟨S64x1, .i1⟩
  | .hbm, ⟨25, _⟩ => ⟨S_, .i1⟩
  | .hbm, ⟨26, _⟩ => ⟨S64, .i1⟩
  | .hbm, ⟨27, _⟩ => ⟨S4x64x3x112x112, .f32⟩
  | .hbm, ⟨28, _⟩ => ⟨S4x64x3x112x112, .i1⟩
  | .hbm, ⟨29, _⟩ => ⟨S_, .f32⟩
  | .hbm, ⟨30, _⟩ => ⟨S4x64x3x112x112, .f32⟩
  | .hbm, ⟨31, _⟩ => ⟨S4x64x3x112x112, .f32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S1, .i32⟩
  | .hbm, ⟨41, _⟩ => ⟨S_, .i32⟩
  | .hbm, ⟨42, _⟩ => ⟨S64x1, .i32⟩
  | .hbm, ⟨43, _⟩ => ⟨S64x1, .i1⟩
  | .hbm, ⟨44, _⟩ => ⟨S1x1, .i32⟩
  | .hbm, ⟨45, _⟩ => ⟨S64x1, .i32⟩
  | .hbm, ⟨46, _⟩ => ⟨S64x1, .i1⟩
  | .hbm, ⟨47, _⟩ => ⟨S64x1, .i1⟩
  | .hbm, ⟨48, _⟩ => ⟨S_, .i1⟩
  | .hbm, ⟨49, _⟩ => ⟨S64, .i1⟩
  | .hbm, ⟨50, _⟩ => ⟨S4x64x1024, .f32⟩
  | .hbm, ⟨51, _⟩ => ⟨S4x64x1024, .i1⟩
  | .hbm, ⟨52, _⟩ => ⟨S_, .f32⟩
  | .hbm, ⟨53, _⟩ => ⟨S4x64x1024, .f32⟩
  | .hbm, ⟨54, _⟩ => ⟨S4x64x1024, .f32⟩
  | _, _ => ⟨S4x128x3x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S4x64x3x112x112_1 : S64.BroadcastsInDim S4x64x3x112x112 (![1] : Fin 1 → Fin S4x64x3x112x112.rank)
  bcast_S_S4x64x3x112x112 : S_.BroadcastsInDim S4x64x3x112x112 (![] : Fin 0 → Fin S4x64x3x112x112.rank)
  bcast_S64_S4x64x1024_1 : S64.BroadcastsInDim S4x64x1024 (![1] : Fin 1 → Fin S4x64x1024.rank)
  bcast_S_S4x64x1024 : S_.BroadcastsInDim S4x64x1024 (![] : Fin 0 → Fin S4x64x1024.rank)
  gather_S4x128x3x112x112_S64x1_S4x64x3x112x112_0234_1_n_n_1_1_413112112_wf : GatherDims.WF S4x128x3x112x112 S64x1 S4x64x3x112x112 [0, 2, 3, 4] [1] [] [1] [] 1 ![4, 1, 3, 112, 112]
  gather_S4x128x1024_S64x1_S4x64x1024_02_1_n_n_1_1_411024_wf : GatherDims.WF S4x128x1024 S64x1 S4x64x1024 [0, 2] [1] [] [1] [] 1 ![4, 1, 1024]

variable [Facts₀]

def gather_S4x128x3x112x112_S64x1_S4x64x3x112x112_0234_1_n_n_1_1_413112112 : GatherDims S4x128x3x112x112 S64x1 S4x64x3x112x112 where
  offsetDims := [0, 2, 3, 4]
  collapsedSliceDims := [1]
  operandBatchingDims := []
  startIndicesBatchingDims := []
  startIndexMap := [1]
  indexVectorDim := 1
  sliceSizes := ![4, 1, 3, 112, 112]
  wf := gather_S4x128x3x112x112_S64x1_S4x64x3x112x112_0234_1_n_n_1_1_413112112_wf
def gather_S4x128x1024_S64x1_S4x64x1024_02_1_n_n_1_1_411024 : GatherDims S4x128x1024 S64x1 S4x64x1024 where
  offsetDims := [0, 2]
  collapsedSliceDims := [1]
  operandBatchingDims := []
  startIndicesBatchingDims := []
  startIndexMap := [1]
  indexVectorDim := 1
  sliceSizes := ![4, 1, 1024]
  wf := gather_S4x128x1024_S64x1_S4x64x1024_02_1_n_n_1_1_411024_wf

class Facts : Prop extends Facts₀ where

variable [Facts]
-- ==== Proof.Spec.lean ====
/-
  What both programs compute, as whole-array functions of the two argument arrays: every second frame along
  axis 1. Output frame `i` of a batch is input frame `2 * i` of the same batch, all other coordinates kept;
  nothing is computed on the entries, so the functions are stated for any entry type.
-/
import Idealize.ShloMosaic.Lib.ValueIdx

namespace Cert.Proof.Spec

open Idealize.ShloMosaic Idealize.ShloMosaic.ValueIdx

/-- The video array, its frames strided by two, the audio array and its rows strided by two. -/
abbrev SV : Shape := ⟨5, ![4, 128, 3, 112, 112]⟩
abbrev SVo : Shape := ⟨5, ![4, 64, 3, 112, 112]⟩
abbrev SA : Shape := ⟨3, ![4, 128, 1024]⟩
abbrev SAo : Shape := ⟨3, ![4, 64, 1024]⟩

/-- Frame `i` of the output is frame `2 * i` of the input. -/
def dbl (i : Fin 64) : Fin 128 := ⟨2 * i.val, by omega⟩

/-- Where an entry of the strided video comes from. -/
def srcV (j : SVo.Idx) : SV.Idx := ix5 (j 0) (dbl (j 1)) (j 2) (j 3) (j 4)
/-- Where an entry of the strided audio comes from. -/
def srcA (j : SAo.Idx) : SA.Idx := ix3 (j 0) (dbl (j 1)) (j 2)

/-- Every second frame of the video. -/
def takeV {α : Type} (x : SV.Idx → α) : SVo.Idx → α := fun j => x (srcV j)
/-- Every second row of the audio. -/
def takeA {α : Type} (x : SA.Idx → α) : SAo.Idx → α := fun j => x (srcA j)

theorem srcV_val (j : SVo.Idx) (a : Fin 5) : (srcV j a : Nat) = if a = 1 then 2 * (j 1 : Nat) else (j a : Nat) := by
  match a with
  | ⟨0, _⟩ => rfl
  | ⟨1, _⟩ => rfl
  | ⟨2, _⟩ => rfl
  | ⟨3, _⟩ => rfl
  | ⟨4, _⟩ => rfl

theorem srcA_val (j : SAo.Idx) (a : Fin 3) : (srcA j a : Nat) = if a = 1 then 2 * (j 1 : Nat) else (j a : Nat) := by
  match a with
  | ⟨0, _⟩ => rfl
  | ⟨1, _⟩ => rfl
  | ⟨2, _⟩ => rfl

end Cert.Proof.Spec
-- ==== Proof.KISetup.lean ====
/-
  The copy kernel as the SparseCore launch sees it: one vector-subcore call on 2 SparseCores × 16 tiles. Worker
  `w = 2·tile + core` owns batch `w / 8` and the eight output frames `(w % 8)·8 + r`, `r < 8`; it reads input frame
  `2·((w % 8)·8 + r)` of the video in two half-frames (rows `56·h … 56·h + 55`) and row `2·((w % 8)·8 + r)` of the audio.
  Here: the program's vocabulary for the launch theorem, the ghost state (the launch handshakes beside one counter per
  local copy in flight), the arrays' places, the slices the body names — stated through the printed offset
  functions —, and those offset functions in closed form.
-/
import proofs.«207661_g395136991783_cont_8to1_b_1346_21_alg».proof.Proof.Gen.KernelIdeal
import proofs.«207661_g395136991783_cont_8to1_b_1346_21_alg».proof.Proof.Gen.KernelIdeal.Skeleton
import proofs.«207661_g395136991783_cont_8to1_b_1346_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev 𝕄F (F : FTy → Type) : Type := MT nD τ sig (HIx 1) (Elt F) ℕ UU ℕ

abbrev EH : Emb UH (MT nD τ sig (HIx 1) (Elt F) ℕ UU ℕ) := embL

/-! ## The arrays' places -/

abbrev viLoc (d : Dev nD) : Loc nD τ sig := (SparseCore.T d).loc main_arg0
abbrev aiLoc (d : Dev nD) : Loc nD τ sig := (SparseCore.T d).loc main_arg1
abbrev voLoc (d : Dev nD) : Loc nD τ sig := (SparseCore.T d).loc main_v0_0
abbrev aoLoc (d : Dev nD) : Loc nD τ sig := (SparseCore.T d).loc main_v0_1

/-- The arrays and the two scratch buffers as a tile's kernel names them. -/
abbrev viV : Memref sig .scVector .hbm S4x128x3x112x112 .f32 := Memref.whole main_arg0_scv
abbrev aiV : Memref sig .scVector .hbm S4x128x1024 .f32 := Memref.whole main_arg1_scv
abbrev voV : Memref sig .scVector .hbm S4x64x3x112x112 .f32 := Memref.whole main_v0_0_scv
abbrev aoV : Memref sig .scVector .hbm S4x64x1024 .f32 := Memref.whole main_v0_1_scv
abbrev vbV : Memref sig .scVector .vmem S4x3x56x112 .f32 := Memref.whole cc0_scratch0
abbrev abV : Memref sig .scVector .vmem S8x1024 .f32 := Memref.whole cc0_scratch1

/-! ## A tile's place and the worker number -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The worker number of the tile at `L`: twice its tile index plus its SparseCore's. -/
def wid (L : grid0.Coords) : Nat := (L 1).val * 2 + (L 0).val

/-! ## The slices the body names, through the printed offset functions -/

/-- Half-frame 0 / half-frame 1 of an input frame, half-frame 0 / 1 of an output frame, an input audio row, the output
    audio block, at an offset word `w` (the body's literals `0#32 … 7#32`). -/
abbrev viAw (L : grid0.Coords) (w : BitVec 32) (h : ∀ a, (k0_off2 L w) a + S1x1x3x56x112.size a ≤ S4x128x3x112x112.size a) : Memref sig .scVector .hbm S3x56x112 .f32 :=
  ((viV).slice (Rect.unit (s := S4x128x3x112x112) (k0_off2 L w) S1x1x3x56x112.size h) (fun _ => rfl)).squeeze S3x56x112 squeezes_S1x1x3x56x112_S3x56x112
abbrev viBw (L : grid0.Coords) (w : BitVec 32) (h : ∀ a, (k0_off3 L w) a + S1x1x3x56x112.size a ≤ S4x128x3x112x112.size a) : Memref sig .scVector .hbm S3x56x112 .f32 :=
  ((viV).slice (Rect.unit (s := S4x128x3x112x112) (k0_off3 L w) S1x1x3x56x112.size h) (fun _ => rfl)).squeeze S3x56x112 squeezes_S1x1x3x56x112_S3x56x112
abbrev voAw (L : grid0.Coords) (w : BitVec 32) (h : ∀ a, (k0_off4 L w) a + S1x1x3x56x112.size a ≤ S4x64x3x112x112.size a) : Memref sig .scVector .hbm S3x56x112 .f32 :=
  ((voV).slice (Rect.unit (s := S4x64x3x112x112) (k0_off4 L w) S1x1x3x56x112.size h) (fun _ => rfl)).squeeze S3x56x112 squeezes_S1x1x3x56x112_S3x56x112
abbrev voBw (L : grid0.Coords) (w : BitVec 32) (h : ∀ a, (k0_off5 L w) a + S1x1x3x56x112.size a ≤ S4x64x3x112x112.size a) : Memref sig .scVector .hbm S3x56x112 .f32 :=
  ((voV).slice (Rect.unit (s := S4x64x3x112x112) (k0_off5 L w) S1x1x3x56x112.size h) (fun _ => rfl)).squeeze S3x56x112 squeezes_S1x1x3x56x112_S3x56x112
abbrev aiRw (L : grid0.Coords) (w : BitVec 32) (h : ∀ a, (k0_off1 L w) a + S1x1x1024.size a ≤ S4x128x1024.size a) : Memref sig .scVector .hbm S1024 .f32 :=
  ((aiV).slice (Rect.unit (s := S4x128x1024) (k0_off1 L w) S1x1x1024.size h) (fun _ => rfl)).squeeze S1024 squeezes_S1x1x1024_S1024
abbrev aoB (L : grid0.Coords) : Memref sig .scVector .hbm S8x1024 .f32 :=
  ((aoV).slice (Rect.unit (s := S4x64x1024) (k0_off6 L) S1x8x1024.size (k0_off6_inb L)) (fun _ => rfl)).squeeze S8x1024 squeezes_S1x8x1024_S8x1024

abbrev viA (L : grid0.Coords) (r : Fin 8) := viAw L (BitVec.ofNat 32 r.val) (k0_off2_inb L r)
abbrev viB (L : grid0.Coords) (r : Fin 8) := viBw L (BitVec.ofNat 32 r.val) (k0_off3_inb L r)
abbrev voA (L : grid0.Coords) (r : Fin 8) := voAw L (BitVec.ofNat 32 r.val) (k0_off4_inb L r)
abbrev voB (L : grid0.Coords) (r : Fin 8) := voBw L (BitVec.ofNat 32 r.val) (k0_off5_inb L r)
abbrev aiR (L : grid0.Coords) (r : Fin 8) := aiRw L (BitVec.ofNat 32 r.val) (k0_off1_inb L r)

/-- Slot `k` of the four-deep half-frame ring, row `r` of the audio scratch, at the literal offsets the body writes. -/
abbrev vbSw (off : Fin 4 → Nat) (h : ∀ a, off a + S1x3x56x112.size a ≤ S4x3x56x112.size a) : Memref sig .scVector .vmem S3x56x112 .f32 :=
  ((vbV).slice (Rect.unit (s := S4x3x56x112) off S1x3x56x112.size h) (fun _ => rfl)).squeeze S3x56x112 squeezes_S1x3x56x112_S3x56x112
abbrev abRw (off : Fin 2 → Nat) (h : ∀ a, off a + S1x1024.size a ≤ S8x1024.size a) : Memref sig .scVector .vmem S1024 .f32 :=
  ((abV).slice (Rect.unit (s := S8x1024) off S1x1024.size h) (fun _ => rfl)).squeeze S1024 squeezes_S1x1024_S1024
abbrev vbS0 := vbSw ![0, 0, 0, 0] inb_S4x3x56x112_S1x3x56x112_0_0_0_0
abbrev vbS1 := vbSw ![1, 0, 0, 0] inb_S4x3x56x112_S1x3x56x112_1_0_0_0
abbrev vbS2 := vbSw ![2, 0, 0, 0] inb_S4x3x56x112_S1x3x56x112_2_0_0_0
abbrev vbS3 := vbSw ![3, 0, 0, 0] inb_S4x3x56x112_S1x3x56x112_3_0_0_0

/-- The ten DMA semaphores: the ring's four inbound and four outbound, the audio's inbound and outbound. -/
abbrev semw (A : DmaSems sig S4) (off : Fin 1 → Nat) (h : ∀ a, off a + S1.size a ≤ S4.size a) : DmaSems sig S_ :=
  (A.slice (Rect.unit (s := S4) off S1.size h)).squeeze S_ squeezes_S1_S_
abbrev inS0 := semw cc0_scratch2 ![0] inb_S4_S1_0
abbrev inS1 := semw cc0_scratch2 ![1] inb_S4_S1_1
abbrev inS2 := semw cc0_scratch2 ![2] inb_S4_S1_2
abbrev inS3 := semw cc0_scratch2 ![3] inb_S4_S1_3
abbrev outS0 := semw cc0_scratch3 ![0] inb_S4_S1_0
abbrev outS1 := semw cc0_scratch3 ![1] inb_S4_S1_1
abbrev outS2 := semw cc0_scratch3 ![2] inb_S4_S1_2
abbrev outS3 := semw cc0_scratch3 ![3] inb_S4_S1_3

/-! ## The offset functions in closed form -/

set_option maxRecDepth 65536 in
theorem off1_eq : ∀ L : grid0.Coords, ∀ r : Fin 8, k0_off1 L (BitVec.ofNat 32 r.val) = ![wid L / 8, 2 * ((wid L % 8) * 8 + r.val), 0] := by decide +kernel
set_option maxRecDepth 65536 in
theorem off2_eq : ∀ L : grid0.Coords, ∀ r : Fin 8, k0_off2 L (BitVec.ofNat 32 r.val) = ![wid L / 8, 2 * ((wid L % 8) * 8 + r.val), 0, 0, 0] := by decide +kernel
set_option maxRecDepth 65536 in
theorem off3_eq : ∀ L : grid0.Coords, ∀ r : Fin 8, k0_off3 L (BitVec.ofNat 32 r.val) = ![wid L / 8, 2 * ((wid L % 8) * 8 + r.val), 0, 56, 0] := by decide +kernel
set_option maxRecDepth 65536 in
theorem off4_eq : ∀ L : grid0.Coords, ∀ r : Fin 8, k0_off4 L (BitVec.ofNat 32 r.val) = ![wid L / 8, (wid L % 8) * 8 + r.val, 0, 0, 0] := by decide +kernel
set_option maxRecDepth 65536 in
theorem off5_eq : ∀ L : grid0.Coords, ∀ r : Fin 8, k0_off5 L (BitVec.ofNat 32 r.val) = ![wid L / 8, (wid L % 8) * 8 + r.val, 0, 56, 0] := by decide +kernel
set_option maxRecDepth 65536 in
theorem off6_eq : ∀ L : grid0.Coords, k0_off6 L = ![wid L / 8, (wid L % 8) * 8, 0] := by decide +kernel

end Cert.Proof.KI

end
-- ==== Proof.KIRes.lean ====
/-
  What the launch's handshakes carry. A tile is handed exactly the pieces its copies touch: per frame `r < 8` the two
  half-frames of the input frame and the input audio row it reads (at the launch contents, returned unchanged), the two
  half-frames of the output frame it writes, and its block of eight output audio rows. It returns the output pieces
  holding every second frame of the input. A SparseCore's share is its sixteen tiles' shares side by side.
-/
import proofs.«207661_g395136991783_cont_8to1_b_1346_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The grid point of tile `s` of SparseCore `c`, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

/-- Every second frame of the launch video, every second row of the launch audio: what the outputs hold at the end. -/
abbrev GV (d : Dev nD) : Buf (Elt F) (voLoc d) := Spec.takeV (m (viLoc d))
abbrev GA (d : Dev nD) : Buf (Elt F) (aoLoc d) := Spec.takeA (m (aiLoc d))

/-- The input pieces of the tile at `L`, at the launch contents. -/
def tileIn (d : Dev nD) (L : grid0.Coords) : sProp 𝕄 :=
  bigSep Finset.univ fun r : Fin 8 => iprop((viLoc d ↦[(viA L r).view.set]{fullShare} m (viLoc d))
    ∗ (viLoc d ↦[(viB L r).view.set]{fullShare} m (viLoc d)) ∗ (aiLoc d ↦[(aiR L r).view.set]{fullShare} m (aiLoc d)))

/-- The output pieces of the tile at `L`, the video's at `gv` and the audio's at `ga`. -/
def tileOut (d : Dev nD) (L : grid0.Coords) (gv : Buf (Elt F) (voLoc d)) (ga : Buf (Elt F) (aoLoc d)) : sProp 𝕄 :=
  iprop((bigSep Finset.univ fun r : Fin 8 => iprop((voLoc d ↦[(voA L r).view.set]{fullShare} gv) ∗ (voLoc d ↦[(voB L r).view.set]{fullShare} gv)))
    ∗ (aoLoc d ↦[(aoB L).view.set]{fullShare} ga))

/-- What a tile is handed, and what it hands back. -/
def goRes (d : Dev nD) (L : grid0.Coords) : sProp 𝕄 := iprop(tileIn m d L ∗ tileOut d L (m (voLoc d)) (m (aoLoc d)))
def tdRes (d : Dev nD) (L : grid0.Coords) : sProp 𝕄 := iprop(tileIn m d L ∗ tileOut d L (GV m d) (GA m d))

/-- The grid point of task `i` of SparseCore `c` of the call. -/
abbrev Lof (c : Fin ((K (F := F)).nCore 0)) (i : Fin ((K (F := F)).nSub 0)) : grid0.Coords :=
  coordsV ⟨((K (F := F)).core 0 c).val, c.isLt⟩ ⟨((K (F := F)).sub 0 i).val, i.isLt⟩

/-- The one call: a SparseCore takes its tiles' shares and brings them back; a task takes its share and brings it back
    written. -/
def P : (K (F := F)).Pay (nD := nD) (Val := Elt F) (Name := ℕ) (U := UU) where
  st := fun q d c => match q with | 0 => bigSep Finset.univ fun i : Fin ((K (F := F)).nSub 0) => goRes m d (Lof c i)
  dn := fun q d c => match q with | 0 => bigSep Finset.univ fun i : Fin ((K (F := F)).nSub 0) => tdRes m d (Lof c i)
  go := fun q d c i => match q with | 0 => goRes m d (Lof c i)
  td := fun q d c i => match q with | 0 => tdRes m d (Lof c i)
  x := fun _ _ => iprop(emp)

instance goRes_storable (d : Dev nD) (L : grid0.Coords) : BI.Storable (upEmb : UEmb _ 𝕄) (goRes m d L) := by
  unfold goRes tileIn tileOut; infer_instance
instance tdRes_storable (d : Dev nD) (L : grid0.Coords) : BI.Storable (upEmb : UEmb _ 𝕄) (tdRes m d L) := by
  unfold tdRes tileIn tileOut; infer_instance

instance P_storable : (P (F := F) m).IsStorable where
  st q d c := match q with
    | 0 => (inferInstance : BI.Storable (upEmb : UEmb _ 𝕄) (bigSep Finset.univ fun i : Fin ((K (F := F)).nSub 0) => goRes m d (Lof c i)))
  dn q d c := match q with
    | 0 => (inferInstance : BI.Storable (upEmb : UEmb _ 𝕄) (bigSep Finset.univ fun i : Fin ((K (F := F)).nSub 0) => tdRes m d (Lof c i)))
  go q d c i := match q with
    | 0 => (inferInstance : BI.Storable (upEmb : UEmb _ 𝕄) (goRes m d (Lof c i)))
  td q d c i := match q with
    | 0 => (inferInstance : BI.Storable (upEmb : UEmb _ 𝕄) (tdRes m d (Lof c i)))

/-- A SparseCore's tasks take exactly what it was handed. -/
theorem vecSplit : (K (F := F)).VecSplit' (P m) 0 := by
  intro d c
  show (bigSep Finset.univ fun i : Fin ((K (F := F)).nSub 0) => goRes m d (Lof c i)) ⊢ |={Set.univ}=> iprop(
      (bigSep Finset.univ fun i : Fin ((K (F := F)).nSub 0) => goRes m d (Lof c i))
      ∗ ((bigSep Finset.univ fun i : Fin ((K (F := F)).nSub 0) => tdRes m d (Lof c i))
          -∗ (bigSep Finset.univ fun i : Fin ((K (F := F)).nSub 0) => tdRes m d (Lof c i))))
  iintro H; imodintro
  isplitl [H]; · iexact H
  iintro H; iexact H

end Cert.Proof.KI

end
-- ==== Proof.KIValue.lean ====
/-
  The values the tile's body leaves in its output pieces. Each output half-frame is written whole with what a scratch
  slot reads, the slot having last been written whole with what the matching input half-frame reads; the output audio
  block is written whole with what the audio scratch reads after its eight rows were written, row `k` with what the
  worker's `k`-th input row reads. Here: where the pieces' indices sit in the arrays (a squeezed unit slice places an
  index at the slice's offsets plus the index, the dropped axes at zero), so that the source of an output piece's entry
  is the matching input piece's entry; and, from that, that the contents left on each output piece are those of
  "every second frame of the input", whatever the outputs and the scratches held before.
-/
import proofs.«207661_g395136991783_cont_8to1_b_1346_21_alg».proof.Proof.KISetup
import proofs.«207661_g395136991783_cont_8to1_b_1346_21_alg».proof.Proof.Spec
import Idealize.ShloMosaic.Lib.ValueLayout
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Coordinates of a squeezed unit slice -/

/-- The half-frame index `(c, i, j)` placed in a rank-5 array at offsets `off`: `off` plus `(0, 0, c, i, j)`. -/
theorem unit_emb_sq3 {n : Fin 5 → Nat} (off : Fin 5 → Nat) (h : ∀ a, off a + S1x1x3x56x112.size a ≤ (⟨5, n⟩ : Shape).size a)
    (hq : S3x56x112.numel = S1x1x3x56x112.numel) (y : S3x56x112.Idx) (a : Fin 5) :
    (((Rect.unit (s := ⟨5, n⟩) off S1x1x3x56x112.size h).emb (Shape.reshapeEquiv hq y) a : Fin _) : Nat)
      = off a + (![0, 0, (y 0 : Nat), (y 1 : Nat), (y 2 : Nat)] : Fin 5 → Nat) a := by
  have e : Shape.reshapeEquiv hq y = ix5 (⟨0, Nat.one_pos⟩ : Fin 1) (⟨0, Nat.one_pos⟩ : Fin 1) (y 0) (y 1) (y 2) :=
    (congrArg (Shape.reshapeEquiv hq) (eq_ix3 y)).trans (reshapeEquiv_ix3_11abc hq (y 0) (y 1) (y 2))
  refine (congrArg (fun z : S1x1x3x56x112.Idx => (((Rect.unit (s := ⟨5, n⟩) off S1x1x3x56x112.size h).emb z a : Fin _) : Nat)) e).trans ?_
  match a with
  | ⟨0, _⟩ => rfl
  | ⟨1, _⟩ => rfl
  | ⟨2, _⟩ => show off 2 + 1 * (y 0 : Nat) = off 2 + (y 0 : Nat); omega
  | ⟨3, _⟩ => show off 3 + 1 * (y 1 : Nat) = off 3 + (y 1 : Nat); omega
  | ⟨4, _⟩ => show off 4 + 1 * (y 2 : Nat) = off 4 + (y 2 : Nat); omega

/-- The source of the entry at `y` of an output half-frame is the entry at `y` of the matching input half-frame. -/
theorem srcV_voA (L : grid0.Coords) (r : Fin 8) (y : S3x56x112.Idx) :
    Spec.srcV ((voA L r).view.emb y) = (viA L r).view.emb y := by
  have eo : ∀ a, (((voA L r).view.emb y a : Fin _) : Nat) = k0_off4 L (BitVec.ofNat 32 r.val) a + (![0, 0, (y 0 : Nat), (y 1 : Nat), (y 2 : Nat)] : Fin 5 → Nat) a :=
    unit_emb_sq3 _ _ _ y
  have ei : ∀ a, (((viA L r).view.emb y a : Fin _) : Nat) = k0_off2 L (BitVec.ofNat 32 r.val) a + (![0, 0, (y 0 : Nat), (y 1 : Nat), (y 2 : Nat)] : Fin 5 → Nat) a :=
    unit_emb_sq3 _ _ _ y
  rw [off4_eq] at eo
  rw [off2_eq] at ei
  funext a
  apply Fin.ext
  rw [Spec.srcV_val]
  match a with
  | ⟨0, _⟩ => exact (eo 0).trans (ei 0).symm
  | ⟨1, _⟩ =>
    have h1 : (((voA L r).view.emb y 1 : Fin _) : Nat) = (wid L % 8) * 8 + r.val + 0 := eo 1
    have h2 : (((viA L r).view.emb y 1 : Fin _) : Nat) = 2 * ((wid L % 8) * 8 + r.val) + 0 := ei 1
    show 2 * (((voA L r).view.emb y 1 : Fin _) : Nat) = (((viA L r).view.emb y 1 : Fin _) : Nat)
    omega
  | ⟨2, _⟩ => exact (eo 2).trans (ei 2).symm
  | ⟨3, _⟩ => exact (eo 3).trans (ei 3).symm
  | ⟨4, _⟩ => exact (eo 4).trans (ei 4).symm

theorem srcV_voB (L : grid0.Coords) (r : Fin 8) (y : S3x56x112.Idx) :
    Spec.srcV ((voB L r).view.emb y) = (viB L r).view.emb y := by
  have eo : ∀ a, (((voB L r).view.emb y a : Fin _) : Nat) = k0_off5 L (BitVec.ofNat 32 r.val) a + (![0, 0, (y 0 : Nat), (y 1 : Nat), (y 2 : Nat)] : Fin 5 → Nat) a :=
    unit_emb_sq3 _ _ _ y
  have ei : ∀ a, (((viB L r).view.emb y a : Fin _) : Nat) = k0_off3 L (BitVec.ofNat 32 r.val) a + (![0, 0, (y 0 : Nat), (y 1 : Nat), (y 2 : Nat)] : Fin 5 → Nat) a :=
    unit_emb_sq3 _ _ _ y
  rw [off5_eq] at eo
  rw [off3_eq] at ei
  funext a
  apply Fin.ext
  rw [Spec.srcV_val]
  match a with
  | ⟨0, _⟩ => exact (eo 0).trans (ei 0).symm
  | ⟨1, _⟩ =>
    have h1 : (((voB L r).view.emb y 1 : Fin _) : Nat) = (wid L % 8) * 8 + r.val + 0 := eo 1
    have h2 : (((viB L r).view.emb y 1 : Fin _) : Nat) = 2 * ((wid L % 8) * 8 + r.val) + 0 := ei 1
    show 2 * (((voB L r).view.emb y 1 : Fin _) : Nat) = (((viB L r).view.emb y 1 : Fin _) : Nat)
    omega
  | ⟨2, _⟩ => exact (eo 2).trans (ei 2).symm
  | ⟨3, _⟩ => exact (eo 3).trans (ei 3).symm
  | ⟨4, _⟩ => exact (eo 4).trans (ei 4).symm

/-! ### The audio rows -/

/-- An index `x` matched with shape `[1, 1, a]` is `(0, 0, x)`. -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- An index `x` matched with shape `[1, a]` is `(0, x)`. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show (0 * a + x.val) = x.val
    simp only [Nat.zero_mul, Nat.zero_add])

/-- The index `j` of an audio row placed in a rank-3 array at offsets `off`: `off` plus `(0, 0, j)`. -/
theorem unit_emb_sq1 {n : Fin 3 → Nat} (off : Fin 3 → Nat) (h : ∀ a, off a + S1x1x1024.size a ≤ (⟨3, n⟩ : Shape).size a)
    (hq : S1024.numel = S1x1x1024.numel) (j : Fin 1024) (a : Fin 3) :
    (((Rect.unit (s := ⟨3, n⟩) off S1x1x1024.size h).emb (Shape.reshapeEquiv hq (ix1 j)) a : Fin _) : Nat)
      = off a + (![0, 0, j.val] : Fin 3 → Nat) a := by
  have e : Shape.reshapeEquiv hq (ix1 j) = ix3 (⟨0, Nat.one_pos⟩ : Fin 1) (⟨0, Nat.one_pos⟩ : Fin 1) j :=
    reshapeEquiv_ix1_11a hq j
  refine (congrArg (fun z : S1x1x1024.Idx => (((Rect.unit (s := ⟨3, n⟩) off S1x1x1024.size h).emb z a : Fin _) : Nat)) e).trans ?_
  match a with
  | ⟨0, _⟩ => rfl
  | ⟨1, _⟩ => rfl
  | ⟨2, _⟩ => show off 2 + 1 * j.val = off 2 + j.val; omega

/-- The index `(i, j)` of a block of eight audio rows placed in a rank-3 array at offsets `off`: `off` plus `(0, i, j)`. -/
theorem unit_emb_sq2 {n : Fin 3 → Nat} (off : Fin 3 → Nat) (h : ∀ a, off a + S1x8x1024.size a ≤ (⟨3, n⟩ : Shape).size a)
    (hq : S8x1024.numel = S1x8x1024.numel) (i : Fin 8) (j : Fin 1024) (a : Fin 3) :
    (((Rect.unit (s := ⟨3, n⟩) off S1x8x1024.size h).emb (Shape.reshapeEquiv hq (ix2 i j)) a : Fin _) : Nat)
      = off a + (![0, i.val, j.val] : Fin 3 → Nat) a := by
  have e : Shape.reshapeEquiv hq (ix2 i j) = ix3 (⟨0, Nat.one_pos⟩ : Fin 1) i j := reshapeEquiv_ix2_1ab hq i j
  refine (congrArg (fun z : S1x8x1024.Idx => (((Rect.unit (s := ⟨3, n⟩) off S1x8x1024.size h).emb z a : Fin _) : Nat)) e).trans ?_
  match a with
  | ⟨0, _⟩ => rfl
  | ⟨1, _⟩ => show off 1 + 1 * i.val = off 1 + i.val; omega
  | ⟨2, _⟩ => show off 2 + 1 * j.val = off 2 + j.val; omega

/-- The source of the entry `(i, j)` of a worker's output audio block is entry `j` of its `i`-th input row. -/
theorem srcA_aoB_ix (L : grid0.Coords) (i : Fin 8) (j : Fin 1024) :
    Spec.srcA ((aoB L).view.emb (ix2 i j)) = (aiR L i).view.emb (ix1 j) := by
  have eo : ∀ a, (((aoB L).view.emb (ix2 i j) a : Fin _) : Nat) = k0_off6 L a + (![0, i.val, j.val] : Fin 3 → Nat) a :=
    unit_emb_sq2 _ _ _ i j
  have ei : ∀ a, (((aiR L i).view.emb (ix1 j) a : Fin _) : Nat) = k0_off1 L (BitVec.ofNat 32 i.val) a + (![0, 0, j.val] : Fin 3 → Nat) a :=
    unit_emb_sq1 _ _ _ j
  rw [off6_eq] at eo
  rw [off1_eq] at ei
  funext a
  apply Fin.ext
  rw [Spec.srcA_val]
  match a with
  | ⟨0, _⟩ => exact (eo 0).trans (ei 0).symm
  | ⟨1, _⟩ =>
    have h1 : (((aoB L).view.emb (ix2 i j) 1 : Fin _) : Nat) = (wid L % 8) * 8 + i.val := eo 1
    have h2 : (((aiR L i).view.emb (ix1 j) 1 : Fin _) : Nat) = 2 * ((wid L % 8) * 8 + i.val) + 0 := ei 1
    show 2 * (((aoB L).view.emb (ix2 i j) 1 : Fin _) : Nat) = (((aiR L i).view.emb (ix1 j) 1 : Fin _) : Nat)
    omega
  | ⟨2, _⟩ => exact (eo 2).trans (ei 2).symm

theorem srcA_aoB (L : grid0.Coords) (y : S8x1024.Idx) :
    Spec.srcA ((aoB L).view.emb y) = (aiR L (y 0)).view.emb (ix1 (y 1)) :=
  (congrArg (fun z : S8x1024.Idx => Spec.srcA ((aoB L).view.emb z)) (eq_ix2 y)).trans (srcA_aoB_ix L (y 0) (y 1))

/-! ## A piece copied through a scratch slot

An output piece written whole with what a scratch slot reads, the slot last written whole with what an input piece
reads, holds the input piece's entries, index by index — whatever the output, the slot and the slot's earlier writes
held. -/

/-- Read through `Mo` after the two copies: what `Mi` reads. -/
theorem read_copied {c : Thread nD τ} {spo sps spi : Space} {s : Shape} {e : EltTy}
    (Mo : Memref sig c.2.kind spo s e) (Ms : Memref sig c.2.kind sps s e) (Mi : Memref sig c.2.kind spi s e)
    (fo : Buf (Elt F) (Mo.view.loc c)) (fs : Buf (Elt F) (Ms.view.loc c)) (fi : Buf (Elt F) (Mi.view.loc c))
    (older : List (View.Piece (Elt F) s e)) (y : s.Idx) :
    Mo.view.read (Elt F) (Mo.view.writes (Elt F) fo
        [⟨Rect.whole s, ReadAs.same.apply (Ms.view.read (Elt F) (Ms.view.writes (Elt F) fs
          (⟨Rect.whole s, ReadAs.same.apply (Mi.view.read (Elt F) fi)⟩ :: older)))⟩]) y
      = Mi.view.read (Elt F) fi y := by
  have h1 := View.read_writes_cons_emb Mo.view fo (Rect.whole s)
    (ReadAs.same.apply (Ms.view.read (Elt F) (Ms.view.writes (Elt F) fs
          (⟨Rect.whole s, ReadAs.same.apply (Mi.view.read (Elt F) fi)⟩ :: older)))) [] y
  have h2 := View.read_writes_cons_emb Ms.view fs (Rect.whole s) (ReadAs.same.apply (Mi.view.read (Elt F) fi)) older y
  rw [Rect.emb_whole_apply] at h1 h2
  rw [h1]
  exact h2

/-- The points-to of the output piece after the two copies is the points-to at any contents `G` that agree with the
    input piece's entries index by index. -/
theorem pointsTo_copied {c : Thread nD τ} {spo sps spi : Space} {s : Shape} {e : EltTy}
    (Mo : Memref sig c.2.kind spo s e) (Ms : Memref sig c.2.kind sps s e) (Mi : Memref sig c.2.kind spi s e)
    (fo : Buf (Elt F) (Mo.view.loc c)) (fs : Buf (Elt F) (Ms.view.loc c)) (fi : Buf (Elt F) (Mi.view.loc c))
    (older : List (View.Piece (Elt F) s e)) (G : Buf (Elt F) (Mo.view.loc c))
    (hG : ∀ y, Mo.view.read (Elt F) G y = Mi.view.read (Elt F) fi y) :
    (Mo.view.loc c ↦[Mo.view.set]{fullShare} Mo.view.writes (Elt F) fo
        [⟨Rect.whole s, ReadAs.same.apply (Ms.view.read (Elt F) (Ms.view.writes (Elt F) fs
          (⟨Rect.whole s, ReadAs.same.apply (Mi.view.read (Elt F) fi)⟩ :: older)))⟩] : sProp (𝕄F F))
      = (Mo.view.loc c ↦[Mo.view.set]{fullShare} G) := by
  refine pointsTo_congr fun i hi => ?_
  obtain ⟨y, -, rfl⟩ := Finset.mem_map.mp hi
  have h := (read_copied Mo Ms Mi fo fs fi older y).trans (hG y).symm
  rw [View.read_apply, View.read_apply] at h
  exact (cast_inj _).mp h

/-! ## The two output half-frames of a frame -/

theorem voA_done (d : Dev nD) (L : grid0.Coords) (r : Fin 8) {sps : Space} (Ms : Memref sig .scVector sps S3x56x112 .f32)
    (fvi : Buf (Elt F) (viLoc d)) (fvo : Buf (Elt F) (voLoc d)) (fvb : Buf (Elt F) (Ms.view.loc (thr d L)))
    (older : List (View.Piece (Elt F) S3x56x112 .f32)) :
    ((voA L r).view.loc (thr d L) ↦[(voA L r).view.set]{fullShare} (voA L r).view.writes (Elt F) fvo
        [⟨Rect.whole S3x56x112, ReadAs.same.apply (View.read (Elt F) Ms.view (Ms.view.writes (Elt F) fvb
          (⟨Rect.whole S3x56x112, ReadAs.same.apply (View.read (Elt F) (viA L r).view fvi)⟩ :: older)))⟩] : sProp (𝕄F F))
      = ((voA L r).view.loc (thr d L) ↦[(voA L r).view.set]{fullShare} (Spec.takeV fvi : Buf (Elt F) (voLoc d))) := by
  refine pointsTo_copied (c := thr d L) (voA L r) Ms (viA L r) fvo fvb fvi older _ fun y => ?_
  have e : (Spec.takeV fvi : Buf (Elt F) (voLoc d)) ((voA L r).view.emb y) = fvi ((viA L r).view.emb y) :=
    congrArg fvi (srcV_voA L r y)
  rw [View.read_apply, View.read_apply]
  exact congrArg _ e

theorem voB_done (d : Dev nD) (L : grid0.Coords) (r : Fin 8) {sps : Space} (Ms : Memref sig .scVector sps S3x56x112 .f32)
    (fvi : Buf (Elt F) (viLoc d)) (fvo : Buf (Elt F) (voLoc d)) (fvb : Buf (Elt F) (Ms.view.loc (thr d L)))
    (older : List (View.Piece (Elt F) S3x56x112 .f32)) :
    ((voB L r).view.loc (thr d L) ↦[(voB L r).view.set]{fullShare} (voB L r).view.writes (Elt F) fvo
        [⟨Rect.whole S3x56x112, ReadAs.same.apply (View.read (Elt F) Ms.view (Ms.view.writes (Elt F) fvb
          (⟨Rect.whole S3x56x112, ReadAs.same.apply (View.read (Elt F) (viB L r).view fvi)⟩ :: older)))⟩] : sProp (𝕄F F))
      = ((voB L r).view.loc (thr d L) ↦[(voB L r).view.set]{fullShare} (Spec.takeV fvi : Buf (Elt F) (voLoc d))) := by
  refine pointsTo_copied (c := thr d L) (voB L r) Ms (viB L r) fvo fvb fvi older _ fun y => ?_
  have e : (Spec.takeV fvi : Buf (Elt F) (voLoc d)) ((voB L r).view.emb y) = fvi ((viB L r).view.emb y) :=
    congrArg fvi (srcV_voB L r y)
  rw [View.read_apply, View.read_apply]
  exact congrArg _ e

/-! ## The audio block: eight rows staged in the scratch, then written as one block -/

/-- Row `k` of the audio scratch holds index `j` at `(k, j)`. -/
theorem abRow_emb (k : Nat) (hk : k < 8) (h : ∀ a, (![k, 0] : Fin 2 → Nat) a + S1x1024.size a ≤ S8x1024.size a) (j : Fin 1024) :
    (abRw ![k, 0] h).view.emb (ix1 j) = (ix2 (⟨k, hk⟩ : Fin 8) j : S8x1024.Idx) := by
  have e : Shape.reshapeEquiv squeezes_S1x1024_S1024.numel_eq (ix1 j) = ix2 (⟨0, Nat.one_pos⟩ : Fin 1) j :=
    reshapeEquiv_ix1_1a _ j
  refine (congrArg (fun z : S1x1024.Idx => (Rect.unit (s := S8x1024) ![k, 0] S1x1024.size h).emb z) e).trans ?_
  funext a
  apply Fin.ext
  match a with
  | ⟨0, _⟩ => show k + 1 * 0 = k; omega
  | ⟨1, _⟩ => show 0 + 1 * j.val = j.val; omega

/-- One unmasked write through row `k` of the audio scratch, read at `(i, j)`: the payload on row `k`, nothing else changed. -/
theorem abRow_write (k : Nat) (hk : k < 8) (h : ∀ a, (![k, 0] : Fin 2 → Nat) a + S1x1024.size a ≤ S8x1024.size a)
    (f : abV.view.ty.Contents (Elt F)) (w : S1024.Idx → Elt F .f32) (i : Fin 8) (j : Fin 1024) :
    View.write (Elt F) (abRw ![k, 0] h).view f w Finset.univ (ix2 i j) = if i.val = k then w (ix1 j) else f (ix2 i j) := by
  by_cases hik : i.val = k
  · rw [if_pos hik]
    have hi : i = ⟨k, hk⟩ := Fin.ext hik
    rw [hi, ← abRow_emb k hk h j, View.write_emb_of_mem _ _ (Finset.mem_univ _)]
    rfl
  · rw [if_neg hik]
    refine View.write_of_not_mem _ _ _ fun hm => hik ?_
    obtain ⟨x, -, hx⟩ := Finset.mem_map.mp hm
    have hx' : (abRw ![k, 0] h).view.emb (ix1 (x 0)) = ix2 i j := (congrArg _ (eq_ix1 x).symm).trans hx
    have hx'' : (ix2 (⟨k, hk⟩ : Fin 8) (x 0) : S8x1024.Idx) = ix2 i j := (abRow_emb k hk h (x 0)).symm.trans hx'
    exact (congrArg (fun z : S8x1024.Idx => (z 0 : Nat)) hx'').symm

/-- The eight rows staged one after the other, read at `(i, j)`: row `i`'s payload at `j`. -/
theorem abRows_apply
    (h0 : ∀ a, (![0, 0] : Fin 2 → Nat) a + S1x1024.size a ≤ S8x1024.size a)
    (h1 : ∀ a, (![1, 0] : Fin 2 → Nat) a + S1x1024.size a ≤ S8x1024.size a)
    (h2 : ∀ a, (![2, 0] : Fin 2 → Nat) a + S1x1024.size a ≤ S8x1024.size a)
    (h3 : ∀ a, (![3, 0] : Fin 2 → Nat) a + S1x1024.size a ≤ S8x1024.size a)
    (h4 : ∀ a, (![4, 0] : Fin 2 → Nat) a + S1x1024.size a ≤ S8x1024.size a)
    (h5 : ∀ a, (![5, 0] : Fin 2 → Nat) a + S1x1024.size a ≤ S8x1024.size a)
    (h6 : ∀ a, (![6, 0] : Fin 2 → Nat) a + S1x1024.size a ≤ S8x1024.size a)
    (h7 : ∀ a, (![7, 0] : Fin 2 → Nat) a + S1x1024.size a ≤ S8x1024.size a)
    (fab : abV.view.ty.Contents (Elt F)) (p0 p1 p2 p3 p4 p5 p6 p7 : S1024.Idx → Elt F .f32)
    (q : Fin 8 → Fin 1024 → Elt F .f32)
    (e0 : ∀ j, p0 (ix1 j) = q 0 j) (e1 : ∀ j, p1 (ix1 j) = q 1 j) (e2 : ∀ j, p2 (ix1 j) = q 2 j) (e3 : ∀ j, p3 (ix1 j) = q 3 j)
    (e4 : ∀ j, p4 (ix1 j) = q 4 j) (e5 : ∀ j, p5 (ix1 j) = q 5 j) (e6 : ∀ j, p6 (ix1 j) = q 6 j) (e7 : ∀ j, p7 (ix1 j) = q 7 j)
    (i : Fin 8) (j : Fin 1024) :
    (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab p0 Finset.univ) p1 Finset.univ) p2 Finset.univ) p3 Finset.univ) p4 Finset.univ) p5 Finset.univ) p6 Finset.univ) p7 Finset.univ) (ix2 i j) = q i j := by
  rw [abRow_write 7 (by omega) h7, abRow_write 6 (by omega) h6, abRow_write 5 (by omega) h5, abRow_write 4 (by omega) h4,
    abRow_write 3 (by omega) h3, abRow_write 2 (by omega) h2, abRow_write 1 (by omega) h1, abRow_write 0 (by omega) h0]
  match i with
  | ⟨0, _⟩ => exact e0 j
  | ⟨1, _⟩ => exact e1 j
  | ⟨2, _⟩ => exact e2 j
  | ⟨3, _⟩ => exact e3 j
  | ⟨4, _⟩ => exact e4 j
  | ⟨5, _⟩ => exact e5 j
  | ⟨6, _⟩ => exact e6 j
  | ⟨7, _⟩ => exact e7 j

/-- The output audio block, written whole with what the scratch reads after the eight rows were staged, each with what
    the matching input row reads, holds every second row of the input. -/
theorem ao_done_of (d : Dev nD) (L : grid0.Coords)
    (h0 : ∀ a, (![0, 0] : Fin 2 → Nat) a + S1x1024.size a ≤ S8x1024.size a)
    (h1 : ∀ a, (![1, 0] : Fin 2 → Nat) a + S1x1024.size a ≤ S8x1024.size a)
    (h2 : ∀ a, (![2, 0] : Fin 2 → Nat) a + S1x1024.size a ≤ S8x1024.size a)
    (h3 : ∀ a, (![3, 0] : Fin 2 → Nat) a + S1x1024.size a ≤ S8x1024.size a)
    (h4 : ∀ a, (![4, 0] : Fin 2 → Nat) a + S1x1024.size a ≤ S8x1024.size a)
    (h5 : ∀ a, (![5, 0] : Fin 2 → Nat) a + S1x1024.size a ≤ S8x1024.size a)
    (h6 : ∀ a, (![6, 0] : Fin 2 → Nat) a + S1x1024.size a ≤ S8x1024.size a)
    (h7 : ∀ a, (![7, 0] : Fin 2 → Nat) a + S1x1024.size a ≤ S8x1024.size a)
    (fai : Buf (Elt F) (aiLoc d)) (fao : Buf (Elt F) (aoLoc d)) (fab : Buf (Elt F) (abV.view.loc (thr d L)))
    (p0 p1 p2 p3 p4 p5 p6 p7 : S1024.Idx → Elt F .f32)
    (e0 : p0 = ReadAs.same.apply (View.read (Elt F) (aiR L 0).view fai)) (e1 : p1 = ReadAs.same.apply (View.read (Elt F) (aiR L 1).view fai))
    (e2 : p2 = ReadAs.same.apply (View.read (Elt F) (aiR L 2).view fai)) (e3 : p3 = ReadAs.same.apply (View.read (Elt F) (aiR L 3).view fai))
    (e4 : p4 = ReadAs.same.apply (View.read (Elt F) (aiR L 4).view fai)) (e5 : p5 = ReadAs.same.apply (View.read (Elt F) (aiR L 5).view fai))
    (e6 : p6 = ReadAs.same.apply (View.read (Elt F) (aiR L 6).view fai)) (e7 : p7 = ReadAs.same.apply (View.read (Elt F) (aiR L 7).view fai)) :
    ((aoB L).view.loc (thr d L) ↦[(aoB L).view.set]{fullShare} (aoB L).view.writes (Elt F) fao
        [⟨Rect.whole S8x1024, ReadAs.same.apply (View.read (Elt F) abV.view
          (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab p0 Finset.univ) p1 Finset.univ) p2 Finset.univ) p3 Finset.univ) p4 Finset.univ) p5 Finset.univ) p6 Finset.univ) p7 Finset.univ))⟩] : sProp (𝕄F F))
      = ((aoB L).view.loc (thr d L) ↦[(aoB L).view.set]{fullShare} (Spec.takeA fai : Buf (Elt F) (aoLoc d))) := by
  subst e0 e1 e2 e3 e4 e5 e6 e7
  refine pointsTo_congr fun i hi => ?_
  obtain ⟨y, -, rfl⟩ := Finset.mem_map.mp hi
  have r1 := View.read_writes_cons_emb (aoB L).view fao (Rect.whole S8x1024) (ReadAs.same.apply (View.read (Elt F) abV.view
          (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab (ReadAs.same.apply (View.read (Elt F) (aiR L 0).view fai)) Finset.univ) (ReadAs.same.apply (View.read (Elt F) (aiR L 1).view fai)) Finset.univ) (ReadAs.same.apply (View.read (Elt F) (aiR L 2).view fai)) Finset.univ) (ReadAs.same.apply (View.read (Elt F) (aiR L 3).view fai)) Finset.univ) (ReadAs.same.apply (View.read (Elt F) (aiR L 4).view fai)) Finset.univ) (ReadAs.same.apply (View.read (Elt F) (aiR L 5).view fai)) Finset.univ) (ReadAs.same.apply (View.read (Elt F) (aiR L 6).view fai)) Finset.univ) (ReadAs.same.apply (View.read (Elt F) (aiR L 7).view fai)) Finset.univ))) [] y
  rw [Rect.emb_whole_apply] at r1
  have r2 : ∀ (i : Fin 8) (j : Fin 1024),
      (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab (ReadAs.same.apply (View.read (Elt F) (aiR L 0).view fai)) Finset.univ) (ReadAs.same.apply (View.read (Elt F) (aiR L 1).view fai)) Finset.univ) (ReadAs.same.apply (View.read (Elt F) (aiR L 2).view fai)) Finset.univ) (ReadAs.same.apply (View.read (Elt F) (aiR L 3).view fai)) Finset.univ) (ReadAs.same.apply (View.read (Elt F) (aiR L 4).view fai)) Finset.univ) (ReadAs.same.apply (View.read (Elt F) (aiR L 5).view fai)) Finset.univ) (ReadAs.same.apply (View.read (Elt F) (aiR L 6).view fai)) Finset.univ) (ReadAs.same.apply (View.read (Elt F) (aiR L 7).view fai)) Finset.univ) (ix2 i j)
        = (aoB L).view.read (Elt F) (Spec.takeA fai : Buf (Elt F) (aoLoc d)) (ix2 i j) := fun i j =>
    (abRows_apply h0 h1 h2 h3 h4 h5 h6 h7 fab _ _ _ _ _ _ _ _ (fun i j => fai ((aiR L i).view.emb (ix1 j)))
      (fun _ => rfl) (fun _ => rfl) (fun _ => rfl) (fun _ => rfl) (fun _ => rfl) (fun _ => rfl) (fun _ => rfl) (fun _ => rfl) i j).trans
      (congrArg fai (srcA_aoB_ix L i j)).symm
  have r3 := r1.trans ((congrArg _ (eq_ix2 y)).trans ((r2 (y 0) (y 1)).trans (congrArg _ (eq_ix2 y)).symm))
  rw [View.read_apply, View.read_apply] at r3
  exact (cast_inj _).mp r3

/-- The same with the rows and payloads as the body names them: scratch row `k` at the literal offsets `(k, 0)`, its
    payload what input row `k` of the worker reads. -/
theorem ao_done (d : Dev nD) (L : grid0.Coords)
    (fai : Buf (Elt F) (aiLoc d)) (fao : Buf (Elt F) (aoLoc d)) (fab : Buf (Elt F) (abV.view.loc (thr d L))) :
    ((aoB L).view.loc (thr d L) ↦[(aoB L).view.set]{fullShare} (aoB L).view.writes (Elt F) fao
        [⟨Rect.whole S8x1024, ReadAs.same.apply (View.read (Elt F) abV.view
          (View.write (Elt F) (abRw ![7, 0] inb_S8x1024_S1x1024_7_0).view (View.write (Elt F) (abRw ![6, 0] inb_S8x1024_S1x1024_6_0).view (View.write (Elt F) (abRw ![5, 0] inb_S8x1024_S1x1024_5_0).view (View.write (Elt F) (abRw ![4, 0] inb_S8x1024_S1x1024_4_0).view (View.write (Elt F) (abRw ![3, 0] inb_S8x1024_S1x1024_3_0).view (View.write (Elt F) (abRw ![2, 0] inb_S8x1024_S1x1024_2_0).view (View.write (Elt F) (abRw ![1, 0] inb_S8x1024_S1x1024_1_0).view (View.write (Elt F) (abRw ![0, 0] inb_S8x1024_S1x1024_0_0).view fab (ReadAs.same.apply (View.read (Elt F) (aiRw L 0#32 (k0_off1_inb L 0)).view fai)) Finset.univ) (ReadAs.same.apply (View.read (Elt F) (aiRw L 1#32 (k0_off1_inb L 1)).view fai)) Finset.univ) (ReadAs.same.apply (View.read (Elt F) (aiRw L 2#32 (k0_off1_inb L 2)).view fai)) Finset.univ) (ReadAs.same.apply (View.read (Elt F) (aiRw L 3#32 (k0_off1_inb L 3)).view fai)) Finset.univ) (ReadAs.same.apply (View.read (Elt F) (aiRw L 4#32 (k0_off1_inb L 4)).view fai)) Finset.univ) (ReadAs.same.apply (View.read (Elt F) (aiRw L 5#32 (k0_off1_inb L 5)).view fai)) Finset.univ) (ReadAs.same.apply (View.read (Elt F) (aiRw L 6#32 (k0_off1_inb L 6)).view fai)) Finset.univ) (ReadAs.same.apply (View.read (Elt F) (aiRw L 7#32 (k0_off1_inb L 7)).view fai)) Finset.univ))⟩] : sProp (𝕄F F))
      = ((aoB L).view.loc (thr d L) ↦[(aoB L).view.set]{fullShare} (Spec.takeA fai : Buf (Elt F) (aoLoc d))) :=
  ao_done_of d L inb_S8x1024_S1x1024_0_0 inb_S8x1024_S1x1024_1_0 inb_S8x1024_S1x1024_2_0 inb_S8x1024_S1x1024_3_0 inb_S8x1024_S1x1024_4_0 inb_S8x1024_S1x1024_5_0 inb_S8x1024_S1x1024_6_0 inb_S8x1024_S1x1024_7_0 fai fao fab _ _ _ _ _ _ _ _ rfl rfl rfl rfl rfl rfl rfl rfl

end Cert.Proof.KI

end
-- ==== Proof.KIBody.lean ====
/-
  One tile's run of the copy kernel, followed copy by copy and wait by wait: eight audio-row copies started together on one
  semaphore, the sixteen half-frames streamed through the four-slot ring (a slot's inbound copy waited for before its
  outbound copy starts, the outbound waited for before the slot is refilled), the ring drained, the audio rows waited
  for and written out in one copy. Every wait is on a semaphore the tile itself signals, so nothing is owed to any
  other thread. What the output pieces hold afterwards is every second frame of the input.
-/
import proofs.«207661_g395136991783_cont_8to1_b_1346_21_alg».proof.Proof.KIRes
import proofs.«207661_g395136991783_cont_8to1_b_1346_21_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A recorded wait at the kernels' index keeps the waits' ledger in the form the launch asks for. -/
theorem ins_ok {W0 W : Waits sig (HIx 1)} (h : ∀ p ∈ W0, p ∈ W ∨ p.2 = none) (s : SemLoc sig) :
    ∀ p ∈ insert (s, (default : HIx 1)) W0, p ∈ W ∨ p.2 = none := by
  intro p hp
  rcases Finset.mem_insert.mp hp with hp | hp
  · exact .inr (hp ▸ rfl)
  · exact h p hp

set_option maxHeartbeats 8000000 in
/-- The body from the pieces, each slice held by exactly its own elements, to the same pieces, the outputs written; whatever else
    the tile holds (`R`) is carried along. -/
theorem tile_run (d : Dev nD) (L : grid0.Coords) (O : CellTallies nD τ sig (HIx 1)) (W : Waits sig (HIx 1))
    (fvb : Buf (Elt F) ((thr d L).loc cc0_scratch0)) (fab : Buf (Elt F) ((thr d L).loc cc0_scratch1))
    (fvi : Buf (Elt F) (viLoc d)) (fai : Buf (Elt F) (aiLoc d)) (fvo : Buf (Elt F) (voLoc d)) (fao : Buf (Elt F) (aoLoc d)) (R : sProp 𝕄) :
    (iprop(Transfers.MayWaits (thr d L) (default : HIx 1) O
      ∗ owes (thr d L) O W
      ∗ semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ ((vbS0).view.loc (thr d L) ↦[(vbS0).view.set]{fullShare} fvb)
      ∗ ((vbS1).view.loc (thr d L) ↦[(vbS1).view.set]{fullShare} fvb)
      ∗ ((vbS2).view.loc (thr d L) ↦[(vbS2).view.set]{fullShare} fvb)
      ∗ ((vbS3).view.loc (thr d L) ↦[(vbS3).view.set]{fullShare} fvb)
      ∗ ((abV).view.loc (thr d L) ↦{fullShare} fab)
      ∗ ((viAw L 0#32 (k0_off2_inb L 0)).view.loc (thr d L) ↦[(viAw L 0#32 (k0_off2_inb L 0)).view.set]{fullShare} fvi)
      ∗ ((viBw L 0#32 (k0_off3_inb L 0)).view.loc (thr d L) ↦[(viBw L 0#32 (k0_off3_inb L 0)).view.set]{fullShare} fvi)
      ∗ ((aiRw L 0#32 (k0_off1_inb L 0)).view.loc (thr d L) ↦[(aiRw L 0#32 (k0_off1_inb L 0)).view.set]{fullShare} fai)
      ∗ ((viAw L 1#32 (k0_off2_inb L 1)).view.loc (thr d L) ↦[(viAw L 1#32 (k0_off2_inb L 1)).view.set]{fullShare} fvi)
      ∗ ((viBw L 1#32 (k0_off3_inb L 1)).view.loc (thr d L) ↦[(viBw L 1#32 (k0_off3_inb L 1)).view.set]{fullShare} fvi)
      ∗ ((aiRw L 1#32 (k0_off1_inb L 1)).view.loc (thr d L) ↦[(aiRw L 1#32 (k0_off1_inb L 1)).view.set]{fullShare} fai)
      ∗ ((viAw L 2#32 (k0_off2_inb L 2)).view.loc (thr d L) ↦[(viAw L 2#32 (k0_off2_inb L 2)).view.set]{fullShare} fvi)
      ∗ ((viBw L 2#32 (k0_off3_inb L 2)).view.loc (thr d L) ↦[(viBw L 2#32 (k0_off3_inb L 2)).view.set]{fullShare} fvi)
      ∗ ((aiRw L 2#32 (k0_off1_inb L 2)).view.loc (thr d L) ↦[(aiRw L 2#32 (k0_off1_inb L 2)).view.set]{fullShare} fai)
      ∗ ((viAw L 3#32 (k0_off2_inb L 3)).view.loc (thr d L) ↦[(viAw L 3#32 (k0_off2_inb L 3)).view.set]{fullShare} fvi)
      ∗ ((viBw L 3#32 (k0_off3_inb L 3)).view.loc (thr d L) ↦[(viBw L 3#32 (k0_off3_inb L 3)).view.set]{fullShare} fvi)
      ∗ ((aiRw L 3#32 (k0_off1_inb L 3)).view.loc (thr d L) ↦[(aiRw L 3#32 (k0_off1_inb L 3)).view.set]{fullShare} fai)
      ∗ ((viAw L 4#32 (k0_off2_inb L 4)).view.loc (thr d L) ↦[(viAw L 4#32 (k0_off2_inb L 4)).view.set]{fullShare} fvi)
      ∗ ((viBw L 4#32 (k0_off3_inb L 4)).view.loc (thr d L) ↦[(viBw L 4#32 (k0_off3_inb L 4)).view.set]{fullShare} fvi)
      ∗ ((aiRw L 4#32 (k0_off1_inb L 4)).view.loc (thr d L) ↦[(aiRw L 4#32 (k0_off1_inb L 4)).view.set]{fullShare} fai)
      ∗ ((viAw L 5#32 (k0_off2_inb L 5)).view.loc (thr d L) ↦[(viAw L 5#32 (k0_off2_inb L 5)).view.set]{fullShare} fvi)
      ∗ ((viBw L 5#32 (k0_off3_inb L 5)).view.loc (thr d L) ↦[(viBw L 5#32 (k0_off3_inb L 5)).view.set]{fullShare} fvi)
      ∗ ((aiRw L 5#32 (k0_off1_inb L 5)).view.loc (thr d L) ↦[(aiRw L 5#32 (k0_off1_inb L 5)).view.set]{fullShare} fai)
      ∗ ((viAw L 6#32 (k0_off2_inb L 6)).view.loc (thr d L) ↦[(viAw L 6#32 (k0_off2_inb L 6)).view.set]{fullShare} fvi)
      ∗ ((viBw L 6#32 (k0_off3_inb L 6)).view.loc (thr d L) ↦[(viBw L 6#32 (k0_off3_inb L 6)).view.set]{fullShare} fvi)
      ∗ ((aiRw L 6#32 (k0_off1_inb L 6)).view.loc (thr d L) ↦[(aiRw L 6#32 (k0_off1_inb L 6)).view.set]{fullShare} fai)
      ∗ ((viAw L 7#32 (k0_off2_inb L 7)).view.loc (thr d L) ↦[(viAw L 7#32 (k0_off2_inb L 7)).view.set]{fullShare} fvi)
      ∗ ((viBw L 7#32 (k0_off3_inb L 7)).view.loc (thr d L) ↦[(viBw L 7#32 (k0_off3_inb L 7)).view.set]{fullShare} fvi)
      ∗ ((aiRw L 7#32 (k0_off1_inb L 7)).view.loc (thr d L) ↦[(aiRw L 7#32 (k0_off1_inb L 7)).view.set]{fullShare} fai)
      ∗ ((voAw L 0#32 (k0_off4_inb L 0)).view.loc (thr d L) ↦[(voAw L 0#32 (k0_off4_inb L 0)).view.set]{fullShare} fvo)
      ∗ ((voBw L 0#32 (k0_off5_inb L 0)).view.loc (thr d L) ↦[(voBw L 0#32 (k0_off5_inb L 0)).view.set]{fullShare} fvo)
      ∗ ((voAw L 1#32 (k0_off4_inb L 1)).view.loc (thr d L) ↦[(voAw L 1#32 (k0_off4_inb L 1)).view.set]{fullShare} fvo)
      ∗ ((voBw L 1#32 (k0_off5_inb L 1)).view.loc (thr d L) ↦[(voBw L 1#32 (k0_off5_inb L 1)).view.set]{fullShare} fvo)
      ∗ ((voAw L 2#32 (k0_off4_inb L 2)).view.loc (thr d L) ↦[(voAw L 2#32 (k0_off4_inb L 2)).view.set]{fullShare} fvo)
      ∗ ((voBw L 2#32 (k0_off5_inb L 2)).view.loc (thr d L) ↦[(voBw L 2#32 (k0_off5_inb L 2)).view.set]{fullShare} fvo)
      ∗ ((voAw L 3#32 (k0_off4_inb L 3)).view.loc (thr d L) ↦[(voAw L 3#32 (k0_off4_inb L 3)).view.set]{fullShare} fvo)
      ∗ ((voBw L 3#32 (k0_off5_inb L 3)).view.loc (thr d L) ↦[(voBw L 3#32 (k0_off5_inb L 3)).view.set]{fullShare} fvo)
      ∗ ((voAw L 4#32 (k0_off4_inb L 4)).view.loc (thr d L) ↦[(voAw L 4#32 (k0_off4_inb L 4)).view.set]{fullShare} fvo)
      ∗ ((voBw L 4#32 (k0_off5_inb L 4)).view.loc (thr d L) ↦[(voBw L 4#32 (k0_off5_inb L 4)).view.set]{fullShare} fvo)
      ∗ ((voAw L 5#32 (k0_off4_inb L 5)).view.loc (thr d L) ↦[(voAw L 5#32 (k0_off4_inb L 5)).view.set]{fullShare} fvo)
      ∗ ((voBw L 5#32 (k0_off5_inb L 5)).view.loc (thr d L) ↦[(voBw L 5#32 (k0_off5_inb L 5)).view.set]{fullShare} fvo)
      ∗ ((voAw L 6#32 (k0_off4_inb L 6)).view.loc (thr d L) ↦[(voAw L 6#32 (k0_off4_inb L 6)).view.set]{fullShare} fvo)
      ∗ ((voBw L 6#32 (k0_off5_inb L 6)).view.loc (thr d L) ↦[(voBw L 6#32 (k0_off5_inb L 6)).view.set]{fullShare} fvo)
      ∗ ((voAw L 7#32 (k0_off4_inb L 7)).view.loc (thr d L) ↦[(voAw L 7#32 (k0_off4_inb L 7)).view.set]{fullShare} fvo)
      ∗ ((voBw L 7#32 (k0_off5_inb L 7)).view.loc (thr d L) ↦[(voBw L 7#32 (k0_off5_inb L 7)).view.set]{fullShare} fvo)
      ∗ ((aoB L).view.loc (thr d L) ↦[(aoB L).view.set]{fullShare} fao)
      ∗ R) : sProp 𝕄)
      ⊢ wp frame (wpE (defs₀ (F := F)) 𝒱₀ (thr d L) none) Set.univ
          (cc0_sc_copy L viV (Memref.isWhole_whole _) aiV (Memref.isWhole_whole _) voV (Memref.isWhole_whole _) aoV (Memref.isWhole_whole _)
            vbV (Memref.isWhole_whole _) abV (Memref.isWhole_whole _) cc0_scratch2 cc0_scratch3 cc0_scratch4 cc0_scratch5)
          fun _ => iprop(semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ (∃ f, (vbS0).view.loc (thr d L) ↦[(vbS0).view.set]{fullShare} f)
      ∗ (∃ f, (vbS1).view.loc (thr d L) ↦[(vbS1).view.set]{fullShare} f)
      ∗ (∃ f, (vbS2).view.loc (thr d L) ↦[(vbS2).view.set]{fullShare} f)
      ∗ (∃ f, (vbS3).view.loc (thr d L) ↦[(vbS3).view.set]{fullShare} f)
      ∗ (∃ f, (abV).view.loc (thr d L) ↦{fullShare} f)
      ∗ ((viAw L 0#32 (k0_off2_inb L 0)).view.loc (thr d L) ↦[(viAw L 0#32 (k0_off2_inb L 0)).view.set]{fullShare} fvi)
      ∗ ((viBw L 0#32 (k0_off3_inb L 0)).view.loc (thr d L) ↦[(viBw L 0#32 (k0_off3_inb L 0)).view.set]{fullShare} fvi)
      ∗ ((aiRw L 0#32 (k0_off1_inb L 0)).view.loc (thr d L) ↦[(aiRw L 0#32 (k0_off1_inb L 0)).view.set]{fullShare} fai)
      ∗ ((viAw L 1#32 (k0_off2_inb L 1)).view.loc (thr d L) ↦[(viAw L 1#32 (k0_off2_inb L 1)).view.set]{fullShare} fvi)
      ∗ ((viBw L 1#32 (k0_off3_inb L 1)).view.loc (thr d L) ↦[(viBw L 1#32 (k0_off3_inb L 1)).view.set]{fullShare} fvi)
      ∗ ((aiRw L 1#32 (k0_off1_inb L 1)).view.loc (thr d L) ↦[(aiRw L 1#32 (k0_off1_inb L 1)).view.set]{fullShare} fai)
      ∗ ((viAw L 2#32 (k0_off2_inb L 2)).view.loc (thr d L) ↦[(viAw L 2#32 (k0_off2_inb L 2)).view.set]{fullShare} fvi)
      ∗ ((viBw L 2#32 (k0_off3_inb L 2)).view.loc (thr d L) ↦[(viBw L 2#32 (k0_off3_inb L 2)).view.set]{fullShare} fvi)
      ∗ ((aiRw L 2#32 (k0_off1_inb L 2)).view.loc (thr d L) ↦[(aiRw L 2#32 (k0_off1_inb L 2)).view.set]{fullShare} fai)
      ∗ ((viAw L 3#32 (k0_off2_inb L 3)).view.loc (thr d L) ↦[(viAw L 3#32 (k0_off2_inb L 3)).view.set]{fullShare} fvi)
      ∗ ((viBw L 3#32 (k0_off3_inb L 3)).view.loc (thr d L) ↦[(viBw L 3#32 (k0_off3_inb L 3)).view.set]{fullShare} fvi)
      ∗ ((aiRw L 3#32 (k0_off1_inb L 3)).view.loc (thr d L) ↦[(aiRw L 3#32 (k0_off1_inb L 3)).view.set]{fullShare} fai)
      ∗ ((viAw L 4#32 (k0_off2_inb L 4)).view.loc (thr d L) ↦[(viAw L 4#32 (k0_off2_inb L 4)).view.set]{fullShare} fvi)
      ∗ ((viBw L 4#32 (k0_off3_inb L 4)).view.loc (thr d L) ↦[(viBw L 4#32 (k0_off3_inb L 4)).view.set]{fullShare} fvi)
      ∗ ((aiRw L 4#32 (k0_off1_inb L 4)).view.loc (thr d L) ↦[(aiRw L 4#32 (k0_off1_inb L 4)).view.set]{fullShare} fai)
      ∗ ((viAw L 5#32 (k0_off2_inb L 5)).view.loc (thr d L) ↦[(viAw L 5#32 (k0_off2_inb L 5)).view.set]{fullShare} fvi)
      ∗ ((viBw L 5#32 (k0_off3_inb L 5)).view.loc (thr d L) ↦[(viBw L 5#32 (k0_off3_inb L 5)).view.set]{fullShare} fvi)
      ∗ ((aiRw L 5#32 (k0_off1_inb L 5)).view.loc (thr d L) ↦[(aiRw L 5#32 (k0_off1_inb L 5)).view.set]{fullShare} fai)
      ∗ ((viAw L 6#32 (k0_off2_inb L 6)).view.loc (thr d L) ↦[(viAw L 6#32 (k0_off2_inb L 6)).view.set]{fullShare} fvi)
      ∗ ((viBw L 6#32 (k0_off3_inb L 6)).view.loc (thr d L) ↦[(viBw L 6#32 (k0_off3_inb L 6)).view.set]{fullShare} fvi)
      ∗ ((aiRw L 6#32 (k0_off1_inb L 6)).view.loc (thr d L) ↦[(aiRw L 6#32 (k0_off1_inb L 6)).view.set]{fullShare} fai)
      ∗ ((viAw L 7#32 (k0_off2_inb L 7)).view.loc (thr d L) ↦[(viAw L 7#32 (k0_off2_inb L 7)).view.set]{fullShare} fvi)
      ∗ ((viBw L 7#32 (k0_off3_inb L 7)).view.loc (thr d L) ↦[(viBw L 7#32 (k0_off3_inb L 7)).view.set]{fullShare} fvi)
      ∗ ((aiRw L 7#32 (k0_off1_inb L 7)).view.loc (thr d L) ↦[(aiRw L 7#32 (k0_off1_inb L 7)).view.set]{fullShare} fai)
      ∗ ((voAw L 0#32 (k0_off4_inb L 0)).view.loc (thr d L) ↦[(voAw L 0#32 (k0_off4_inb L 0)).view.set]{fullShare} (Spec.takeV fvi : Buf (Elt F) (voLoc d)))
      ∗ ((voBw L 0#32 (k0_off5_inb L 0)).view.loc (thr d L) ↦[(voBw L 0#32 (k0_off5_inb L 0)).view.set]{fullShare} (Spec.takeV fvi : Buf (Elt F) (voLoc d)))
      ∗ ((voAw L 1#32 (k0_off4_inb L 1)).view.loc (thr d L) ↦[(voAw L 1#32 (k0_off4_inb L 1)).view.set]{fullShare} (Spec.takeV fvi : Buf (Elt F) (voLoc d)))
      ∗ ((voBw L 1#32 (k0_off5_inb L 1)).view.loc (thr d L) ↦[(voBw L 1#32 (k0_off5_inb L 1)).view.set]{fullShare} (Spec.takeV fvi : Buf (Elt F) (voLoc d)))
      ∗ ((voAw L 2#32 (k0_off4_inb L 2)).view.loc (thr d L) ↦[(voAw L 2#32 (k0_off4_inb L 2)).view.set]{fullShare} (Spec.takeV fvi : Buf (Elt F) (voLoc d)))
      ∗ ((voBw L 2#32 (k0_off5_inb L 2)).view.loc (thr d L) ↦[(voBw L 2#32 (k0_off5_inb L 2)).view.set]{fullShare} (Spec.takeV fvi : Buf (Elt F) (voLoc d)))
      ∗ ((voAw L 3#32 (k0_off4_inb L 3)).view.loc (thr d L) ↦[(voAw L 3#32 (k0_off4_inb L 3)).view.set]{fullShare} (Spec.takeV fvi : Buf (Elt F) (voLoc d)))
      ∗ ((voBw L 3#32 (k0_off5_inb L 3)).view.loc (thr d L) ↦[(voBw L 3#32 (k0_off5_inb L 3)).view.set]{fullShare} (Spec.takeV fvi : Buf (Elt F) (voLoc d)))
      ∗ ((voAw L 4#32 (k0_off4_inb L 4)).view.loc (thr d L) ↦[(voAw L 4#32 (k0_off4_inb L 4)).view.set]{fullShare} (Spec.takeV fvi : Buf (Elt F) (voLoc d)))
      ∗ ((voBw L 4#32 (k0_off5_inb L 4)).view.loc (thr d L) ↦[(voBw L 4#32 (k0_off5_inb L 4)).view.set]{fullShare} (Spec.takeV fvi : Buf (Elt F) (voLoc d)))
      ∗ ((voAw L 5#32 (k0_off4_inb L 5)).view.loc (thr d L) ↦[(voAw L 5#32 (k0_off4_inb L 5)).view.set]{fullShare} (Spec.takeV fvi : Buf (Elt F) (voLoc d)))
      ∗ ((voBw L 5#32 (k0_off5_inb L 5)).view.loc (thr d L) ↦[(voBw L 5#32 (k0_off5_inb L 5)).view.set]{fullShare} (Spec.takeV fvi : Buf (Elt F) (voLoc d)))
      ∗ ((voAw L 6#32 (k0_off4_inb L 6)).view.loc (thr d L) ↦[(voAw L 6#32 (k0_off4_inb L 6)).view.set]{fullShare} (Spec.takeV fvi : Buf (Elt F) (voLoc d)))
      ∗ ((voBw L 6#32 (k0_off5_inb L 6)).view.loc (thr d L) ↦[(voBw L 6#32 (k0_off5_inb L 6)).view.set]{fullShare} (Spec.takeV fvi : Buf (Elt F) (voLoc d)))
      ∗ ((voAw L 7#32 (k0_off4_inb L 7)).view.loc (thr d L) ↦[(voAw L 7#32 (k0_off4_inb L 7)).view.set]{fullShare} (Spec.takeV fvi : Buf (Elt F) (voLoc d)))
      ∗ ((voBw L 7#32 (k0_off5_inb L 7)).view.loc (thr d L) ↦[(voBw L 7#32 (k0_off5_inb L 7)).view.set]{fullShare} (Spec.takeV fvi : Buf (Elt F) (voLoc d)))
      ∗ ((aoB L).view.loc (thr d L) ↦[(aoB L).view.set]{fullShare} (Spec.takeA fai : Buf (Elt F) (aoLoc d)))
      ∗ R
      ∗ ∃ W', ⌜∀ p ∈ W', p ∈ W ∨ p.2 = none⌝ ∗ owes (thr d L) O W') := by
  have _plan : Transfers.BatchOf (thr d L) (SemLoc.dma (sig := sig) cc0_scratch4.sem) 8 (windows := true) := trivial
  rw [cc0_sc_copy_eq_skeleton]; unfold cc0_sc_copy_skel
  iintro ⟨Hmw, HO, Hi0, Hi1, Hi2, Hi3, Ho0, Ho1, Ho2, Ho3, Hsa, Hsb, Hvb0, Hvb1, Hvb2, Hvb3, Hab, HviA0, HviB0, Hai0, HviA1, HviB1, Hai1, HviA2, HviB2, Hai2, HviA3, HviB3, Hai3, HviA4, HviB4, Hai4, HviA5, HviB5, Hai5, HviA6, HviB6, Hai6, HviA7, HviB7, Hai7, HvoA0, HvoB0, HvoA1, HvoB1, HvoA2, HvoB2, HvoA3, HvoB3, HvoA4, HvoB4, HvoA5, HvoB5, HvoA6, HvoB6, HvoA7, HvoB7, Hao, HR⟩
  sl_exec
  sl_step
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hsa]; · iexact Hsa
  isplitl [Hsb]; · iexact Hsb
  isplitl [Hvb0]; · iexists _; iexact Hvb0
  isplitl [Hvb1]; · iexists _; iexact Hvb1
  isplitl [Hvb2]; · iexists _; iexact Hvb2
  isplitl [Hvb3]; · iexists _; iexact Hvb3
  isplitl [Hab]; · iexists _; iexact Hab
  isplitl [HviA0]; · iexact HviA0
  isplitl [HviB0]; · iexact HviB0
  isplitl [Hai0]; · iexact Hai0
  isplitl [HviA1]; · iexact HviA1
  isplitl [HviB1]; · iexact HviB1
  isplitl [Hai1]; · iexact Hai1
  isplitl [HviA2]; · iexact HviA2
  isplitl [HviB2]; · iexact HviB2
  isplitl [Hai2]; · iexact Hai2
  isplitl [HviA3]; · iexact HviA3
  isplitl [HviB3]; · iexact HviB3
  isplitl [Hai3]; · iexact Hai3
  isplitl [HviA4]; · iexact HviA4
  isplitl [HviB4]; · iexact HviB4
  isplitl [Hai4]; · iexact Hai4
  isplitl [HviA5]; · iexact HviA5
  isplitl [HviB5]; · iexact HviB5
  isplitl [Hai5]; · iexact Hai5
  isplitl [HviA6]; · iexact HviA6
  isplitl [HviB6]; · iexact HviB6
  isplitl [Hai6]; · iexact Hai6
  isplitl [HviA7]; · iexact HviA7
  isplitl [HviB7]; · iexact HviB7
  isplitl [Hai7]; · iexact Hai7
  isplitl [HvoA0]; · iapply (Entails.of_eq (voA_done (F := F) d L 0 _ fvi fvo _ _)); iexact HvoA0
  isplitl [HvoB0]; · iapply (Entails.of_eq (voB_done (F := F) d L 0 _ fvi fvo _ _)); iexact HvoB0
  isplitl [HvoA1]; · iapply (Entails.of_eq (voA_done (F := F) d L 1 _ fvi fvo _ _)); iexact HvoA1
  isplitl [HvoB1]; · iapply (Entails.of_eq (voB_done (F := F) d L 1 _ fvi fvo _ _)); iexact HvoB1
  isplitl [HvoA2]; · iapply (Entails.of_eq (voA_done (F := F) d L 2 _ fvi fvo _ _)); iexact HvoA2
  isplitl [HvoB2]; · iapply (Entails.of_eq (voB_done (F := F) d L 2 _ fvi fvo _ _)); iexact HvoB2
  isplitl [HvoA3]; · iapply (Entails.of_eq (voA_done (F := F) d L 3 _ fvi fvo _ _)); iexact HvoA3
  isplitl [HvoB3]; · iapply (Entails.of_eq (voB_done (F := F) d L 3 _ fvi fvo _ _)); iexact HvoB3
  isplitl [HvoA4]; · iapply (Entails.of_eq (voA_done (F := F) d L 4 _ fvi fvo _ _)); iexact HvoA4
  isplitl [HvoB4]; · iapply (Entails.of_eq (voB_done (F := F) d L 4 _ fvi fvo _ _)); iexact HvoB4
  isplitl [HvoA5]; · iapply (Entails.of_eq (voA_done (F := F) d L 5 _ fvi fvo _ _)); iexact HvoA5
  isplitl [HvoB5]; · iapply (Entails.of_eq (voB_done (F := F) d L 5 _ fvi fvo _ _)); iexact HvoB5
  isplitl [HvoA6]; · iapply (Entails.of_eq (voA_done (F := F) d L 6 _ fvi fvo _ _)); iexact HvoA6
  isplitl [HvoB6]; · iapply (Entails.of_eq (voB_done (F := F) d L 6 _ fvi fvo _ _)); iexact HvoB6
  isplitl [HvoA7]; · iapply (Entails.of_eq (voA_done (F := F) d L 7 _ fvi fvo _ _)); iexact HvoA7
  isplitl [HvoB7]; · iapply (Entails.of_eq (voB_done (F := F) d L 7 _ fvi fvo _ _)); iexact HvoB7
  isplitl [Hao]; · iapply (Entails.of_eq (ao_done (F := F) d L fai fao fab)); iexact Hao
  isplitl [HR]; · iexact HR
  iexists _; isplitr
  swap; · iexact HO
  ipureintro
  repeat (first | exact fun p hp => Or.inl hp | refine ins_ok ?_ _)

end Cert.Proof.KI

end
-- ==== Proof.KIOwn.lean ====
/-
  A tile's own scratch, piece by piece. The launch gives each vector subcore all of its scoped semaphore cells at zero
  and all of its own buffers at some contents. The body names ten of those cells (the ring's four inbound and four
  outbound semaphores, the audio's two) and two of those buffers (the four-slot half-frame ring and the audio block).
  Here: the cells as those ten beside the rest, the buffers as those two beside the rest, and the ring buffer as its
  four slots — the four parts of the ring's first axis, pairwise disjoint and covering it.
-/
import proofs.«207661_g395136991783_cont_8to1_b_1346_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Members of a separating conjunction taken out one by one -/

/-- A `bigSep` over a set with a list of distinct members taken out in order: the members' summands, then the summands
    of what is left of the set. -/
theorem bigSep_erase_list {M : Type} [URA M] {I : Type} [DecidableEq I] (Φ : I → sProp M) :
    ∀ (l : List I) (s : Finset I), l.Nodup → (∀ a ∈ l, a ∈ s) →
      bigSep s Φ = l.foldr (fun a P => iprop(Φ a ∗ P)) (bigSep (l.foldl Finset.erase s) Φ)
  | [], _, _, _ => rfl
  | a :: l, s, hn, hm => by
    have ih := bigSep_erase_list Φ l (s.erase a) (List.nodup_cons.mp hn).2 fun b hb =>
      Finset.mem_erase.mpr ⟨fun e => (List.nodup_cons.mp hn).1 (e ▸ hb), hm b (List.mem_cons.mpr (Or.inr hb))⟩
    rw [SparseCore.bigSep_erase' (hm a (List.mem_cons.mpr (Or.inl rfl)))]
    exact congrArg (fun P : sProp M => iprop(Φ a ∗ P)) ih

/-- A `bigSep` over `Fin 4` is its four summands. -/
theorem bigSep_univ_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-! ## The tile's own semaphore cells -/

/-- The cell of DMA semaphore `a` on the tile at `L`. -/
abbrev semCell (d : Dev nD) (L : grid0.Coords) (a : DmaSem sig) : GSem nD τ sig := (thr d L, SemLoc.dma a)

theorem semCell_injective (d : Dev nD) (L : grid0.Coords) : Function.Injective (semCell d L) :=
  fun _ _ e => SemLoc.dma.inj (Prod.mk.inj e).2

/-- Every DMA semaphore of a vector subcore is a scoped one. -/
theorem dma_scoped : ∀ a : DmaSem sig, (SemLoc.dma a : SemLoc sig).isScoped .scVector = true := by decide

/-- The ten DMA semaphores the body names, in the pool's order: they are pairwise different. -/
abbrev bodySems : List (DmaSem sig) :=
  [(inS0).sem, (inS1).sem, (inS2).sem, (inS3).sem, (outS0).sem, (outS1).sem, (outS2).sem, (outS3).sem, cc0_scratch4.sem, cc0_scratch5.sem]

theorem bodySems_nodup : bodySems.Nodup := by decide

/-- The tile's scoped cells other than the ten the body names. -/
abbrev restCells (d : Dev nD) (L : grid0.Coords) : Finset (GSem nD τ sig) :=
  ((((((((((ownCells (thr d L)).erase (thr d L, SemLoc.dma (inS0).sem)).erase (thr d L, SemLoc.dma (inS1).sem)).erase
    (thr d L, SemLoc.dma (inS2).sem)).erase (thr d L, SemLoc.dma (inS3).sem)).erase (thr d L, SemLoc.dma (outS0).sem)).erase
    (thr d L, SemLoc.dma (outS1).sem)).erase (thr d L, SemLoc.dma (outS2).sem)).erase (thr d L, SemLoc.dma (outS3).sem)).erase
    (thr d L, SemLoc.dma cc0_scratch4.sem)).erase (thr d L, SemLoc.dma cc0_scratch5.sem)

/-- The tile's scoped cells at zero are the ten the body names, each at zero, and the rest. -/
theorem ownSems0_V (d : Dev nD) (L : grid0.Coords) :
    (ownSems0 (thr d L) : sProp 𝕄)
      = iprop(semVal (thr d L, SemLoc.dma (inS0).sem) 0 ∗ semVal (thr d L, SemLoc.dma (inS1).sem) 0
          ∗ semVal (thr d L, SemLoc.dma (inS2).sem) 0 ∗ semVal (thr d L, SemLoc.dma (inS3).sem) 0
          ∗ semVal (thr d L, SemLoc.dma (outS0).sem) 0 ∗ semVal (thr d L, SemLoc.dma (outS1).sem) 0
          ∗ semVal (thr d L, SemLoc.dma (outS2).sem) 0 ∗ semVal (thr d L, SemLoc.dma (outS3).sem) 0
          ∗ semVal (thr d L, SemLoc.dma cc0_scratch4.sem) 0 ∗ semVal (thr d L, SemLoc.dma cc0_scratch5.sem) 0
          ∗ bigSep (restCells d L) fun g => semVal g 0) := by
  unfold SparseCore.Cfg.ownSems0
  exact bigSep_erase_list (fun g => semVal g 0) (bodySems.map (semCell d L)) (ownCells (thr d L))
    (bodySems_nodup.map (semCell_injective d L))
    (fun g hg => by
      obtain ⟨a, -, rfl⟩ := List.mem_map.mp hg
      exact mem_ownCells.mpr ⟨rfl, dma_scoped a⟩)

/-! ## The tile's own buffers -/

/-- The two scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The ring buffer as its four slots -/

theorem vdiv : 4 ∣ S4x3x56x112.size 0 := ⟨1, rfl⟩

/-- Slot `k` of the ring: the `k`-th of the four parts of its first axis. -/
abbrev slotRect (k : Fin 4) : Rect S4x3x56x112 := Rect.part (s := S4x3x56x112) (a₀ := 0) vdiv k
abbrev slotSet (k : Fin 4) : Finset S4x3x56x112.Idx := ((vbV).view.slice (slotRect k)).set

/-- The rectangle the body slices at offset `(k, 0, 0, 0)` is the `k`-th part. -/
theorem unit_slot (k : Fin 4) (h : ∀ a, (![k.val, 0, 0, 0] : Fin 4 → Nat) a + S1x3x56x112.size a ≤ S4x3x56x112.size a) :
    Rect.unit (s := S4x3x56x112) ![k.val, 0, 0, 0] S1x3x56x112.size h = slotRect k := by
  unfold slotRect Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_vbSw (k : Fin 4) (h : ∀ a, (![k.val, 0, 0, 0] : Fin 4 → Nat) a + S1x3x56x112.size a ≤ S4x3x56x112.size a) :
    (vbSw ![k.val, 0, 0, 0] h).view.set = slotSet k := by
  show (((vbV).view.slice (Rect.unit (s := S4x3x56x112) ![k.val, 0, 0, 0] S1x3x56x112.size h)).reshape S3x56x112
    squeezes_S1x3x56x112_S3x56x112.numel_eq).set = ((vbV).view.slice (slotRect k)).set
  rw [View.set_reshape]
  exact unit_slot k h ▸ rfl

theorem slotSet_eq (k : Fin 4) : slotSet k = (slotRect k).set := by
  show ((View.whole (cc0_scratch0 : Ref sig .scVector)).slice (slotRect k)).set = _
  rw [View.set_slice]; exact Finset.map_refl

theorem slots_disjoint : ∀ i ∈ (Finset.univ : Finset (Fin 4)), ∀ j ∈ (Finset.univ : Finset (Fin 4)), i ≠ j → Disjoint (slotSet i) (slotSet j) :=
  fun i _ j _ h => by rw [slotSet_eq, slotSet_eq]; exact Rect.part_disjoint vdiv h

theorem slots_cover : (Finset.univ : Finset (Fin 4)).biUnion slotSet = Finset.univ :=
  (Finset.biUnion_congr rfl fun i _ => slotSet_eq i).trans (Rect.biUnion_part vdiv)

/-- What the tile holds of a ring slot `M` (one of `vbS0 … vbS3`): the slot's elements of the ring buffer, whole, at `f`. -/
abbrev slotPts (d : Dev nD) (L : grid0.Coords) (M : Memref sig .scVector .vmem S3x56x112 .f32) (f : Buf (Elt F) (M.view.loc (thr d L))) : sProp 𝕄 :=
  M.view.loc (thr d L) ↦[M.view.set]{fullShare} f

theorem pts_slot (d : Dev nD) (L : grid0.Coords) (k : Fin 4) (h : ∀ a, (![k.val, 0, 0, 0] : Fin 4 → Nat) a + S1x3x56x112.size a ≤ S4x3x56x112.size a)
    (f : Buf (Elt F) ((thr d L).loc cc0_scratch0)) :
    (slotPts d L (vbSw ![k.val, 0, 0, 0] h) f : sProp 𝕄) = ((thr d L).loc cc0_scratch0 ↦[slotSet k]{fullShare} f) := by
  show ((vbSw ![k.val, 0, 0, 0] h).view.loc (thr d L) ↦[(vbSw ![k.val, 0, 0, 0] h).view.set]{fullShare} f : sProp 𝕄) = _
  rw [set_vbSw]

/-- The ring buffer whole is its four slots side by side. -/
theorem vb_slots (d : Dev nD) (L : grid0.Coords) (f : Buf (Elt F) ((thr d L).loc cc0_scratch0)) :
    ((thr d L).loc cc0_scratch0 ↦{fullShare} f : sProp 𝕄) = bigSep Finset.univ fun k : Fin 4 => (thr d L).loc cc0_scratch0 ↦[slotSet k]{fullShare} f := by
  rw [← pointsTo_biUnion Finset.univ (ℓ := (thr d L).loc cc0_scratch0) slotSet slots_disjoint, slots_cover]; try rfl

theorem vb_split (d : Dev nD) (L : grid0.Coords) (f : Buf (Elt F) ((thr d L).loc cc0_scratch0)) :
    ((thr d L).loc cc0_scratch0 ↦{fullShare} f : sProp 𝕄)
      = iprop(slotPts d L vbS0 f ∗ slotPts d L vbS1 f ∗ slotPts d L vbS2 f ∗ slotPts d L vbS3 f) := by
  have e0 : (slotPts d L vbS0 f : sProp 𝕄) = ((thr d L).loc cc0_scratch0 ↦[slotSet 0]{fullShare} f) := pts_slot d L 0 _ f
  have e1 : (slotPts d L vbS1 f : sProp 𝕄) = ((thr d L).loc cc0_scratch0 ↦[slotSet 1]{fullShare} f) := pts_slot d L 1 _ f
  have e2 : (slotPts d L vbS2 f : sProp 𝕄) = ((thr d L).loc cc0_scratch0 ↦[slotSet 2]{fullShare} f) := pts_slot d L 2 _ f
  have e3 : (slotPts d L vbS3 f : sProp 𝕄) = ((thr d L).loc cc0_scratch0 ↦[slotSet 3]{fullShare} f) := pts_slot d L 3 _ f
  rw [e0, e1, e2, e3, vb_slots d L f]
  exact bigSep_univ_four fun k : Fin 4 => ((thr d L).loc cc0_scratch0 ↦[slotSet k]{fullShare} f : sProp 𝕄)

set_option maxRecDepth 4096 in
/-- Four slots held at whatever contents are the ring buffer whole at some contents. -/
theorem vb_join (d : Dev nD) (L : grid0.Coords) (f0 f1 f2 f3 : Buf (Elt F) ((thr d L).loc cc0_scratch0)) :
    iprop(slotPts d L vbS0 f0 ∗ slotPts d L vbS1 f1 ∗ slotPts d L vbS2 f2 ∗ slotPts d L vbS3 f3)
      ⊢ (iprop(∃ f, (thr d L).loc cc0_scratch0 ↦{fullShare} f) : sProp 𝕄) := by
  have e0 : (slotPts d L vbS0 f0 : sProp 𝕄) = ((thr d L).loc cc0_scratch0 ↦[slotSet 0]{fullShare} f0) := pts_slot d L 0 _ f0
  have e1 : (slotPts d L vbS1 f1 : sProp 𝕄) = ((thr d L).loc cc0_scratch0 ↦[slotSet 1]{fullShare} f1) := pts_slot d L 1 _ f1
  have e2 : (slotPts d L vbS2 f2 : sProp 𝕄) = ((thr d L).loc cc0_scratch0 ↦[slotSet 2]{fullShare} f2) := pts_slot d L 2 _ f2
  have e3 : (slotPts d L vbS3 f3 : sProp 𝕄) = ((thr d L).loc cc0_scratch0 ↦[slotSet 3]{fullShare} f3) := pts_slot d L 3 _ f3
  have hb : (iprop(((thr d L).loc cc0_scratch0 ↦[slotSet 0]{fullShare} f0) ∗ ((thr d L).loc cc0_scratch0 ↦[slotSet 1]{fullShare} f1)
        ∗ ((thr d L).loc cc0_scratch0 ↦[slotSet 2]{fullShare} f2) ∗ ((thr d L).loc cc0_scratch0 ↦[slotSet 3]{fullShare} f3)) : sProp 𝕄)
      = bigSep Finset.univ fun k : Fin 4 => (thr d L).loc cc0_scratch0 ↦[slotSet k]{fullShare} (![f0, f1, f2, f3] k) :=
    (bigSep_univ_four fun k : Fin 4 => ((thr d L).loc cc0_scratch0 ↦[slotSet k]{fullShare} (![f0, f1, f2, f3] k) : sProp 𝕄)).symm
  rw [e0, e1, e2, e3, hb]
  iintro H
  ihave H' := (pointsTo_biUnion_join (ℓ := (thr d L).loc cc0_scratch0) (q := fullShare) (Val := Elt F) Finset.univ slotSet ![f0, f1, f2, f3] f0 slots_disjoint) $$ H
  icases H' with ⟨%g, -, Hg⟩
  rw [slots_cover]
  iexists g; iexact Hg

end Cert.Proof.KI

end
-- ==== Proof.KITile.lean ====
/-
  One tile's task as the launch states it: from what the task is handed — its pieces of the four arrays, the tile's
  own buffers and semaphores — through the body's run to what it hands back. The pieces enter the run slice by slice
  (each slice of an array held by exactly its own elements, the ring buffer as its four slots) and leave it
  the same way; the tile's other buffers and semaphores are carried along untouched.
-/
import proofs.«207661_g395136991783_cont_8to1_b_1346_21_alg».proof.Proof.KIBody
import proofs.«207661_g395136991783_cont_8to1_b_1346_21_alg».proof.Proof.KIOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

omit [FloatOps F] in
/-- A `bigSep` over `Fin 8` is its eight summands. -/
theorem bigSep_univ_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]
  rfl

/-- The tile's buffers and semaphore cells the body does not name. -/
abbrev restOf (d : Dev nD) (L : grid0.Coords) : sProp 𝕄 :=
  iprop((bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
    ∗ bigSep (restCells d L) fun g => semVal g 0)

set_option maxHeartbeats 4000000 in
/-- What the run leaves is what the task hands back. -/
theorem post_conv (d : Dev nD) (L : grid0.Coords) (O : CellTallies nD τ sig (HIx 1)) (W : Waits sig (HIx 1)) :
    (iprop(semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ (∃ f, (vbS0).view.loc (thr d L) ↦[(vbS0).view.set]{fullShare} f)
      ∗ (∃ f, (vbS1).view.loc (thr d L) ↦[(vbS1).view.set]{fullShare} f)
      ∗ (∃ f, (vbS2).view.loc (thr d L) ↦[(vbS2).view.set]{fullShare} f)
      ∗ (∃ f, (vbS3).view.loc (thr d L) ↦[(vbS3).view.set]{fullShare} f)
      ∗ (∃ f, (abV).view.loc (thr d L) ↦{fullShare} f)
      ∗ ((viAw L 0#32 (k0_off2_inb L 0)).view.loc (thr d L) ↦[(viAw L 0#32 (k0_off2_inb L 0)).view.set]{fullShare} (m (viLoc d)))
      ∗ ((viBw L 0#32 (k0_off3_inb L 0)).view.loc (thr d L) ↦[(viBw L 0#32 (k0_off3_inb L 0)).view.set]{fullShare} (m (viLoc d)))
      ∗ ((aiRw L 0#32 (k0_off1_inb L 0)).view.loc (thr d L) ↦[(aiRw L 0#32 (k0_off1_inb L 0)).view.set]{fullShare} (m (aiLoc d)))
      ∗ ((viAw L 1#32 (k0_off2_inb L 1)).view.loc (thr d L) ↦[(viAw L 1#32 (k0_off2_inb L 1)).view.set]{fullShare} (m (viLoc d)))
      ∗ ((viBw L 1#32 (k0_off3_inb L 1)).view.loc (thr d L) ↦[(viBw L 1#32 (k0_off3_inb L 1)).view.set]{fullShare} (m (viLoc d)))
      ∗ ((aiRw L 1#32 (k0_off1_inb L 1)).view.loc (thr d L) ↦[(aiRw L 1#32 (k0_off1_inb L 1)).view.set]{fullShare} (m (aiLoc d)))
      ∗ ((viAw L 2#32 (k0_off2_inb L 2)).view.loc (thr d L) ↦[(viAw L 2#32 (k0_off2_inb L 2)).view.set]{fullShare} (m (viLoc d)))
      ∗ ((viBw L 2#32 (k0_off3_inb L 2)).view.loc (thr d L) ↦[(viBw L 2#32 (k0_off3_inb L 2)).view.set]{fullShare} (m (viLoc d)))
      ∗ ((aiRw L 2#32 (k0_off1_inb L 2)).view.loc (thr d L) ↦[(aiRw L 2#32 (k0_off1_inb L 2)).view.set]{fullShare} (m (aiLoc d)))
      ∗ ((viAw L 3#32 (k0_off2_inb L 3)).view.loc (thr d L) ↦[(viAw L 3#32 (k0_off2_inb L 3)).view.set]{fullShare} (m (viLoc d)))
      ∗ ((viBw L 3#32 (k0_off3_inb L 3)).view.loc (thr d L) ↦[(viBw L 3#32 (k0_off3_inb L 3)).view.set]{fullShare} (m (viLoc d)))
      ∗ ((aiRw L 3#32 (k0_off1_inb L 3)).view.loc (thr d L) ↦[(aiRw L 3#32 (k0_off1_inb L 3)).view.set]{fullShare} (m (aiLoc d)))
      ∗ ((viAw L 4#32 (k0_off2_inb L 4)).view.loc (thr d L) ↦[(viAw L 4#32 (k0_off2_inb L 4)).view.set]{fullShare} (m (viLoc d)))
      ∗ ((viBw L 4#32 (k0_off3_inb L 4)).view.loc (thr d L) ↦[(viBw L 4#32 (k0_off3_inb L 4)).view.set]{fullShare} (m (viLoc d)))
      ∗ ((aiRw L 4#32 (k0_off1_inb L 4)).view.loc (thr d L) ↦[(aiRw L 4#32 (k0_off1_inb L 4)).view.set]{fullShare} (m (aiLoc d)))
      ∗ ((viAw L 5#32 (k0_off2_inb L 5)).view.loc (thr d L) ↦[(viAw L 5#32 (k0_off2_inb L 5)).view.set]{fullShare} (m (viLoc d)))
      ∗ ((viBw L 5#32 (k0_off3_inb L 5)).view.loc (thr d L) ↦[(viBw L 5#32 (k0_off3_inb L 5)).view.set]{fullShare} (m (viLoc d)))
      ∗ ((aiRw L 5#32 (k0_off1_inb L 5)).view.loc (thr d L) ↦[(aiRw L 5#32 (k0_off1_inb L 5)).view.set]{fullShare} (m (aiLoc d)))
      ∗ ((viAw L 6#32 (k0_off2_inb L 6)).view.loc (thr d L) ↦[(viAw L 6#32 (k0_off2_inb L 6)).view.set]{fullShare} (m (viLoc d)))
      ∗ ((viBw L 6#32 (k0_off3_inb L 6)).view.loc (thr d L) ↦[(viBw L 6#32 (k0_off3_inb L 6)).view.set]{fullShare} (m (viLoc d)))
      ∗ ((aiRw L 6#32 (k0_off1_inb L 6)).view.loc (thr d L) ↦[(aiRw L 6#32 (k0_off1_inb L 6)).view.set]{fullShare} (m (aiLoc d)))
      ∗ ((viAw L 7#32 (k0_off2_inb L 7)).view.loc (thr d L) ↦[(viAw L 7#32 (k0_off2_inb L 7)).view.set]{fullShare} (m (viLoc d)))
      ∗ ((viBw L 7#32 (k0_off3_inb L 7)).view.loc (thr d L) ↦[(viBw L 7#32 (k0_off3_inb L 7)).view.set]{fullShare} (m (viLoc d)))
      ∗ ((aiRw L 7#32 (k0_off1_inb L 7)).view.loc (thr d L) ↦[(aiRw L 7#32 (k0_off1_inb L 7)).view.set]{fullShare} (m (aiLoc d)))
      ∗ ((voAw L 0#32 (k0_off4_inb L 0)).view.loc (thr d L) ↦[(voAw L 0#32 (k0_off4_inb L 0)).view.set]{fullShare} (Spec.takeV (m (viLoc d)) : Buf (Elt F) (voLoc d)))
      ∗ ((voBw L 0#32 (k0_off5_inb L 0)).view.loc (thr d L) ↦[(voBw L 0#32 (k0_off5_inb L 0)).view.set]{fullShare} (Spec.takeV (m (viLoc d)) : Buf (Elt F) (voLoc d)))
      ∗ ((voAw L 1#32 (k0_off4_inb L 1)).view.loc (thr d L) ↦[(voAw L 1#32 (k0_off4_inb L 1)).view.set]{fullShare} (Spec.takeV (m (viLoc d)) : Buf (Elt F) (voLoc d)))
      ∗ ((voBw L 1#32 (k0_off5_inb L 1)).view.loc (thr d L) ↦[(voBw L 1#32 (k0_off5_inb L 1)).view.set]{fullShare} (Spec.takeV (m (viLoc d)) : Buf (Elt F) (voLoc d)))
      ∗ ((voAw L 2#32 (k0_off4_inb L 2)).view.loc (thr d L) ↦[(voAw L 2#32 (k0_off4_inb L 2)).view.set]{fullShare} (Spec.takeV (m (viLoc d)) : Buf (Elt F) (voLoc d)))
      ∗ ((voBw L 2#32 (k0_off5_inb L 2)).view.loc (thr d L) ↦[(voBw L 2#32 (k0_off5_inb L 2)).view.set]{fullShare} (Spec.takeV (m (viLoc d)) : Buf (Elt F) (voLoc d)))
      ∗ ((voAw L 3#32 (k0_off4_inb L 3)).view.loc (thr d L) ↦[(voAw L 3#32 (k0_off4_inb L 3)).view.set]{fullShare} (Spec.takeV (m (viLoc d)) : Buf (Elt F) (voLoc d)))
      ∗ ((voBw L 3#32 (k0_off5_inb L 3)).view.loc (thr d L) ↦[(voBw L 3#32 (k0_off5_inb L 3)).view.set]{fullShare} (Spec.takeV (m (viLoc d)) : Buf (Elt F) (voLoc d)))
      ∗ ((voAw L 4#32 (k0_off4_inb L 4)).view.loc (thr d L) ↦[(voAw L 4#32 (k0_off4_inb L 4)).view.set]{fullShare} (Spec.takeV (m (viLoc d)) : Buf (Elt F) (voLoc d)))
      ∗ ((voBw L 4#32 (k0_off5_inb L 4)).view.loc (thr d L) ↦[(voBw L 4#32 (k0_off5_inb L 4)).view.set]{fullShare} (Spec.takeV (m (viLoc d)) : Buf (Elt F) (voLoc d)))
      ∗ ((voAw L 5#32 (k0_off4_inb L 5)).view.loc (thr d L) ↦[(voAw L 5#32 (k0_off4_inb L 5)).view.set]{fullShare} (Spec.takeV (m (viLoc d)) : Buf (Elt F) (voLoc d)))
      ∗ ((voBw L 5#32 (k0_off5_inb L 5)).view.loc (thr d L) ↦[(voBw L 5#32 (k0_off5_inb L 5)).view.set]{fullShare} (Spec.takeV (m (viLoc d)) : Buf (Elt F) (voLoc d)))
      ∗ ((voAw L 6#32 (k0_off4_inb L 6)).view.loc (thr d L) ↦[(voAw L 6#32 (k0_off4_inb L 6)).view.set]{fullShare} (Spec.takeV (m (viLoc d)) : Buf (Elt F) (voLoc d)))
      ∗ ((voBw L 6#32 (k0_off5_inb L 6)).view.loc (thr d L) ↦[(voBw L 6#32 (k0_off5_inb L 6)).view.set]{fullShare} (Spec.takeV (m (viLoc d)) : Buf (Elt F) (voLoc d)))
      ∗ ((voAw L 7#32 (k0_off4_inb L 7)).view.loc (thr d L) ↦[(voAw L 7#32 (k0_off4_inb L 7)).view.set]{fullShare} (Spec.takeV (m (viLoc d)) : Buf (Elt F) (voLoc d)))
      ∗ ((voBw L 7#32 (k0_off5_inb L 7)).view.loc (thr d L) ↦[(voBw L 7#32 (k0_off5_inb L 7)).view.set]{fullShare} (Spec.takeV (m (viLoc d)) : Buf (Elt F) (voLoc d)))
      ∗ ((aoB L).view.loc (thr d L) ↦[(aoB L).view.set]{fullShare} (Spec.takeA (m (aiLoc d)) : Buf (Elt F) (aoLoc d)))
      ∗ restOf d L
      ∗ ∃ W', ⌜∀ p ∈ W', p ∈ W ∨ p.2 = none⌝ ∗ owes (thr d L) O W') : sProp 𝕄)
    ⊢ iprop(tdRes m d L
        ∗ ((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
        ∗ (semVal (thr d L, SemLoc.dma (inS0).sem) 0 ∗ semVal (thr d L, SemLoc.dma (inS1).sem) 0
          ∗ semVal (thr d L, SemLoc.dma (inS2).sem) 0 ∗ semVal (thr d L, SemLoc.dma (inS3).sem) 0
          ∗ semVal (thr d L, SemLoc.dma (outS0).sem) 0 ∗ semVal (thr d L, SemLoc.dma (outS1).sem) 0
          ∗ semVal (thr d L, SemLoc.dma (outS2).sem) 0 ∗ semVal (thr d L, SemLoc.dma (outS3).sem) 0
          ∗ semVal (thr d L, SemLoc.dma cc0_scratch4.sem) 0 ∗ semVal (thr d L, SemLoc.dma cc0_scratch5.sem) 0
          ∗ bigSep (restCells d L) fun g => semVal g 0)
        ∗ ∃ W', ⌜∀ p ∈ W', p ∈ W ∨ p.2 = none⌝ ∗ owes (thr d L) O W') := by
  unfold tdRes tileIn tileOut
  rw [bigSep_univ_eight, bigSep_univ_eight]
  iintro ⟨Hi0, Hi1, Hi2, Hi3, Ho0, Ho1, Ho2, Ho3, Hsa, Hsb, ⟨%g0, Hvb0⟩, ⟨%g1, Hvb1⟩, ⟨%g2, Hvb2⟩, ⟨%g3, Hvb3⟩, Hab, HviA0, HviB0, Hai0, HviA1, HviB1, Hai1, HviA2, HviB2, Hai2, HviA3, HviB3, Hai3, HviA4, HviB4, Hai4, HviA5, HviB5, Hai5, HviA6, HviB6, Hai6, HviA7, HviB7, Hai7, HvoA0, HvoB0, HvoA1, HvoB1, HvoA2, HvoB2, HvoA3, HvoB3, HvoA4, HvoB4, HvoA5, HvoB5, HvoA6, HvoB6, HvoA7, HvoB7, Hao, ⟨Hbufs, Hsems⟩, HW⟩
  isplitl [HviA0 HviB0 Hai0 HvoA0 HvoB0 HviA1 HviB1 Hai1 HvoA1 HvoB1 HviA2 HviB2 Hai2 HvoA2 HvoB2 HviA3 HviB3 Hai3 HvoA3 HvoB3 HviA4 HviB4 Hai4 HvoA4 HvoB4 HviA5 HviB5 Hai5 HvoA5 HvoB5 HviA6 HviB6 Hai6 HvoA6 HvoB6 HviA7 HviB7 Hai7 HvoA7 HvoB7 Hao]
  · isplitl [HviA0 HviB0 Hai0 HviA1 HviB1 Hai1 HviA2 HviB2 Hai2 HviA3 HviB3 Hai3 HviA4 HviB4 Hai4 HviA5 HviB5 Hai5 HviA6 HviB6 Hai6 HviA7 HviB7 Hai7]
    · isplitl [HviA0 HviB0 Hai0]
      · isplitl [HviA0]; · iexact HviA0
        isplitl [HviB0]; · iexact HviB0
        iexact Hai0
      isplitl [HviA1 HviB1 Hai1]
      · isplitl [HviA1]; · iexact HviA1
        isplitl [HviB1]; · iexact HviB1
        iexact Hai1
      isplitl [HviA2 HviB2 Hai2]
      · isplitl [HviA2]; · iexact HviA2
        isplitl [HviB2]; · iexact HviB2
        iexact Hai2
      isplitl [HviA3 HviB3 Hai3]
      · isplitl [HviA3]; · iexact HviA3
        isplitl [HviB3]; · iexact HviB3
        iexact Hai3
      isplitl [HviA4 HviB4 Hai4]
      · isplitl [HviA4]; · iexact HviA4
        isplitl [HviB4]; · iexact HviB4
        iexact Hai4
      isplitl [HviA5 HviB5 Hai5]
      · isplitl [HviA5]; · iexact HviA5
        isplitl [HviB5]; · iexact HviB5
        iexact Hai5
      isplitl [HviA6 HviB6 Hai6]
      · isplitl [HviA6]; · iexact HviA6
        isplitl [HviB6]; · iexact HviB6
        iexact Hai6
      isplitl [HviA7]; · iexact HviA7
      isplitl [HviB7]; · iexact HviB7
      iexact Hai7
    isplitl [HvoA0 HvoB0 HvoA1 HvoB1 HvoA2 HvoB2 HvoA3 HvoB3 HvoA4 HvoB4 HvoA5 HvoB5 HvoA6 HvoB6 HvoA7 HvoB7]
    · isplitl [HvoA0 HvoB0]
      · isplitl [HvoA0]; · iexact HvoA0
        iexact HvoB0
      isplitl [HvoA1 HvoB1]
      · isplitl [HvoA1]; · iexact HvoA1
        iexact HvoB1
      isplitl [HvoA2 HvoB2]
      · isplitl [HvoA2]; · iexact HvoA2
        iexact HvoB2
      isplitl [HvoA3 HvoB3]
      · isplitl [HvoA3]; · iexact HvoA3
        iexact HvoB3
      isplitl [HvoA4 HvoB4]
      · isplitl [HvoA4]; · iexact HvoA4
        iexact HvoB4
      isplitl [HvoA5 HvoB5]
      · isplitl [HvoA5]; · iexact HvoA5
        iexact HvoB5
      isplitl [HvoA6 HvoB6]
      · isplitl [HvoA6]; · iexact HvoA6
        iexact HvoB6
      isplitl [HvoA7]; · iexact HvoA7
      iexact HvoB7
    iexact Hao
  isplitl [Hvb0 Hvb1 Hvb2 Hvb3 Hab Hbufs]
  · isplitl [Hvb0 Hvb1 Hvb2 Hvb3]
    · iapply (vb_join (F := F) d L g0 g1 g2 g3)
      isplitl [Hvb0]; · iexact Hvb0
      isplitl [Hvb1]; · iexact Hvb1
      isplitl [Hvb2]; · iexact Hvb2
      iexact Hvb3
    isplitl [Hab]; · iexact Hab
    iexact Hbufs
  isplitl [Hi0 Hi1 Hi2 Hi3 Ho0 Ho1 Ho2 Ho3 Hsa Hsb Hsems]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    isplitl [Ho3]; · iexact Ho3
    isplitl [Hsa]; · iexact Hsa
    isplitl [Hsb]; · iexact Hsb
    iexact Hsems
  iexact HW

set_option maxHeartbeats 4000000 in
/-- The task on the tile at `L`: nothing owed to any other thread is waited for; the outputs' pieces come back written. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (thr d L) ∗ scopedSems0 (thr d L) ∗ owes (thr d L) O W)
      ⊢ wp frame (wpE (defs₀ (F := F)) 𝒱₀ (thr d L) none) Set.univ
          (cc0_sc_copy L viV (Memref.isWhole_whole _) aiV (Memref.isWhole_whole _) voV (Memref.isWhole_whole _) aoV (Memref.isWhole_whole _)
            vbV (Memref.isWhole_whole _) abV (Memref.isWhole_whole _) cc0_scratch2 cc0_scratch3 cc0_scratch4 cc0_scratch5)
          fun _ => iprop(tdRes m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  refine BI.Entails.trans ?_ (wp_mono frame _ _ fun _ => post_conv (F := F) m d L O W)
  unfold goRes tileIn tileOut
  rw [bigSep_univ_eight, bigSep_univ_eight]
  change _ ⊢ wp _ _ _ _ _
  iintro ⟨#Hlv, -, ⟨⟨⟨HviA0, HviB0, Hai0⟩, ⟨HviA1, HviB1, Hai1⟩, ⟨HviA2, HviB2, Hai2⟩, ⟨HviA3, HviB3, Hai3⟩, ⟨HviA4, HviB4, Hai4⟩, ⟨HviA5, HviB5, Hai5⟩, ⟨HviA6, HviB6, Hai6⟩, ⟨HviA7, HviB7, Hai7⟩⟩, ⟨⟨HvoA0, HvoB0⟩, ⟨HvoA1, HvoB1⟩, ⟨HvoA2, HvoB2⟩, ⟨HvoA3, HvoB3⟩, ⟨HvoA4, HvoB4⟩, ⟨HvoA5, HvoB5⟩, ⟨HvoA6, HvoB6⟩, ⟨HvoA7, HvoB7⟩⟩, Hao⟩, ⟨⟨%fvb, Hvb⟩, ⟨%fab, Hab⟩, Hbufs⟩, ⟨Hi0, Hi1, Hi2, Hi3, Ho0, Ho1, Ho2, Ho3, Hsa, Hsb, Hsems⟩, HO⟩
  ihave Hmw := (show levAts (K (F := F)).L (K (F := F)).lev ⊢ Transfers.MayWaits (thr d L) (default : HIx 1) O from
    (K (F := F)).mayWaits_none (thr := thr d L) hO) $$ Hlv
  ihave Hvb' := (Entails.of_eq (vb_split (F := F) d L fvb)) $$ Hvb
  icases Hvb' with ⟨Hvb0, Hvb1, Hvb2, Hvb3⟩
  iapply (tile_run (F := F) d L O W fvb fab (m (viLoc d)) (m (aiLoc d)) (m (voLoc d)) (m (aoLoc d)) (restOf d L))
  isplitl [Hmw]; · iexact Hmw
  isplitl [HO]; · iexact HO
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hsa]; · iexact Hsa
  isplitl [Hsb]; · iexact Hsb
  isplitl [Hvb0]; · iexact Hvb0
  isplitl [Hvb1]; · iexact Hvb1
  isplitl [Hvb2]; · iexact Hvb2
  isplitl [Hvb3]; · iexact Hvb3
  isplitl [Hab]; · iexact Hab
  isplitl [HviA0]; · iexact HviA0
  isplitl [HviB0]; · iexact HviB0
  isplitl [Hai0]; · iexact Hai0
  isplitl [HviA1]; · iexact HviA1
  isplitl [HviB1]; · iexact HviB1
  isplitl [Hai1]; · iexact Hai1
  isplitl [HviA2]; · iexact HviA2
  isplitl [HviB2]; · iexact HviB2
  isplitl [Hai2]; · iexact Hai2
  isplitl [HviA3]; · iexact HviA3
  isplitl [HviB3]; · iexact HviB3
  isplitl [Hai3]; · iexact Hai3
  isplitl [HviA4]; · iexact HviA4
  isplitl [HviB4]; · iexact HviB4
  isplitl [Hai4]; · iexact Hai4
  isplitl [HviA5]; · iexact HviA5
  isplitl [HviB5]; · iexact HviB5
  isplitl [Hai5]; · iexact Hai5
  isplitl [HviA6]; · iexact HviA6
  isplitl [HviB6]; · iexact HviB6
  isplitl [Hai6]; · iexact Hai6
  isplitl [HviA7]; · iexact HviA7
  isplitl [HviB7]; · iexact HviB7
  isplitl [Hai7]; · iexact Hai7
  isplitl [HvoA0]; · iexact HvoA0
  isplitl [HvoB0]; · iexact HvoB0
  isplitl [HvoA1]; · iexact HvoA1
  isplitl [HvoB1]; · iexact HvoB1
  isplitl [HvoA2]; · iexact HvoA2
  isplitl [HvoB2]; · iexact HvoB2
  isplitl [HvoA3]; · iexact HvoA3
  isplitl [HvoB3]; · iexact HvoB3
  isplitl [HvoA4]; · iexact HvoA4
  isplitl [HvoB4]; · iexact HvoB4
  isplitl [HvoA5]; · iexact HvoA5
  isplitl [HvoB5]; · iexact HvoB5
  isplitl [HvoA6]; · iexact HvoA6
  isplitl [HvoB6]; · iexact HvoB6
  isplitl [HvoA7]; · iexact HvoA7
  isplitl [HvoB7]; · iexact HvoB7
  isplitl [Hao]; · iexact Hao
  isplitl [Hbufs]; · iexact Hbufs
  iexact Hsems

end Cert.Proof.KI

end
-- ==== Proof.Pieces.lean ====
/-
  The pieces the copy is cut into, as unit-stride rectangles, and the facts about them that do not depend on
  any program. There are 32 workers. Worker `w` handles batch `w / 8` and the eight output frames
  `(w % 8) * 8 + r`, `r < 8`; output frame `i` is input frame `2 * i`. A video frame moves as two
  half-frames (rows `56 * h … 56 * h + 55` of axis 3, `h < 2`); a worker's eight audio rows are read one
  row at a time and written as one block. The output pieces are pairwise disjoint and cover the outputs, the
  input pieces are pairwise disjoint, and the source of an entry of an output piece lies in the matching input
  piece.
-/
import Idealize.ShloMosaic.Shape
import proofs.«207661_g395136991783_cont_8to1_b_1346_21_alg».proof.Proof.Spec

namespace Cert.Proof.Pieces

open Idealize.ShloMosaic Cert.Proof.Spec

/-! ## The offsets and sizes of the pieces -/

/-- The batch worker `w` handles. -/
def bOf (w : Fin 32) : Nat := w.val / 8
/-- The first output frame worker `w` handles. -/
def i0Of (w : Fin 32) : Nat := (w.val % 8) * 8

/-- A half-frame. -/
abbrev szV : Fin 5 → Nat := ![1, 1, 3, 56, 112]
/-- An audio row. -/
abbrev szA : Fin 3 → Nat := ![1, 1, 1024]
/-- A worker's eight audio rows. -/
abbrev szAB : Fin 3 → Nat := ![1, 8, 1024]

/-- Half `h` of output frame `i0Of w + r` of batch `bOf w`. -/
def offVo (w : Fin 32) (r : Fin 8) (h : Fin 2) : Fin 5 → Nat := ![bOf w, i0Of w + r.val, 0, 56 * h.val, 0]
/-- Half `h` of input frame `2 * (i0Of w + r)` of batch `bOf w`. -/
def offVi (w : Fin 32) (r : Fin 8) (h : Fin 2) : Fin 5 → Nat := ![bOf w, 2 * (i0Of w + r.val), 0, 56 * h.val, 0]
/-- Input audio row `2 * (i0Of w + r)` of batch `bOf w`. -/
def offAi (w : Fin 32) (r : Fin 8) : Fin 3 → Nat := ![bOf w, 2 * (i0Of w + r.val), 0]
/-- Output audio rows `i0Of w … i0Of w + 7` of batch `bOf w`. -/
def offAo (w : Fin 32) : Fin 3 → Nat := ![bOf w, i0Of w, 0]

/-- A statement about every axis of a rank-5 shape, axis by axis. -/
private theorem forall5 {P : Fin 5 → Prop} (h0 : P 0) (h1 : P 1) (h2 : P 2) (h3 : P 3) (h4 : P 4) : ∀ a, P a := by
  intro a
  match a with
  | ⟨0, _⟩ => exact h0
  | ⟨1, _⟩ => exact h1
  | ⟨2, _⟩ => exact h2
  | ⟨3, _⟩ => exact h3
  | ⟨4, _⟩ => exact h4

/-- A statement about every axis of a rank-3 shape, axis by axis. -/
private theorem forall3 {P : Fin 3 → Prop} (h0 : P 0) (h1 : P 1) (h2 : P 2) : ∀ a, P a := by
  intro a
  match a with
  | ⟨0, _⟩ => exact h0
  | ⟨1, _⟩ => exact h1
  | ⟨2, _⟩ => exact h2

theorem offVo_inb (w : Fin 32) (r : Fin 8) (h : Fin 2) : ∀ a, offVo w r h a + szV a ≤ SVo.size a := by
  have hw := w.isLt; have hr := r.isLt; have hh := h.isLt
  refine forall5 ?_ ?_ ?_ ?_ ?_
  · show w.val / 8 + 1 ≤ 4; omega
  · show (w.val % 8) * 8 + r.val + 1 ≤ 64; omega
  · show 0 + 3 ≤ 3; omega
  · show 56 * h.val + 56 ≤ 112; omega
  · show 0 + 112 ≤ 112; omega

theorem offVi_inb (w : Fin 32) (r : Fin 8) (h : Fin 2) : ∀ a, offVi w r h a + szV a ≤ SV.size a := by
  have hw := w.isLt; have hr := r.isLt; have hh := h.isLt
  refine forall5 ?_ ?_ ?_ ?_ ?_
  · show w.val / 8 + 1 ≤ 4; omega
  · show 2 * ((w.val % 8) * 8 + r.val) + 1 ≤ 128; omega
  · show 0 + 3 ≤ 3; omega
  · show 56 * h.val + 56 ≤ 112; omega
  · show 0 + 112 ≤ 112; omega

theorem offAi_inb (w : Fin 32) (r : Fin 8) : ∀ a, offAi w r a + szA a ≤ SA.size a := by
  have hw := w.isLt; have hr := r.isLt
  refine forall3 ?_ ?_ ?_
  · show w.val / 8 + 1 ≤ 4; omega
  · show 2 * ((w.val % 8) * 8 + r.val) + 1 ≤ 128; omega
  · show 0 + 1024 ≤ 1024; omega

theorem offAo_inb (w : Fin 32) : ∀ a, offAo w a + szAB a ≤ SAo.size a := by
  have hw := w.isLt
  refine forall3 ?_ ?_ ?_
  · show w.val / 8 + 1 ≤ 4; omega
  · show (w.val % 8) * 8 + 8 ≤ 64; omega
  · show 0 + 1024 ≤ 1024; omega

/-! ## The pieces -/

/-- Half `h` of the `r`-th output frame of worker `w`. -/
def rVo (w : Fin 32) (r : Fin 8) (h : Fin 2) : Rect SVo := Rect.unit (offVo w r h) szV (offVo_inb w r h)
/-- The half-frame of the input it is copied from. -/
def rVi (w : Fin 32) (r : Fin 8) (h : Fin 2) : Rect SV := Rect.unit (offVi w r h) szV (offVi_inb w r h)
/-- The `r`-th input audio row of worker `w`. -/
def rAi (w : Fin 32) (r : Fin 8) : Rect SA := Rect.unit (offAi w r) szA (offAi_inb w r)
/-- The eight output audio rows of worker `w`. -/
def rAo (w : Fin 32) : Rect SAo := Rect.unit (offAo w) szAB (offAo_inb w)

/-- A video piece is named by its worker, frame and half. -/
abbrev PV := Fin 32 × Fin 8 × Fin 2
/-- An input audio piece is named by its worker and row. -/
abbrev PA := Fin 32 × Fin 8

/-! ## Membership: which piece an entry lies in is read off its coordinates -/

theorem mem_rVo {w : Fin 32} {r : Fin 8} {h : Fin 2} {j : SVo.Idx} :
    j ∈ (rVo w r h).set ↔ ((j 0 : Nat) = bOf w ∧ (j 1 : Nat) = i0Of w + r.val ∧ (j 3 : Nat) / 56 = h.val) := by
  have b2 : (j 2 : Nat) < 3 := (j 2).isLt
  have b4 : (j 4 : Nat) < 112 := (j 4).isLt
  unfold rVo
  rw [Rect.mem_set_unit]
  constructor
  · intro H
    have H0 : bOf w ≤ (j 0 : Nat) ∧ (j 0 : Nat) < bOf w + 1 := H 0
    have H1 : i0Of w + r.val ≤ (j 1 : Nat) ∧ (j 1 : Nat) < i0Of w + r.val + 1 := H 1
    have H3 : 56 * h.val ≤ (j 3 : Nat) ∧ (j 3 : Nat) < 56 * h.val + 56 := H 3
    omega
  · rintro ⟨e0, e1, e3⟩
    refine forall5 ?_ ?_ ?_ ?_ ?_
    · show bOf w ≤ (j 0 : Nat) ∧ (j 0 : Nat) < bOf w + 1; omega
    · show i0Of w + r.val ≤ (j 1 : Nat) ∧ (j 1 : Nat) < i0Of w + r.val + 1; omega
    · show 0 ≤ (j 2 : Nat) ∧ (j 2 : Nat) < 0 + 3; omega
    · show 56 * h.val ≤ (j 3 : Nat) ∧ (j 3 : Nat) < 56 * h.val + 56; omega
    · show 0 ≤ (j 4 : Nat) ∧ (j 4 : Nat) < 0 + 112; omega

theorem mem_rVi {w : Fin 32} {r : Fin 8} {h : Fin 2} {j : SV.Idx} :
    j ∈ (rVi w r h).set ↔ ((j 0 : Nat) = bOf w ∧ (j 1 : Nat) = 2 * (i0Of w + r.val) ∧ (j 3 : Nat) / 56 = h.val) := by
  have b2 : (j 2 : Nat) < 3 := (j 2).isLt
  have b4 : (j 4 : Nat) < 112 := (j 4).isLt
  unfold rVi
  rw [Rect.mem_set_unit]
  constructor
  · intro H
    have H0 : bOf w ≤ (j 0 : Nat) ∧ (j 0 : Nat) < bOf w + 1 := H 0
    have H1 : 2 * (i0Of w + r.val) ≤ (j 1 : Nat) ∧ (j 1 : Nat) < 2 * (i0Of w + r.val) + 1 := H 1
    have H3 : 56 * h.val ≤ (j 3 : Nat) ∧ (j 3 : Nat) < 56 * h.val + 56 := H 3
    omega
  · rintro ⟨e0, e1, e3⟩
    refine forall5 ?_ ?_ ?_ ?_ ?_
    · show bOf w ≤ (j 0 : Nat) ∧ (j 0 : Nat) < bOf w + 1; omega
    · show 2 * (i0Of w + r.val) ≤ (j 1 : Nat) ∧ (j 1 : Nat) < 2 * (i0Of w + r.val) + 1; omega
    · show 0 ≤ (j 2 : Nat) ∧ (j 2 : Nat) < 0 + 3; omega
    · show 56 * h.val ≤ (j 3 : Nat) ∧ (j 3 : Nat) < 56 * h.val + 56; omega
    · show 0 ≤ (j 4 : Nat) ∧ (j 4 : Nat) < 0 + 112; omega

theorem mem_rAi {w : Fin 32} {r : Fin 8} {j : SA.Idx} :
    j ∈ (rAi w r).set ↔ ((j 0 : Nat) = bOf w ∧ (j 1 : Nat) = 2 * (i0Of w + r.val)) := by
  have b2 : (j 2 : Nat) < 1024 := (j 2).isLt
  unfold rAi
  rw [Rect.mem_set_unit]
  constructor
  · intro H
    have H0 : bOf w ≤ (j 0 : Nat) ∧ (j 0 : Nat) < bOf w + 1 := H 0
    have H1 : 2 * (i0Of w + r.val) ≤ (j 1 : Nat) ∧ (j 1 : Nat) < 2 * (i0Of w + r.val) + 1 := H 1
    omega
  · rintro ⟨e0, e1⟩
    refine forall3 ?_ ?_ ?_
    · show bOf w ≤ (j 0 : Nat) ∧ (j 0 : Nat) < bOf w + 1; omega
    · show 2 * (i0Of w + r.val) ≤ (j 1 : Nat) ∧ (j 1 : Nat) < 2 * (i0Of w + r.val) + 1; omega
    · show 0 ≤ (j 2 : Nat) ∧ (j 2 : Nat) < 0 + 1024; omega

theorem mem_rAo {w : Fin 32} {j : SAo.Idx} :
    j ∈ (rAo w).set ↔ ((j 0 : Nat) = bOf w ∧ (j 1 : Nat) / 8 = w.val % 8) := by
  have b2 : (j 2 : Nat) < 1024 := (j 2).isLt
  unfold rAo
  rw [Rect.mem_set_unit]
  constructor
  · intro H
    have H0 : bOf w ≤ (j 0 : Nat) ∧ (j 0 : Nat) < bOf w + 1 := H 0
    have H1 : (w.val % 8) * 8 ≤ (j 1 : Nat) ∧ (j 1 : Nat) < (w.val % 8) * 8 + 8 := H 1
    omega
  · rintro ⟨e0, e1⟩
    refine forall3 ?_ ?_ ?_
    · show bOf w ≤ (j 0 : Nat) ∧ (j 0 : Nat) < bOf w + 1; omega
    · show (w.val % 8) * 8 ≤ (j 1 : Nat) ∧ (j 1 : Nat) < (w.val % 8) * 8 + 8; omega
    · show 0 ≤ (j 2 : Nat) ∧ (j 2 : Nat) < 0 + 1024; omega

/-! ## Disjointness and cover

A worker is determined by its batch `w / 8` and `w % 8`; the frame `(w % 8) * 8 + r` with `r < 8` determines
both `w % 8` and `r`. So two pieces that share an entry have the same name. -/

theorem rVo_disjoint {p p' : PV} (hne : p ≠ p') :
    Disjoint (rVo p.1 p.2.1 p.2.2).set (rVo p'.1 p'.2.1 p'.2.2).set := by
  obtain ⟨w, r, h⟩ := p
  obtain ⟨w', r', h'⟩ := p'
  rw [Finset.disjoint_left]
  intro j hj hj'
  obtain ⟨a0, a1, a3⟩ := (mem_rVo (w := w) (r := r) (h := h)).mp hj
  obtain ⟨c0, c1, c3⟩ := (mem_rVo (w := w') (r := r') (h := h')).mp hj'
  unfold bOf at a0 c0
  unfold i0Of at a1 c1
  have hr := r.isLt; have hr' := r'.isLt
  have e1 : w = w' := Fin.ext (by omega)
  have e2 : r = r' := Fin.ext (by omega)
  have e3 : h = h' := Fin.ext (by omega)
  exact hne (by rw [e1, e2, e3])

theorem rVo_cover : (Finset.univ : Finset PV).biUnion (fun p => (rVo p.1 p.2.1 p.2.2).set) = Finset.univ := by
  ext j
  simp only [Finset.mem_biUnion, Finset.mem_univ, true_and, iff_true]
  have b0 : (j 0 : Nat) < 4 := (j 0).isLt
  have b1 : (j 1 : Nat) < 64 := (j 1).isLt
  have b3 : (j 3 : Nat) < 112 := (j 3).isLt
  refine ⟨(⟨8 * (j 0 : Nat) + (j 1 : Nat) / 8, by omega⟩, ⟨(j 1 : Nat) % 8, by omega⟩, ⟨(j 3 : Nat) / 56, by omega⟩), ?_⟩
  refine mem_rVo.mpr ⟨?_, ?_, ?_⟩
  · show (j 0 : Nat) = (8 * (j 0 : Nat) + (j 1 : Nat) / 8) / 8; omega
  · show (j 1 : Nat) = ((8 * (j 0 : Nat) + (j 1 : Nat) / 8) % 8) * 8 + (j 1 : Nat) % 8; omega
  · rfl

theorem rVi_disjoint {p p' : PV} (hne : p ≠ p') :
    Disjoint (rVi p.1 p.2.1 p.2.2).set (rVi p'.1 p'.2.1 p'.2.2).set := by
  obtain ⟨w, r, h⟩ := p
  obtain ⟨w', r', h'⟩ := p'
  rw [Finset.disjoint_left]
  intro j hj hj'
  obtain ⟨a0, a1, a3⟩ := (mem_rVi (w := w) (r := r) (h := h)).mp hj
  obtain ⟨c0, c1, c3⟩ := (mem_rVi (w := w') (r := r') (h := h')).mp hj'
  unfold bOf at a0 c0
  unfold i0Of at a1 c1
  have hr := r.isLt; have hr' := r'.isLt
  have e1 : w = w' := Fin.ext (by omega)
  have e2 : r = r' := Fin.ext (by omega)
  have e3 : h = h' := Fin.ext (by omega)
  exact hne (by rw [e1, e2, e3])

theorem rAi_disjoint {p p' : PA} (hne : p ≠ p') : Disjoint (rAi p.1 p.2).set (rAi p'.1 p'.2).set := by
  obtain ⟨w, r⟩ := p
  obtain ⟨w', r'⟩ := p'
  rw [Finset.disjoint_left]
  intro j hj hj'
  obtain ⟨a0, a1⟩ := (mem_rAi (w := w) (r := r)).mp hj
  obtain ⟨c0, c1⟩ := (mem_rAi (w := w') (r := r')).mp hj'
  unfold bOf at a0 c0
  unfold i0Of at a1 c1
  have hr := r.isLt; have hr' := r'.isLt
  have e1 : w = w' := Fin.ext (by omega)
  have e2 : r = r' := Fin.ext (by omega)
  exact hne (by rw [e1, e2])

theorem rAo_disjoint {w w' : Fin 32} (hne : w ≠ w') : Disjoint (rAo w).set (rAo w').set := by
  rw [Finset.disjoint_left]
  intro j hj hj'
  obtain ⟨a0, a1⟩ := mem_rAo.mp hj
  obtain ⟨c0, c1⟩ := mem_rAo.mp hj'
  unfold bOf at a0 c0
  exact hne (Fin.ext (by omega))

theorem rAo_cover : (Finset.univ : Finset (Fin 32)).biUnion (fun w => (rAo w).set) = Finset.univ := by
  ext j
  simp only [Finset.mem_biUnion, Finset.mem_univ, true_and, iff_true]
  have b0 : (j 0 : Nat) < 4 := (j 0).isLt
  have b1 : (j 1 : Nat) < 64 := (j 1).isLt
  refine ⟨⟨8 * (j 0 : Nat) + (j 1 : Nat) / 8, by omega⟩, mem_rAo.mpr ⟨?_, ?_⟩⟩
  · show (j 0 : Nat) = (8 * (j 0 : Nat) + (j 1 : Nat) / 8) / 8; omega
  · show (j 1 : Nat) / 8 = (8 * (j 0 : Nat) + (j 1 : Nat) / 8) % 8; omega

/-! ## Sources: the entry an output entry is copied from lies in the matching input piece -/

theorem srcV_mem {w : Fin 32} {r : Fin 8} {h : Fin 2} {j : SVo.Idx} (hj : j ∈ (rVo w r h).set) :
    srcV j ∈ (rVi w r h).set := by
  obtain ⟨e0, e1, e3⟩ := mem_rVo.mp hj
  have s0 : (srcV j 0 : Nat) = (j 0 : Nat) := rfl
  have s1 : (srcV j 1 : Nat) = 2 * (j 1 : Nat) := rfl
  have s3 : (srcV j 3 : Nat) = (j 3 : Nat) := rfl
  refine mem_rVi.mpr ⟨?_, ?_, ?_⟩
  · rw [s0]; exact e0
  · rw [s1, e1]
  · rw [s3]; exact e3

theorem srcA_mem {w : Fin 32} {j : SAo.Idx} (hj : j ∈ (rAo w).set) :
    ∃ r : Fin 8, srcA j ∈ (rAi w r).set ∧ (j 1 : Nat) = i0Of w + r.val := by
  obtain ⟨e0, e1⟩ := mem_rAo.mp hj
  have s0 : (srcA j 0 : Nat) = (j 0 : Nat) := rfl
  have s1 : (srcA j 1 : Nat) = 2 * (j 1 : Nat) := rfl
  have e : (j 1 : Nat) = i0Of w + (j 1 : Nat) % 8 := by unfold i0Of; omega
  refine ⟨⟨(j 1 : Nat) % 8, by omega⟩, mem_rAi.mpr ⟨?_, ?_⟩, e⟩
  · rw [s0]; exact e0
  · show (srcA j 1 : Nat) = 2 * (i0Of w + (j 1 : Nat) % 8)
    rw [s1]; omega

end Cert.Proof.Pieces
-- ==== Proof.KISplit.lean ====
/-
  The launch's partition. The sixteen tiles of the two SparseCores are the 32 workers `w = 2 * tile + core`.
  Each slice a tile's body names is, as a set of elements, the matching unit rectangle of the worker; the
  output half-frames tile the output video and the audio blocks the output audio, the input pieces are
  pairwise disjoint. So the four arrays held whole split into the SparseCores' shares beside the inputs'
  remaining elements, and from the shares returned with the outputs written the arrays come back whole.
-/
import proofs.«207661_g395136991783_cont_8to1_b_1346_21_alg».proof.Proof.KIRes
import proofs.«207661_g395136991783_cont_8to1_b_1346_21_alg».proof.Proof.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker of a tile -/

theorem wid_lt (L : grid0.Coords) : wid L < 32 := by
  have h0 : (L 0).val < 2 := (L 0).isLt
  have h1 : (L 1).val < 16 := (L 1).isLt
  unfold wid; omega

/-- The worker of the tile at `L`. -/
def wOf (L : grid0.Coords) : Fin 32 := ⟨wid L, wid_lt L⟩

/-- Tile `i` of SparseCore `c` is worker `2 * i + c`: the pairs (SparseCore, tile) are the 32 workers. -/
def eW : Fin 2 × Fin 16 ≃ Fin 32 where
  toFun x := ⟨x.2.val * 2 + x.1.val, by have := x.1.isLt; have := x.2.isLt; omega⟩
  invFun w := (⟨w.val % 2, Nat.mod_lt _ (by omega)⟩, ⟨w.val / 2, by have := w.isLt; omega⟩)
  left_inv x := by
    obtain ⟨c, i⟩ := x
    refine Prod.ext (Fin.ext ?_) (Fin.ext ?_)
    · show (i.val * 2 + c.val) % 2 = c.val
      have := c.isLt; omega
    · show (i.val * 2 + c.val) / 2 = i.val
      have := c.isLt; omega
  right_inv w := Fin.ext (by show w.val / 2 * 2 + w.val % 2 = w.val; omega)

theorem wOf_Lof (c : Fin ((K (F := F)).nCore 0)) (i : Fin ((K (F := F)).nSub 0)) : wOf (Lof (F := F) c i) = eW (c, i) :=
  Fin.ext rfl

/-! ## Each slice is its worker's rectangle -/

/-- A slice of a whole array at a rectangle equal to `R'` has `R'`'s elements. -/
theorem set_slice_whole_eq {κ : Kind} (b : Ref sig κ) (R R' : Rect b.ty.shape) (e : R = R') :
    ((View.whole b).slice R).set = R'.set := by
  subst e; exact View.set_slice_whole b R

theorem rect_unit_congr {s : Shape} {o o' sz sz' : Fin s.rank → Nat} (ho : o = o') (hs : sz = sz')
    (h : ∀ a, o a + sz a ≤ s.size a) (h' : ∀ a, o' a + sz' a ≤ s.size a) : Rect.unit o sz h = Rect.unit o' sz' h' := by
  subst ho; subst hs; rfl

theorem set_viA (L : grid0.Coords) (r : Fin 8) : (viA L r).view.set = (Pieces.rVi (wOf L) r 0).set := by
  have e : (Rect.unit (s := S4x128x3x112x112) (k0_off2 L (BitVec.ofNat 32 r.val)) S1x1x3x56x112.size (k0_off2_inb L r) : Rect S4x128x3x112x112) = Pieces.rVi (wOf L) r 0 :=
    rect_unit_congr (off2_eq L r) rfl _ _
  show (((viV).view.slice (Rect.unit (s := S4x128x3x112x112) (k0_off2 L (BitVec.ofNat 32 r.val)) S1x1x3x56x112.size (k0_off2_inb L r))).reshape S3x56x112 squeezes_S1x1x3x56x112_S3x56x112.numel_eq).set = _
  rw [View.set_reshape]
  exact set_slice_whole_eq (main_arg0_scv : Ref sig .scVector) _ _ e
theorem set_viB (L : grid0.Coords) (r : Fin 8) : (viB L r).view.set = (Pieces.rVi (wOf L) r 1).set := by
  have e : (Rect.unit (s := S4x128x3x112x112) (k0_off3 L (BitVec.ofNat 32 r.val)) S1x1x3x56x112.size (k0_off3_inb L r) : Rect S4x128x3x112x112) = Pieces.rVi (wOf L) r 1 :=
    rect_unit_congr (off3_eq L r) rfl _ _
  show (((viV).view.slice (Rect.unit (s := S4x128x3x112x112) (k0_off3 L (BitVec.ofNat 32 r.val)) S1x1x3x56x112.size (k0_off3_inb L r))).reshape S3x56x112 squeezes_S1x1x3x56x112_S3x56x112.numel_eq).set = _
  rw [View.set_reshape]
  exact set_slice_whole_eq (main_arg0_scv : Ref sig .scVector) _ _ e
theorem set_voA (L : grid0.Coords) (r : Fin 8) : (voA L r).view.set = (Pieces.rVo (wOf L) r 0).set := by
  have e : (Rect.unit (s := S4x64x3x112x112) (k0_off4 L (BitVec.ofNat 32 r.val)) S1x1x3x56x112.size (k0_off4_inb L r) : Rect S4x64x3x112x112) = Pieces.rVo (wOf L) r 0 :=
    rect_unit_congr (off4_eq L r) rfl _ _
  show (((voV).view.slice (Rect.unit (s := S4x64x3x112x112) (k0_off4 L (BitVec.ofNat 32 r.val)) S1x1x3x56x112.size (k0_off4_inb L r))).reshape S3x56x112 squeezes_S1x1x3x56x112_S3x56x112.numel_eq).set = _
  rw [View.set_reshape]
  exact set_slice_whole_eq (main_v0_0_scv : Ref sig .scVector) _ _ e
theorem set_voB (L : grid0.Coords) (r : Fin 8) : (voB L r).view.set = (Pieces.rVo (wOf L) r 1).set := by
  have e : (Rect.unit (s := S4x64x3x112x112) (k0_off5 L (BitVec.ofNat 32 r.val)) S1x1x3x56x112.size (k0_off5_inb L r) : Rect S4x64x3x112x112) = Pieces.rVo (wOf L) r 1 :=
    rect_unit_congr (off5_eq L r) rfl _ _
  show (((voV).view.slice (Rect.unit (s := S4x64x3x112x112) (k0_off5 L (BitVec.ofNat 32 r.val)) S1x1x3x56x112.size (k0_off5_inb L r))).reshape S3x56x112 squeezes_S1x1x3x56x112_S3x56x112.numel_eq).set = _
  rw [View.set_reshape]
  exact set_slice_whole_eq (main_v0_0_scv : Ref sig .scVector) _ _ e
theorem set_aiR (L : grid0.Coords) (r : Fin 8) : (aiR L r).view.set = (Pieces.rAi (wOf L) r).set := by
  have e : (Rect.unit (s := S4x128x1024) (k0_off1 L (BitVec.ofNat 32 r.val)) S1x1x1024.size (k0_off1_inb L r) : Rect S4x128x1024) = Pieces.rAi (wOf L) r :=
    rect_unit_congr (off1_eq L r) rfl _ _
  show (((aiV).view.slice (Rect.unit (s := S4x128x1024) (k0_off1 L (BitVec.ofNat 32 r.val)) S1x1x1024.size (k0_off1_inb L r))).reshape S1024 squeezes_S1x1x1024_S1024.numel_eq).set = _
  rw [View.set_reshape]
  exact set_slice_whole_eq (main_arg1_scv : Ref sig .scVector) _ _ e
theorem set_aoB (L : grid0.Coords) : (aoB L).view.set = (Pieces.rAo (wOf L)).set := by
  have e : (Rect.unit (s := S4x64x1024) (k0_off6 L) S1x8x1024.size (k0_off6_inb L) : Rect S4x64x1024) = Pieces.rAo (wOf L) :=
    rect_unit_congr (off6_eq L) rfl _ _
  show (((aoV).view.slice (Rect.unit (s := S4x64x1024) (k0_off6 L) S1x8x1024.size (k0_off6_inb L))).reshape S8x1024 squeezes_S1x8x1024_S8x1024.numel_eq).set = _
  rw [View.set_reshape]
  exact set_slice_whole_eq (main_v0_1_scv : Ref sig .scVector) _ _ e

/-! ## A worker's pieces over the rectangles -/

/-- The input pieces of worker `w`, at the launch contents. -/
def wIn (m : (ℓ : Loc nD τ sig) → Buf (Elt F) ℓ) (d : Dev nD) (w : Fin 32) : sProp 𝕄 :=
  bigSep Finset.univ fun r : Fin 8 => iprop((viLoc d ↦[(Pieces.rVi w r 0).set]{fullShare} m (viLoc d))
    ∗ (viLoc d ↦[(Pieces.rVi w r 1).set]{fullShare} m (viLoc d)) ∗ (aiLoc d ↦[(Pieces.rAi w r).set]{fullShare} m (aiLoc d)))

/-- The output pieces of worker `w`, the video's at `gv` and the audio's at `ga`. -/
def wOut (d : Dev nD) (w : Fin 32) (gv : Buf (Elt F) (voLoc d)) (ga : Buf (Elt F) (aoLoc d)) : sProp 𝕄 :=
  iprop((bigSep Finset.univ fun r : Fin 8 => iprop((voLoc d ↦[(Pieces.rVo w r 0).set]{fullShare} gv) ∗ (voLoc d ↦[(Pieces.rVo w r 1).set]{fullShare} gv)))
    ∗ (aoLoc d ↦[(Pieces.rAo w).set]{fullShare} ga))

theorem tileIn_eq (m : (ℓ : Loc nD τ sig) → Buf (Elt F) ℓ) (d : Dev nD) (L : grid0.Coords) : tileIn m d L = wIn m d (wOf L) := by
  unfold tileIn wIn
  refine bigSep_congr fun r _ => ?_
  rw [set_viA, set_viB, set_aiR]

theorem tileOut_eq (d : Dev nD) (L : grid0.Coords) (gv : Buf (Elt F) (voLoc d)) (ga : Buf (Elt F) (aoLoc d)) :
    tileOut d L gv ga = wOut d (wOf L) gv ga := by
  have e : (bigSep Finset.univ fun r : Fin 8 => (iprop((voLoc d ↦[(voA L r).view.set]{fullShare} gv) ∗ (voLoc d ↦[(voB L r).view.set]{fullShare} gv)) : sProp 𝕄))
      = bigSep Finset.univ fun r : Fin 8 => iprop((voLoc d ↦[(Pieces.rVo (wOf L) r 0).set]{fullShare} gv) ∗ (voLoc d ↦[(Pieces.rVo (wOf L) r 1).set]{fullShare} gv)) :=
    bigSep_congr fun r _ => by rw [set_voA, set_voB]
  unfold tileOut wOut
  rw [e, set_aoB]

/-- The SparseCores' shares, tile by tile, are the 32 workers' pieces. -/
theorem tiles_flat (m : (ℓ : Loc nD τ sig) → Buf (Elt F) ℓ) (d : Dev nD) (gv : Buf (Elt F) (voLoc d)) (ga : Buf (Elt F) (aoLoc d)) :
    (bigSep Finset.univ fun c : Fin ((K (F := F)).nCore 0) => bigSep Finset.univ fun i : Fin ((K (F := F)).nSub 0) =>
        (iprop(tileIn m d (Lof c i) ∗ tileOut d (Lof c i) gv ga) : sProp 𝕄))
      = bigSep Finset.univ fun w : Fin 32 => iprop(wIn m d w ∗ wOut d w gv ga) := by
  refine Eq.trans ?_ (bigSep_univ_equiv eW (fun w : Fin 32 => (iprop(wIn m d w ∗ wOut d w gv ga) : sProp 𝕄))).symm
  refine Eq.trans ?_ (bigSep_univ_prod (fun x : Fin 2 × Fin 16 => (iprop(wIn m d (eW x) ∗ wOut d (eW x) gv ga) : sProp 𝕄))).symm
  refine bigSep_congr fun c _ => bigSep_congr fun i _ => ?_
  rw [tileIn_eq, tileOut_eq, wOf_Lof]

/-! ## The arrays as their pieces -/

/-- All the input video pieces, and all the input audio pieces. -/
def UVi : Finset S4x128x3x112x112.Idx := (Finset.univ : Finset Pieces.PV).biUnion fun p => (Pieces.rVi p.1 p.2.1 p.2.2).set
def UAi : Finset S4x128x1024.Idx := (Finset.univ : Finset Pieces.PA).biUnion fun p => (Pieces.rAi p.1 p.2).set

/-- A product over the video pieces' names, worker by worker and frame by frame, the two halves side by side. -/
theorem bigSep_PV (Φ : Fin 32 → Fin 8 → Fin 2 → sProp 𝕄) :
    (bigSep Finset.univ fun p : Pieces.PV => Φ p.1 p.2.1 p.2.2)
      = bigSep Finset.univ fun w : Fin 32 => bigSep Finset.univ fun r : Fin 8 => iprop(Φ w r 0 ∗ Φ w r 1) := by
  refine (bigSep_univ_prod (fun p : Pieces.PV => Φ p.1 p.2.1 p.2.2)).trans ?_
  refine bigSep_congr fun w _ => ?_
  refine (bigSep_univ_prod (fun q : Fin 8 × Fin 2 => Φ w q.1 q.2)).trans ?_
  refine bigSep_congr fun r _ => ?_
  exact bigSep_univ_two _

theorem vo_pieces (d : Dev nD) (gv : Buf (Elt F) (voLoc d)) :
    (voLoc d ↦{fullShare} gv : sProp 𝕄)
      = bigSep Finset.univ fun w : Fin 32 => bigSep Finset.univ fun r : Fin 8 =>
          iprop((voLoc d ↦[(Pieces.rVo w r 0).set]{fullShare} gv) ∗ (voLoc d ↦[(Pieces.rVo w r 1).set]{fullShare} gv)) := by
  refine Eq.trans ?_ (bigSep_PV (fun w r h => (voLoc d ↦[(Pieces.rVo w r h).set]{fullShare} gv : sProp 𝕄)))
  rw [← pointsTo_biUnion Finset.univ (ℓ := voLoc d) (fun p : Pieces.PV => (Pieces.rVo p.1 p.2.1 p.2.2).set)
    (fun p _ p' _ h => Pieces.rVo_disjoint h), Pieces.rVo_cover]

theorem ao_pieces (d : Dev nD) (ga : Buf (Elt F) (aoLoc d)) :
    (aoLoc d ↦{fullShare} ga : sProp 𝕄) = bigSep Finset.univ fun w : Fin 32 => aoLoc d ↦[(Pieces.rAo w).set]{fullShare} ga := by
  rw [← pointsTo_biUnion Finset.univ (ℓ := aoLoc d) (fun w : Fin 32 => (Pieces.rAo w).set)
    (fun w _ w' _ h => Pieces.rAo_disjoint h), Pieces.rAo_cover]

theorem vi_pieces (d : Dev nD) (f : Buf (Elt F) (viLoc d)) :
    (viLoc d ↦[UVi]{fullShare} f : sProp 𝕄)
      = bigSep Finset.univ fun w : Fin 32 => bigSep Finset.univ fun r : Fin 8 =>
          iprop((viLoc d ↦[(Pieces.rVi w r 0).set]{fullShare} f) ∗ (viLoc d ↦[(Pieces.rVi w r 1).set]{fullShare} f)) := by
  refine Eq.trans ?_ (bigSep_PV (fun w r h => (viLoc d ↦[(Pieces.rVi w r h).set]{fullShare} f : sProp 𝕄)))
  exact pointsTo_biUnion Finset.univ (ℓ := viLoc d) (fun p : Pieces.PV => (Pieces.rVi p.1 p.2.1 p.2.2).set)
    (fun p _ p' _ h => Pieces.rVi_disjoint h)

theorem ai_pieces (d : Dev nD) (f : Buf (Elt F) (aiLoc d)) :
    (aiLoc d ↦[UAi]{fullShare} f : sProp 𝕄)
      = bigSep Finset.univ fun w : Fin 32 => bigSep Finset.univ fun r : Fin 8 => aiLoc d ↦[(Pieces.rAi w r).set]{fullShare} f := by
  refine Eq.trans ?_ (bigSep_univ_prod (fun p : Pieces.PA => (aiLoc d ↦[(Pieces.rAi p.1 p.2).set]{fullShare} f : sProp 𝕄)))
  exact pointsTo_biUnion Finset.univ (ℓ := aiLoc d) (fun p : Pieces.PA => (Pieces.rAi p.1 p.2).set)
    (fun p _ p' _ h => Pieces.rAi_disjoint h)

/-- The 32 workers' pieces are the inputs' pieces and the two outputs whole. -/
theorem flat_eq (m : (ℓ : Loc nD τ sig) → Buf (Elt F) ℓ) (d : Dev nD) (gv : Buf (Elt F) (voLoc d)) (ga : Buf (Elt F) (aoLoc d)) :
    (bigSep Finset.univ fun w : Fin 32 => (iprop(wIn m d w ∗ wOut d w gv ga) : sProp 𝕄))
      = iprop(((viLoc d ↦[UVi]{fullShare} m (viLoc d)) ∗ (aiLoc d ↦[UAi]{fullShare} m (aiLoc d)))
          ∗ ((voLoc d ↦{fullShare} gv) ∗ (aoLoc d ↦{fullShare} ga))) := by
  rw [bigSep_sep']
  congr 1
  · rw [vi_pieces, ai_pieces, ← bigSep_sep']
    refine bigSep_congr fun w _ => ?_
    unfold wIn
    rw [← bigSep_sep']
    refine bigSep_congr fun r _ => ?_
    exact equiv_iff.mp ⟨sep_assoc', sep_assoc⟩
  · rw [vo_pieces, ao_pieces, ← bigSep_sep']
    rfl

/-! ## The launch's split -/

/-- The SparseCores' shares at the launch, tile by tile. -/
theorem st_tiles (m : (ℓ : Loc nD τ sig) → Buf (Elt F) ℓ) (d : Dev nD) :
    (bigSep Finset.univ fun c : Fin ((K (F := F)).nCore 0) => (P m).st 0 d c)
      = bigSep Finset.univ fun c : Fin ((K (F := F)).nCore 0) => bigSep Finset.univ fun i : Fin ((K (F := F)).nSub 0) =>
          (iprop(tileIn m d (Lof c i) ∗ tileOut d (Lof c i) (m (voLoc d)) (m (aoLoc d))) : sProp 𝕄) := by
  refine bigSep_congr fun c _ => ?_
  show (bigSep Finset.univ fun i : Fin ((K (F := F)).nSub 0) => goRes m d (Lof c i)) = _
  refine bigSep_congr fun i _ => ?_
  unfold goRes
  rfl

/-- The SparseCores' shares when they return, tile by tile. -/
theorem dn_tiles (m : (ℓ : Loc nD τ sig) → Buf (Elt F) ℓ) (d : Dev nD) :
    (bigSep Finset.univ fun c : Fin ((K (F := F)).nCore 0) => (P m).dn 0 d c)
      = bigSep Finset.univ fun c : Fin ((K (F := F)).nCore 0) => bigSep Finset.univ fun i : Fin ((K (F := F)).nSub 0) =>
          (iprop(tileIn m d (Lof c i) ∗ tileOut d (Lof c i) (GV m d) (GA m d)) : sProp 𝕄) := by
  refine bigSep_congr fun c _ => ?_
  show (bigSep Finset.univ fun i : Fin ((K (F := F)).nSub 0) => tdRes m d (Lof c i)) = _
  refine bigSep_congr fun i _ => ?_
  unfold tdRes
  rfl

theorem launch_split [FloatOps F] (m : (ℓ : Loc nD τ sig) → Buf (Elt F) ℓ) (d : Dev nD) :
    (iprop((viLoc d ↦{fullShare} m (viLoc d)) ∗ (aiLoc d ↦{fullShare} m (aiLoc d)) ∗ (voLoc d ↦{fullShare} m (voLoc d)) ∗ (aoLoc d ↦{fullShare} m (aoLoc d))) : sProp 𝕄)
      ⊢ iprop((bigSep Finset.univ fun c : Fin ((K (F := F)).nCore 0) => (P m).st 0 d c)
          ∗ ((bigSep Finset.univ fun c : Fin ((K (F := F)).nCore 0) => (P m).dn 0 d c)
              -∗ iprop((viLoc d ↦{fullShare} m (viLoc d)) ∗ (aiLoc d ↦{fullShare} m (aiLoc d)) ∗ (voLoc d ↦{fullShare} GV m d) ∗ (aoLoc d ↦{fullShare} GA m d)))) := by
  have hst : (bigSep Finset.univ fun c : Fin ((K (F := F)).nCore 0) => (P m).st 0 d c)
      = (iprop(((viLoc d ↦[UVi]{fullShare} m (viLoc d)) ∗ (aiLoc d ↦[UAi]{fullShare} m (aiLoc d)))
          ∗ ((voLoc d ↦{fullShare} m (voLoc d)) ∗ (aoLoc d ↦{fullShare} m (aoLoc d)))) : sProp 𝕄) :=
    (st_tiles m d).trans ((tiles_flat m d (m (voLoc d)) (m (aoLoc d))).trans (flat_eq m d (m (voLoc d)) (m (aoLoc d))))
  have hdn : (bigSep Finset.univ fun c : Fin ((K (F := F)).nCore 0) => (P m).dn 0 d c)
      = (iprop(((viLoc d ↦[UVi]{fullShare} m (viLoc d)) ∗ (aiLoc d ↦[UAi]{fullShare} m (aiLoc d)))
          ∗ ((voLoc d ↦{fullShare} GV m d) ∗ (aoLoc d ↦{fullShare} GA m d))) : sProp 𝕄) :=
    (dn_tiles m d).trans ((tiles_flat m d (GV m d) (GA m d)).trans (flat_eq m d (GV m d) (GA m d)))
  rw [hst, hdn]
  have sV : UVi ⊆ (Finset.univ : Finset (Idx (viLoc d))) := Finset.subset_univ _
  have sA : UAi ⊆ (Finset.univ : Finset (Idx (aiLoc d))) := Finset.subset_univ _
  iintro ⟨Hvi, Hai, Hvo, Hao⟩
  ihave Hvi' := (pointsTo_split_subset (ℓ := viLoc d) (q := fullShare) (f := m (viLoc d)) sV).1 $$ Hvi
  icases Hvi' with ⟨Hvi1, Hvi2⟩
  ihave Hai' := (pointsTo_split_subset (ℓ := aiLoc d) (q := fullShare) (f := m (aiLoc d)) sA).1 $$ Hai
  icases Hai' with ⟨Hai1, Hai2⟩
  isplitl [Hvi1 Hai1 Hvo Hao]
  · isplitl [Hvi1 Hai1]
    · isplitl [Hvi1]; · iexact Hvi1
      iexact Hai1
    · isplitl [Hvo]; · iexact Hvo
      iexact Hao
  iintro ⟨⟨Hvi1, Hai1⟩, Hvo, Hao⟩
  isplitl [Hvi1 Hvi2]
  · iapply (pointsTo_split_subset (ℓ := viLoc d) (q := fullShare) (f := m (viLoc d)) sV).2
    isplitl [Hvi1]; · iexact Hvi1
    iexact Hvi2
  isplitl [Hai1 Hai2]
  · iapply (pointsTo_split_subset (ℓ := aiLoc d) (q := fullShare) (f := m (aiLoc d)) sA).2
    isplitl [Hai1]; · iexact Hai1
    iexact Hai2
  isplitl [Hvo]; · iexact Hvo
  iexact Hao

end Cert.Proof.KI

end
-- ==== Proof.KILaunch.lean ====
/-
  The launch: every weakly fair execution of the device's thirty-five threads — the TensorCore's one call, the two
  sequencers' dispatch, the thirty-two tiles' tasks — terminates without a fault, with the outputs at every second
  frame of the inputs and the inputs unchanged. The TensorCore deals the four arrays to the tiles piece by piece and
  takes them back written; a tile's task is its body's run; no thread signals another outside the launch's own
  handshakes, so the ghost state is the handshakes' beside one counter per local copy in flight.
-/
import proofs.«207661_g395136991783_cont_8to1_b_1346_21_alg».proof.Proof.KITile
import proofs.«207661_g395136991783_cont_8to1_b_1346_21_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The launch theorem's obligation for a tile -/

theorem defs₀_vector (c : Fin τ.nSC) (s : Fin τ.nSub) :
    defs₀ (F := F) (.scVector c s) 0 ()
      = SparseCore.onTile hcore0 hsub0 (fun c s => cc0_sc_copy (coordsV c s)
          viV (Memref.isWhole_whole _) aiV (Memref.isWhole_whole _) voV (Memref.isWhole_whole _) aoV (Memref.isWhole_whole _)
          vbV (Memref.isWhole_whole _) abV (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore: the one call -/

omit [FloatOps F] in
theorem unscopedBufs_eq (d : Dev nD) (W : (b : Ref sig .tc) → Buf (Elt F) ((d.tc : Thread nD τ).loc b)) :
    (unscopedBufs d W : sProp 𝕄) = iprop((viLoc d ↦{fullShare} W main_arg0) ∗ (aiLoc d ↦{fullShare} W main_arg1)
      ∗ (voLoc d ↦{fullShare} W main_v0_0) ∗ aoLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What @main leaves the claim: the inputs at their launch contents, the outputs at every second frame of them. -/
abbrev FIN (d : Dev nD) : sProp 𝕄 :=
  iprop((viLoc d ↦{fullShare} m (viLoc d)) ∗ (aiLoc d ↦{fullShare} m (aiLoc d)) ∗ (voLoc d ↦{fullShare} GV m d) ∗ (aoLoc d ↦{fullShare} GA m d))

theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hvi, Hai, Hvo, Hao⟩, -, -⟩, -⟩
  ihave Hsp := (launch_split m d) $$ [Hvi Hai Hvo Hao]
  · isplitl [Hvi]; · iexact Hvi
    isplitl [Hai]; · iexact Hai
    isplitl [Hvo]; · iexact Hvo
    iexact Hao
  icases Hsp with ⟨Hgo, Hback⟩
  iapply ((K (F := F)).wp_run (D (F := F)) 𝒱 (EH := EH) (P := P m) κ d 0) $$ [Hst Hgo Hback]
  isplitr; · iexact Hctx
  isplitl [Hst]; · iexact Hst
  isplitl [Hgo]; · iexact Hgo
  iintro ⟨Hst, Hdn⟩
  ihave Hfin := Hback $$ Hdn
  imodintro
  isplitl [Hst]; · iexact Hst
  iexact Hfin

def fq (d : Dev nD) (s' : Phys nD τ sig (Elt F)) : Prop :=
  s'.mem.mem (viLoc d) = m (viLoc d) ∧ s'.mem.mem (aiLoc d) = m (aiLoc d) ∧ s'.mem.mem (voLoc d) = GV m d ∧ s'.mem.mem (aoLoc d) = GA m d

set_option maxRecDepth 16384 in
theorem hfin (d : Dev nD) (s' : Phys nD τ sig (Elt F)) : iprop(FIN m d ∗ SI s') ⊢ (⌜fq m d s'⌝ : sProp 𝕄) := by
  iintro ⟨⟨Hvi, Hai, Hvo, Hao⟩, HSI⟩
  ihave H := (persistent_entails_right (SI_pointsTo_agree (st := s') (ℓ := viLoc d) (I := Finset.univ) (q := fullShare) (f := m (viLoc d)))) $$ [HSI Hvi]
  · isplitl [HSI] <;> iassumption
  icases H with ⟨%h1, HSI, -⟩
  ihave H := (persistent_entails_right (SI_pointsTo_agree (st := s') (ℓ := aiLoc d) (I := Finset.univ) (q := fullShare) (f := m (aiLoc d)))) $$ [HSI Hai]
  · isplitl [HSI] <;> iassumption
  icases H with ⟨%h2, HSI, -⟩
  ihave H := (persistent_entails_right (SI_pointsTo_agree (st := s') (ℓ := voLoc d) (I := Finset.univ) (q := fullShare) (f := GV m d))) $$ [HSI Hvo]
  · isplitl [HSI] <;> iassumption
  icases H with ⟨%h3, HSI, -⟩
  ihave H := (SI_pointsTo_agree (st := s') (ℓ := aoLoc d) (I := Finset.univ) (q := fullShare) (f := GA m d)) $$ [HSI Hao]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every device ends with the outputs at every second frame of the inputs and the inputs unchanged. -/
def QC : PUnit × MemSt nD τ sig (Elt F) → Prop := fun r => ∀ c : Dev nD,
  r.2.mem (viLoc c) = m (viLoc c) ∧ r.2.mem (aiLoc c) = m (aiLoc c) ∧ r.2.mem (voLoc c) = GV m c ∧ r.2.mem (aoLoc c) = GA m c

theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The copy kernel as the SparseCore launch sees it: one vector-subcore call on 2 SparseCores × 16 tiles. Worker
  `w = 2·tile + core` owns batch `w / 8` and the eight output frames `(w % 8)·8 + r`, `r < 8`; it reads input frame
  `2·((w % 8)·8 + r)` of the video in two half-frames (rows `56·h … 56·h + 55`) and row `2·((w % 8)·8 + r)` of the audio.
  Here: the program's vocabulary for the launch theorem, the ghost state (the launch handshakes beside one counter per
  local copy in flight), the arrays' places, the slices the body names — stated through the printed offset
  functions —, and those offset functions in closed form.
-/
import proofs.«207661_g395136991783_cont_8to1_b_1346_21_alg».proof.Proof.Gen.Kernel
import proofs.«207661_g395136991783_cont_8to1_b_1346_21_alg».proof.Proof.Gen.Kernel.Skeleton
import proofs.«207661_g395136991783_cont_8to1_b_1346_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev 𝕄F (F : FTy → Type) : Type := MT nD τ sig (HIx 1) (Elt F) ℕ UU ℕ

abbrev EH : Emb UH (MT nD τ sig (HIx 1) (Elt F) ℕ UU ℕ) := embL

/-! ## The arrays' places -/

abbrev viLoc (d : Dev nD) : Loc nD τ sig := (SparseCore.T d).loc main_arg0
abbrev aiLoc (d : Dev nD) : Loc nD τ sig := (SparseCore.T d).loc main_arg1
abbrev voLoc (d : Dev nD) : Loc nD τ sig := (SparseCore.T d).loc main_v0_0
abbrev aoLoc (d : Dev nD) : Loc nD τ sig := (SparseCore.T d).loc main_v0_1

/-- The arrays and the two scratch buffers as a tile's kernel names them. -/
abbrev viV : Memref sig .scVector .hbm S4x128x3x112x112 .f32 := Memref.whole main_arg0_scv
abbrev aiV : Memref sig .scVector .hbm S4x128x1024 .f32 := Memref.whole main_arg1_scv
abbrev voV : Memref sig .scVector .hbm S4x64x3x112x112 .f32 := Memref.whole main_v0_0_scv
abbrev aoV : Memref sig .scVector .hbm S4x64x1024 .f32 := Memref.whole main_v0_1_scv
abbrev vbV : Memref sig .scVector .vmem S4x3x56x112 .f32 := Memref.whole cc0_scratch0
abbrev abV : Memref sig .scVector .vmem S8x1024 .f32 := Memref.whole cc0_scratch1

/-! ## A tile's place and the worker number -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The worker number of the tile at `L`: twice its tile index plus its SparseCore's. -/
def wid (L : grid0.Coords) : Nat := (L 1).val * 2 + (L 0).val

/-! ## The slices the body names, through the printed offset functions -/

/-- Half-frame 0 / half-frame 1 of an input frame, half-frame 0 / 1 of an output frame, an input audio row, the output
    audio block, at an offset word `w` (the body's literals `0#32 … 7#32`). -/
abbrev viAw (L : grid0.Coords) (w : BitVec 32) (h : ∀ a, (k0_off2 L w) a + S1x1x3x56x112.size a ≤ S4x128x3x112x112.size a) : Memref sig .scVector .hbm S3x56x112 .f32 :=
  ((viV).slice (Rect.unit (s := S4x128x3x112x112) (k0_off2 L w) S1x1x3x56x112.size h) (fun _ => rfl)).squeeze S3x56x112 squeezes_S1x1x3x56x112_S3x56x112
abbrev viBw (L : grid0.Coords) (w : BitVec 32) (h : ∀ a, (k0_off3 L w) a + S1x1x3x56x112.size a ≤ S4x128x3x112x112.size a) : Memref sig .scVector .hbm S3x56x112 .f32 :=
  ((viV).slice (Rect.unit (s := S4x128x3x112x112) (k0_off3 L w) S1x1x3x56x112.size h) (fun _ => rfl)).squeeze S3x56x112 squeezes_S1x1x3x56x112_S3x56x112
abbrev voAw (L : grid0.Coords) (w : BitVec 32) (h : ∀ a, (k0_off4 L w) a + S1x1x3x56x112.size a ≤ S4x64x3x112x112.size a) : Memref sig .scVector .hbm S3x56x112 .f32 :=
  ((voV).slice (Rect.unit (s := S4x64x3x112x112) (k0_off4 L w) S1x1x3x56x112.size h) (fun _ => rfl)).squeeze S3x56x112 squeezes_S1x1x3x56x112_S3x56x112
abbrev voBw (L : grid0.Coords) (w : BitVec 32) (h : ∀ a, (k0_off5 L w) a + S1x1x3x56x112.size a ≤ S4x64x3x112x112.size a) : Memref sig .scVector .hbm S3x56x112 .f32 :=
  ((voV).slice (Rect.unit (s := S4x64x3x112x112) (k0_off5 L w) S1x1x3x56x112.size h) (fun _ => rfl)).squeeze S3x56x112 squeezes_S1x1x3x56x112_S3x56x112
abbrev aiRw (L : grid0.Coords) (w : BitVec 32) (h : ∀ a, (k0_off1 L w) a + S1x1x1024.size a ≤ S4x128x1024.size a) : Memref sig .scVector .hbm S1024 .f32 :=
  ((aiV).slice (Rect.unit (s := S4x128x1024) (k0_off1 L w) S1x1x1024.size h) (fun _ => rfl)).squeeze S1024 squeezes_S1x1x1024_S1024
abbrev aoB (L : grid0.Coords) : Memref sig .scVector .hbm S8x1024 .f32 :=
  ((aoV).slice (Rect.unit (s := S4x64x1024) (k0_off6 L) S1x8x1024.size (k0_off6_inb L)) (fun _ => rfl)).squeeze S8x1024 squeezes_S1x8x1024_S8x1024

abbrev viA (L : grid0.Coords) (r : Fin 8) := viAw L (BitVec.ofNat 32 r.val) (k0_off2_inb L r)
abbrev viB (L : grid0.Coords) (r : Fin 8) := viBw L (BitVec.ofNat 32 r.val) (k0_off3_inb L r)
abbrev voA (L : grid0.Coords) (r : Fin 8) := voAw L (BitVec.ofNat 32 r.val) (k0_off4_inb L r)
abbrev voB (L : grid0.Coords) (r : Fin 8) := voBw L (BitVec.ofNat 32 r.val) (k0_off5_inb L r)
abbrev aiR (L : grid0.Coords) (r : Fin 8) := aiRw L (BitVec.ofNat 32 r.val) (k0_off1_inb L r)

/-- Slot `k` of the four-deep half-frame ring, row `r` of the audio scratch, at the literal offsets the body writes. -/
abbrev vbSw (off : Fin 4 → Nat) (h : ∀ a, off a + S1x3x56x112.size a ≤ S4x3x56x112.size a) : Memref sig .scVector .vmem S3x56x112 .f32 :=
  ((vbV).slice (Rect.unit (s := S4x3x56x112) off S1x3x56x112.size h) (fun _ => rfl)).squeeze S3x56x112 squeezes_S1x3x56x112_S3x56x112
abbrev abRw (off : Fin 2 → Nat) (h : ∀ a, off a + S1x1024.size a ≤ S8x1024.size a) : Memref sig .scVector .vmem S1024 .f32 :=
  ((abV).slice (Rect.unit (s := S8x1024) off S1x1024.size h) (fun _ => rfl)).squeeze S1024 squeezes_S1x1024_S1024
abbrev vbS0 := vbSw ![0, 0, 0, 0] inb_S4x3x56x112_S1x3x56x112_0_0_0_0
abbrev vbS1 := vbSw ![1, 0, 0, 0] inb_S4x3x56x112_S1x3x56x112_1_0_0_0
abbrev vbS2 := vbSw ![2, 0, 0, 0] inb_S4x3x56x112_S1x3x56x112_2_0_0_0
abbrev vbS3 := vbSw ![3, 0, 0, 0] inb_S4x3x56x112_S1x3x56x112_3_0_0_0

/-- The ten DMA semaphores: the ring's four inbound and four outbound, the audio's inbound and outbound. -/
abbrev semw (A : DmaSems sig S4) (off : Fin 1 → Nat) (h : ∀ a, off a + S1.size a ≤ S4.size a) : DmaSems sig S_ :=
  (A.slice (Rect.unit (s := S4) off S1.size h)).squeeze S_ squeezes_S1_S_
abbrev inS0 := semw cc0_scratch2 ![0] inb_S4_S1_0
abbrev inS1 := semw cc0_scratch2 ![1] inb_S4_S1_1
abbrev inS2 := semw cc0_scratch2 ![2] inb_S4_S1_2
abbrev inS3 := semw cc0_scratch2 ![3] inb_S4_S1_3
abbrev outS0 := semw cc0_scratch3 ![0] inb_S4_S1_0
abbrev outS1 := semw cc0_scratch3 ![1] inb_S4_S1_1
abbrev outS2 := semw cc0_scratch3 ![2] inb_S4_S1_2
abbrev outS3 := semw cc0_scratch3 ![3] inb_S4_S1_3

/-! ## The offset functions in closed form -/

set_option maxRecDepth 65536 in
theorem off1_eq : ∀ L : grid0.Coords, ∀ r : Fin 8, k0_off1 L (BitVec.ofNat 32 r.val) = ![wid L / 8, 2 * ((wid L % 8) * 8 + r.val), 0] := by decide +kernel
set_option maxRecDepth 65536 in
theorem off2_eq : ∀ L : grid0.Coords, ∀ r : Fin 8, k0_off2 L (BitVec.ofNat 32 r.val) = ![wid L / 8, 2 * ((wid L % 8) * 8 + r.val), 0, 0, 0] := by decide +kernel
set_option maxRecDepth 65536 in
theorem off3_eq : ∀ L : grid0.Coords, ∀ r : Fin 8, k0_off3 L (BitVec.ofNat 32 r.val) = ![wid L / 8, 2 * ((wid L % 8) * 8 + r.val), 0, 56, 0] := by decide +kernel
set_option maxRecDepth 65536 in
theorem off4_eq : ∀ L : grid0.Coords, ∀ r : Fin 8, k0_off4 L (BitVec.ofNat 32 r.val) = ![wid L / 8, (wid L % 8) * 8 + r.val, 0, 0, 0] := by decide +kernel
set_option maxRecDepth 65536 in
theorem off5_eq : ∀ L : grid0.Coords, ∀ r : Fin 8, k0_off5 L (BitVec.ofNat 32 r.val) = ![wid L / 8, (wid L % 8) * 8 + r.val, 0, 56, 0] := by decide +kernel
set_option maxRecDepth 65536 in
theorem off6_eq : ∀ L : grid0.Coords, k0_off6 L = ![wid L / 8, (wid L % 8) * 8, 0] := by decide +kernel

end Cert.Proof.KB

end
-- ==== Proof.KBRes.lean ====
/-
  What the launch's handshakes carry. A tile is handed exactly the pieces its copies touch: per frame `r < 8` the two
  half-frames of the input frame and the input audio row it reads (at the launch contents, returned unchanged), the two
  half-frames of the output frame it writes, and its block of eight output audio rows. It returns the output pieces
  holding every second frame of the input. A SparseCore's share is its sixteen tiles' shares side by side.
-/
import proofs.«207661_g395136991783_cont_8to1_b_1346_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The grid point of tile `s` of SparseCore `c`, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

/-- Every second frame of the launch video, every second row of the launch audio: what the outputs hold at the end. -/
abbrev GV (d : Dev nD) : Buf (Elt F) (voLoc d) := Spec.takeV (m (viLoc d))
abbrev GA (d : Dev nD) : Buf (Elt F) (aoLoc d) := Spec.takeA (m (aiLoc d))

/-- The input pieces of the tile at `L`, at the launch contents. -/
def tileIn (d : Dev nD) (L : grid0.Coords) : sProp 𝕄 :=
  bigSep Finset.univ fun r : Fin 8 => iprop((viLoc d ↦[(viA L r).view.set]{fullShare} m (viLoc d))
    ∗ (viLoc d ↦[(viB L r).view.set]{fullShare} m (viLoc d)) ∗ (aiLoc d ↦[(aiR L r).view.set]{fullShare} m (aiLoc d)))

/-- The output pieces of the tile at `L`, the video's at `gv` and the audio's at `ga`. -/
def tileOut (d : Dev nD) (L : grid0.Coords) (gv : Buf (Elt F) (voLoc d)) (ga : Buf (Elt F) (aoLoc d)) : sProp 𝕄 :=
  iprop((bigSep Finset.univ fun r : Fin 8 => iprop((voLoc d ↦[(voA L r).view.set]{fullShare} gv) ∗ (voLoc d ↦[(voB L r).view.set]{fullShare} gv)))
    ∗ (aoLoc d ↦[(aoB L).view.set]{fullShare} ga))

/-- What a tile is handed, and what it hands back. -/
def goRes (d : Dev nD) (L : grid0.Coords) : sProp 𝕄 := iprop(tileIn m d L ∗ tileOut d L (m (voLoc d)) (m (aoLoc d)))
def tdRes (d : Dev nD) (L : grid0.Coords) : sProp 𝕄 := iprop(tileIn m d L ∗ tileOut d L (GV m d) (GA m d))

/-- The grid point of task `i` of SparseCore `c` of the call. -/
abbrev Lof (c : Fin ((K (F := F)).nCore 0)) (i : Fin ((K (F := F)).nSub 0)) : grid0.Coords :=
  coordsV ⟨((K (F := F)).core 0 c).val, c.isLt⟩ ⟨((K (F := F)).sub 0 i).val, i.isLt⟩

/-- The one call: a SparseCore takes its tiles' shares and brings them back; a task takes its share and brings it back
    written. -/
def P : (K (F := F)).Pay (nD := nD) (Val := Elt F) (Name := ℕ) (U := UU) where
  st := fun q d c => match q with | 0 => bigSep Finset.univ fun i : Fin ((K (F := F)).nSub 0) => goRes m d (Lof c i)
  dn := fun q d c => match q with | 0 => bigSep Finset.univ fun i : Fin ((K (F := F)).nSub 0) => tdRes m d (Lof c i)
  go := fun q d c i => match q with | 0 => goRes m d (Lof c i)
  td := fun q d c i => match q with | 0 => tdRes m d (Lof c i)
  x := fun _ _ => iprop(emp)

instance goRes_storable (d : Dev nD) (L : grid0.Coords) : BI.Storable (upEmb : UEmb _ 𝕄) (goRes m d L) := by
  unfold goRes tileIn tileOut; infer_instance
instance tdRes_storable (d : Dev nD) (L : grid0.Coords) : BI.Storable (upEmb : UEmb _ 𝕄) (tdRes m d L) := by
  unfold tdRes tileIn tileOut; infer_instance

instance P_storable : (P (F := F) m).IsStorable where
  st q d c := match q with
    | 0 => (inferInstance : BI.Storable (upEmb : UEmb _ 𝕄) (bigSep Finset.univ fun i : Fin ((K (F := F)).nSub 0) => goRes m d (Lof c i)))
  dn q d c := match q with
    | 0 => (inferInstance : BI.Storable (upEmb : UEmb _ 𝕄) (bigSep Finset.univ fun i : Fin ((K (F := F)).nSub 0) => tdRes m d (Lof c i)))
  go q d c i := match q with
    | 0 => (inferInstance : BI.Storable (upEmb : UEmb _ 𝕄) (goRes m d (Lof c i)))
  td q d c i := match q with
    | 0 => (inferInstance : BI.Storable (upEmb : UEmb _ 𝕄) (tdRes m d (Lof c i)))

/-- A SparseCore's tasks take exactly what it was handed. -/
theorem vecSplit : (K (F := F)).VecSplit' (P m) 0 := by
  intro d c
  show (bigSep Finset.univ fun i : Fin ((K (F := F)).nSub 0) => goRes m d (Lof c i)) ⊢ |={Set.univ}=> iprop(
      (bigSep Finset.univ fun i : Fin ((K (F := F)).nSub 0) => goRes m d (Lof c i))
      ∗ ((bigSep Finset.univ fun i : Fin ((K (F := F)).nSub 0) => tdRes m d (Lof c i))
          -∗ (bigSep Finset.univ fun i : Fin ((K (F := F)).nSub 0) => tdRes m d (Lof c i))))
  iintro H; imodintro
  isplitl [H]; · iexact H
  iintro H; iexact H

end Cert.Proof.KB

end
-- ==== Proof.KBValue.lean ====
/-
  The values the tile's body leaves in its output pieces. Each output half-frame is written whole with what a scratch
  slot reads, the slot having last been written whole with what the matching input half-frame reads; the output audio
  block is written whole with what the audio scratch reads after its eight rows were written, row `k` with what the
  worker's `k`-th input row reads. Here: where the pieces' indices sit in the arrays (a squeezed unit slice places an
  index at the slice's offsets plus the index, the dropped axes at zero), so that the source of an output piece's entry
  is the matching input piece's entry; and, from that, that the contents left on each output piece are those of
  "every second frame of the input", whatever the outputs and the scratches held before.
-/
import proofs.«207661_g395136991783_cont_8to1_b_1346_21_alg».proof.Proof.KBSetup
import proofs.«207661_g395136991783_cont_8to1_b_1346_21_alg».proof.Proof.Spec
import Idealize.ShloMosaic.Lib.ValueLayout
import Idealize.ShloMosaic.Lib.Writes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Coordinates of a squeezed unit slice -/

/-- The half-frame index `(c, i, j)` placed in a rank-5 array at offsets `off`: `off` plus `(0, 0, c, i, j)`. -/
theorem unit_emb_sq3 {n : Fin 5 → Nat} (off : Fin 5 → Nat) (h : ∀ a, off a + S1x1x3x56x112.size a ≤ (⟨5, n⟩ : Shape).size a)
    (hq : S3x56x112.numel = S1x1x3x56x112.numel) (y : S3x56x112.Idx) (a : Fin 5) :
    (((Rect.unit (s := ⟨5, n⟩) off S1x1x3x56x112.size h).emb (Shape.reshapeEquiv hq y) a : Fin _) : Nat)
      = off a + (![0, 0, (y 0 : Nat), (y 1 : Nat), (y 2 : Nat)] : Fin 5 → Nat) a := by
  have e : Shape.reshapeEquiv hq y = ix5 (⟨0, Nat.one_pos⟩ : Fin 1) (⟨0, Nat.one_pos⟩ : Fin 1) (y 0) (y 1) (y 2) :=
    (congrArg (Shape.reshapeEquiv hq) (eq_ix3 y)).trans (reshapeEquiv_ix3_11abc hq (y 0) (y 1) (y 2))
  refine (congrArg (fun z : S1x1x3x56x112.Idx => (((Rect.unit (s := ⟨5, n⟩) off S1x1x3x56x112.size h).emb z a : Fin _) : Nat)) e).trans ?_
  match a with
  | ⟨0, _⟩ => rfl
  | ⟨1, _⟩ => rfl
  | ⟨2, _⟩ => show off 2 + 1 * (y 0 : Nat) = off 2 + (y 0 : Nat); omega
  | ⟨3, _⟩ => show off 3 + 1 * (y 1 : Nat) = off 3 + (y 1 : Nat); omega
  | ⟨4, _⟩ => show off 4 + 1 * (y 2 : Nat) = off 4 + (y 2 : Nat); omega

/-- The source of the entry at `y` of an output half-frame is the entry at `y` of the matching input half-frame. -/
theorem srcV_voA (L : grid0.Coords) (r : Fin 8) (y : S3x56x112.Idx) :
    Spec.srcV ((voA L r).view.emb y) = (viA L r).view.emb y := by
  have eo : ∀ a, (((voA L r).view.emb y a : Fin _) : Nat) = k0_off4 L (BitVec.ofNat 32 r.val) a + (![0, 0, (y 0 : Nat), (y 1 : Nat), (y 2 : Nat)] : Fin 5 → Nat) a :=
    unit_emb_sq3 _ _ _ y
  have ei : ∀ a, (((viA L r).view.emb y a : Fin _) : Nat) = k0_off2 L (BitVec.ofNat 32 r.val) a + (![0, 0, (y 0 : Nat), (y 1 : Nat), (y 2 : Nat)] : Fin 5 → Nat) a :=
    unit_emb_sq3 _ _ _ y
  rw [off4_eq] at eo
  rw [off2_eq] at ei
  funext a
  apply Fin.ext
  rw [Spec.srcV_val]
  match a with
  | ⟨0, _⟩ => exact (eo 0).trans (ei 0).symm
  | ⟨1, _⟩ =>
    have h1 : (((voA L r).view.emb y 1 : Fin _) : Nat) = (wid L % 8) * 8 + r.val + 0 := eo 1
    have h2 : (((viA L r).view.emb y 1 : Fin _) : Nat) = 2 * ((wid L % 8) * 8 + r.val) + 0 := ei 1
    show 2 * (((voA L r).view.emb y 1 : Fin _) : Nat) = (((viA L r).view.emb y 1 : Fin _) : Nat)
    omega
  | ⟨2, _⟩ => exact (eo 2).trans (ei 2).symm
  | ⟨3, _⟩ => exact (eo 3).trans (ei 3).symm
  | ⟨4, _⟩ => exact (eo 4).trans (ei 4).symm

theorem srcV_voB (L : grid0.Coords) (r : Fin 8) (y : S3x56x112.Idx) :
    Spec.srcV ((voB L r).view.emb y) = (viB L r).view.emb y := by
  have eo : ∀ a, (((voB L r).view.emb y a : Fin _) : Nat) = k0_off5 L (BitVec.ofNat 32 r.val) a + (![0, 0, (y 0 : Nat), (y 1 : Nat), (y 2 : Nat)] : Fin 5 → Nat) a :=
    unit_emb_sq3 _ _ _ y
  have ei : ∀ a, (((viB L r).view.emb y a : Fin _) : Nat) = k0_off3 L (BitVec.ofNat 32 r.val) a + (![0, 0, (y 0 : Nat), (y 1 : Nat), (y 2 : Nat)] : Fin 5 → Nat) a :=
    unit_emb_sq3 _ _ _ y
  rw [off5_eq] at eo
  rw [off3_eq] at ei
  funext a
  apply Fin.ext
  rw [Spec.srcV_val]
  match a with
  | ⟨0, _⟩ => exact (eo 0).trans (ei 0).symm
  | ⟨1, _⟩ =>
    have h1 : (((voB L r).view.emb y 1 : Fin _) : Nat) = (wid L % 8) * 8 + r.val + 0 := eo 1
    have h2 : (((viB L r).view.emb y 1 : Fin _) : Nat) = 2 * ((wid L % 8) * 8 + r.val) + 0 := ei 1
    show 2 * (((voB L r).view.emb y 1 : Fin _) : Nat) = (((viB L r).view.emb y 1 : Fin _) : Nat)
    omega
  | ⟨2, _⟩ => exact (eo 2).trans (ei 2).symm
  | ⟨3, _⟩ => exact (eo 3).trans (ei 3).symm
  | ⟨4, _⟩ => exact (eo 4).trans (ei 4).symm

/-! ### The audio rows -/

/-- An index `x` matched with shape `[1, 1, a]` is `(0, 0, x)`. -/
theorem reshapeEquiv_ix1_11a {a : ℕ} (h : (⟨1, ![a]⟩ : Shape).numel = (⟨3, ![1, 1, a]⟩ : Shape).numel) (x : Fin a) :
    Shape.reshapeEquiv h (ix1 x) = ix3 (⟨0, Nat.one_pos⟩ : Fin 1) (⟨0, Nat.one_pos⟩ : Fin 1) x :=
  Shape.reshapeEquiv_eq_of_rowMajor h (by
    rw [Shape.rowMajor_val_three, Shape.rowMajor_val_one]
    show ((0 * 1 + 0) * a + x.val) = x.val
    simp only [Nat.zero_mul, Nat.zero_add])

/-- An index `x` matched with shape `[1, a]` is `(0, x)`. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show (0 * a + x.val) = x.val
    simp only [Nat.zero_mul, Nat.zero_add])

/-- The index `j` of an audio row placed in a rank-3 array at offsets `off`: `off` plus `(0, 0, j)`. -/
theorem unit_emb_sq1 {n : Fin 3 → Nat} (off : Fin 3 → Nat) (h : ∀ a, off a + S1x1x1024.size a ≤ (⟨3, n⟩ : Shape).size a)
    (hq : S1024.numel = S1x1x1024.numel) (j : Fin 1024) (a : Fin 3) :
    (((Rect.unit (s := ⟨3, n⟩) off S1x1x1024.size h).emb (Shape.reshapeEquiv hq (ix1 j)) a : Fin _) : Nat)
      = off a + (![0, 0, j.val] : Fin 3 → Nat) a := by
  have e : Shape.reshapeEquiv hq (ix1 j) = ix3 (⟨0, Nat.one_pos⟩ : Fin 1) (⟨0, Nat.one_pos⟩ : Fin 1) j :=
    reshapeEquiv_ix1_11a hq j
  refine (congrArg (fun z : S1x1x1024.Idx => (((Rect.unit (s := ⟨3, n⟩) off S1x1x1024.size h).emb z a : Fin _) : Nat)) e).trans ?_
  match a with
  | ⟨0, _⟩ => rfl
  | ⟨1, _⟩ => rfl
  | ⟨2, _⟩ => show off 2 + 1 * j.val = off 2 + j.val; omega

/-- The index `(i, j)` of a block of eight audio rows placed in a rank-3 array at offsets `off`: `off` plus `(0, i, j)`. -/
theorem unit_emb_sq2 {n : Fin 3 → Nat} (off : Fin 3 → Nat) (h : ∀ a, off a + S1x8x1024.size a ≤ (⟨3, n⟩ : Shape).size a)
    (hq : S8x1024.numel = S1x8x1024.numel) (i : Fin 8) (j : Fin 1024) (a : Fin 3) :
    (((Rect.unit (s := ⟨3, n⟩) off S1x8x1024.size h).emb (Shape.reshapeEquiv hq (ix2 i j)) a : Fin _) : Nat)
      = off a + (![0, i.val, j.val] : Fin 3 → Nat) a := by
  have e : Shape.reshapeEquiv hq (ix2 i j) = ix3 (⟨0, Nat.one_pos⟩ : Fin 1) i j := reshapeEquiv_ix2_1ab hq i j
  refine (congrArg (fun z : S1x8x1024.Idx => (((Rect.unit (s := ⟨3, n⟩) off S1x8x1024.size h).emb z a : Fin _) : Nat)) e).trans ?_
  match a with
  | ⟨0, _⟩ => rfl
  | ⟨1, _⟩ => show off 1 + 1 * i.val = off 1 + i.val; omega
  | ⟨2, _⟩ => show off 2 + 1 * j.val = off 2 + j.val; omega

/-- The source of the entry `(i, j)` of a worker's output audio block is entry `j` of its `i`-th input row. -/
theorem srcA_aoB_ix (L : grid0.Coords) (i : Fin 8) (j : Fin 1024) :
    Spec.srcA ((aoB L).view.emb (ix2 i j)) = (aiR L i).view.emb (ix1 j) := by
  have eo : ∀ a, (((aoB L).view.emb (ix2 i j) a : Fin _) : Nat) = k0_off6 L a + (![0, i.val, j.val] : Fin 3 → Nat) a :=
    unit_emb_sq2 _ _ _ i j
  have ei : ∀ a, (((aiR L i).view.emb (ix1 j) a : Fin _) : Nat) = k0_off1 L (BitVec.ofNat 32 i.val) a + (![0, 0, j.val] : Fin 3 → Nat) a :=
    unit_emb_sq1 _ _ _ j
  rw [off6_eq] at eo
  rw [off1_eq] at ei
  funext a
  apply Fin.ext
  rw [Spec.srcA_val]
  match a with
  | ⟨0, _⟩ => exact (eo 0).trans (ei 0).symm
  | ⟨1, _⟩ =>
    have h1 : (((aoB L).view.emb (ix2 i j) 1 : Fin _) : Nat) = (wid L % 8) * 8 + i.val := eo 1
    have h2 : (((aiR L i).view.emb (ix1 j) 1 : Fin _) : Nat) = 2 * ((wid L % 8) * 8 + i.val) + 0 := ei 1
    show 2 * (((aoB L).view.emb (ix2 i j) 1 : Fin _) : Nat) = (((aiR L i).view.emb (ix1 j) 1 : Fin _) : Nat)
    omega
  | ⟨2, _⟩ => exact (eo 2).trans (ei 2).symm

theorem srcA_aoB (L : grid0.Coords) (y : S8x1024.Idx) :
    Spec.srcA ((aoB L).view.emb y) = (aiR L (y 0)).view.emb (ix1 (y 1)) :=
  (congrArg (fun z : S8x1024.Idx => Spec.srcA ((aoB L).view.emb z)) (eq_ix2 y)).trans (srcA_aoB_ix L (y 0) (y 1))

/-! ## A piece copied through a scratch slot

An output piece written whole with what a scratch slot reads, the slot last written whole with what an input piece
reads, holds the input piece's entries, index by index — whatever the output, the slot and the slot's earlier writes
held. -/

/-- Read through `Mo` after the two copies: what `Mi` reads. -/
theorem read_copied {c : Thread nD τ} {spo sps spi : Space} {s : Shape} {e : EltTy}
    (Mo : Memref sig c.2.kind spo s e) (Ms : Memref sig c.2.kind sps s e) (Mi : Memref sig c.2.kind spi s e)
    (fo : Buf (Elt F) (Mo.view.loc c)) (fs : Buf (Elt F) (Ms.view.loc c)) (fi : Buf (Elt F) (Mi.view.loc c))
    (older : List (View.Piece (Elt F) s e)) (y : s.Idx) :
    Mo.view.read (Elt F) (Mo.view.writes (Elt F) fo
        [⟨Rect.whole s, ReadAs.same.apply (Ms.view.read (Elt F) (Ms.view.writes (Elt F) fs
          (⟨Rect.whole s, ReadAs.same.apply (Mi.view.read (Elt F) fi)⟩ :: older)))⟩]) y
      = Mi.view.read (Elt F) fi y := by
  have h1 := View.read_writes_cons_emb Mo.view fo (Rect.whole s)
    (ReadAs.same.apply (Ms.view.read (Elt F) (Ms.view.writes (Elt F) fs
          (⟨Rect.whole s, ReadAs.same.apply (Mi.view.read (Elt F) fi)⟩ :: older)))) [] y
  have h2 := View.read_writes_cons_emb Ms.view fs (Rect.whole s) (ReadAs.same.apply (Mi.view.read (Elt F) fi)) older y
  rw [Rect.emb_whole_apply] at h1 h2
  rw [h1]
  exact h2

/-- The points-to of the output piece after the two copies is the points-to at any contents `G` that agree with the
    input piece's entries index by index. -/
theorem pointsTo_copied {c : Thread nD τ} {spo sps spi : Space} {s : Shape} {e : EltTy}
    (Mo : Memref sig c.2.kind spo s e) (Ms : Memref sig c.2.kind sps s e) (Mi : Memref sig c.2.kind spi s e)
    (fo : Buf (Elt F) (Mo.view.loc c)) (fs : Buf (Elt F) (Ms.view.loc c)) (fi : Buf (Elt F) (Mi.view.loc c))
    (older : List (View.Piece (Elt F) s e)) (G : Buf (Elt F) (Mo.view.loc c))
    (hG : ∀ y, Mo.view.read (Elt F) G y = Mi.view.read (Elt F) fi y) :
    (Mo.view.loc c ↦[Mo.view.set]{fullShare} Mo.view.writes (Elt F) fo
        [⟨Rect.whole s, ReadAs.same.apply (Ms.view.read (Elt F) (Ms.view.writes (Elt F) fs
          (⟨Rect.whole s, ReadAs.same.apply (Mi.view.read (Elt F) fi)⟩ :: older)))⟩] : sProp (𝕄F F))
      = (Mo.view.loc c ↦[Mo.view.set]{fullShare} G) := by
  refine pointsTo_congr fun i hi => ?_
  obtain ⟨y, -, rfl⟩ := Finset.mem_map.mp hi
  have h := (read_copied Mo Ms Mi fo fs fi older y).trans (hG y).symm
  rw [View.read_apply, View.read_apply] at h
  exact (cast_inj _).mp h

/-! ## The two output half-frames of a frame -/

theorem voA_done (d : Dev nD) (L : grid0.Coords) (r : Fin 8) {sps : Space} (Ms : Memref sig .scVector sps S3x56x112 .f32)
    (fvi : Buf (Elt F) (viLoc d)) (fvo : Buf (Elt F) (voLoc d)) (fvb : Buf (Elt F) (Ms.view.loc (thr d L)))
    (older : List (View.Piece (Elt F) S3x56x112 .f32)) :
    ((voA L r).view.loc (thr d L) ↦[(voA L r).view.set]{fullShare} (voA L r).view.writes (Elt F) fvo
        [⟨Rect.whole S3x56x112, ReadAs.same.apply (View.read (Elt F) Ms.view (Ms.view.writes (Elt F) fvb
          (⟨Rect.whole S3x56x112, ReadAs.same.apply (View.read (Elt F) (viA L r).view fvi)⟩ :: older)))⟩] : sProp (𝕄F F))
      = ((voA L r).view.loc (thr d L) ↦[(voA L r).view.set]{fullShare} (Spec.takeV fvi : Buf (Elt F) (voLoc d))) := by
  refine pointsTo_copied (c := thr d L) (voA L r) Ms (viA L r) fvo fvb fvi older _ fun y => ?_
  have e : (Spec.takeV fvi : Buf (Elt F) (voLoc d)) ((voA L r).view.emb y) = fvi ((viA L r).view.emb y) :=
    congrArg fvi (srcV_voA L r y)
  rw [View.read_apply, View.read_apply]
  exact congrArg _ e

theorem voB_done (d : Dev nD) (L : grid0.Coords) (r : Fin 8) {sps : Space} (Ms : Memref sig .scVector sps S3x56x112 .f32)
    (fvi : Buf (Elt F) (viLoc d)) (fvo : Buf (Elt F) (voLoc d)) (fvb : Buf (Elt F) (Ms.view.loc (thr d L)))
    (older : List (View.Piece (Elt F) S3x56x112 .f32)) :
    ((voB L r).view.loc (thr d L) ↦[(voB L r).view.set]{fullShare} (voB L r).view.writes (Elt F) fvo
        [⟨Rect.whole S3x56x112, ReadAs.same.apply (View.read (Elt F) Ms.view (Ms.view.writes (Elt F) fvb
          (⟨Rect.whole S3x56x112, ReadAs.same.apply (View.read (Elt F) (viB L r).view fvi)⟩ :: older)))⟩] : sProp (𝕄F F))
      = ((voB L r).view.loc (thr d L) ↦[(voB L r).view.set]{fullShare} (Spec.takeV fvi : Buf (Elt F) (voLoc d))) := by
  refine pointsTo_copied (c := thr d L) (voB L r) Ms (viB L r) fvo fvb fvi older _ fun y => ?_
  have e : (Spec.takeV fvi : Buf (Elt F) (voLoc d)) ((voB L r).view.emb y) = fvi ((viB L r).view.emb y) :=
    congrArg fvi (srcV_voB L r y)
  rw [View.read_apply, View.read_apply]
  exact congrArg _ e

/-! ## The audio block: eight rows staged in the scratch, then written as one block -/

/-- Row `k` of the audio scratch holds index `j` at `(k, j)`. -/
theorem abRow_emb (k : Nat) (hk : k < 8) (h : ∀ a, (![k, 0] : Fin 2 → Nat) a + S1x1024.size a ≤ S8x1024.size a) (j : Fin 1024) :
    (abRw ![k, 0] h).view.emb (ix1 j) = (ix2 (⟨k, hk⟩ : Fin 8) j : S8x1024.Idx) := by
  have e : Shape.reshapeEquiv squeezes_S1x1024_S1024.numel_eq (ix1 j) = ix2 (⟨0, Nat.one_pos⟩ : Fin 1) j :=
    reshapeEquiv_ix1_1a _ j
  refine (congrArg (fun z : S1x1024.Idx => (Rect.unit (s := S8x1024) ![k, 0] S1x1024.size h).emb z) e).trans ?_
  funext a
  apply Fin.ext
  match a with
  | ⟨0, _⟩ => show k + 1 * 0 = k; omega
  | ⟨1, _⟩ => show 0 + 1 * j.val = j.val; omega

/-- One unmasked write through row `k` of the audio scratch, read at `(i, j)`: the payload on row `k`, nothing else changed. -/
theorem abRow_write (k : Nat) (hk : k < 8) (h : ∀ a, (![k, 0] : Fin 2 → Nat) a + S1x1024.size a ≤ S8x1024.size a)
    (f : abV.view.ty.Contents (Elt F)) (w : S1024.Idx → Elt F .f32) (i : Fin 8) (j : Fin 1024) :
    View.write (Elt F) (abRw ![k, 0] h).view f w Finset.univ (ix2 i j) = if i.val = k then w (ix1 j) else f (ix2 i j) := by
  by_cases hik : i.val = k
  · rw [if_pos hik]
    have hi : i = ⟨k, hk⟩ := Fin.ext hik
    rw [hi, ← abRow_emb k hk h j, View.write_emb_of_mem _ _ (Finset.mem_univ _)]
    rfl
  · rw [if_neg hik]
    refine View.write_of_not_mem _ _ _ fun hm => hik ?_
    obtain ⟨x, -, hx⟩ := Finset.mem_map.mp hm
    have hx' : (abRw ![k, 0] h).view.emb (ix1 (x 0)) = ix2 i j := (congrArg _ (eq_ix1 x).symm).trans hx
    have hx'' : (ix2 (⟨k, hk⟩ : Fin 8) (x 0) : S8x1024.Idx) = ix2 i j := (abRow_emb k hk h (x 0)).symm.trans hx'
    exact (congrArg (fun z : S8x1024.Idx => (z 0 : Nat)) hx'').symm

/-- The eight rows staged one after the other, read at `(i, j)`: row `i`'s payload at `j`. -/
theorem abRows_apply
    (h0 : ∀ a, (![0, 0] : Fin 2 → Nat) a + S1x1024.size a ≤ S8x1024.size a)
    (h1 : ∀ a, (![1, 0] : Fin 2 → Nat) a + S1x1024.size a ≤ S8x1024.size a)
    (h2 : ∀ a, (![2, 0] : Fin 2 → Nat) a + S1x1024.size a ≤ S8x1024.size a)
    (h3 : ∀ a, (![3, 0] : Fin 2 → Nat) a + S1x1024.size a ≤ S8x1024.size a)
    (h4 : ∀ a, (![4, 0] : Fin 2 → Nat) a + S1x1024.size a ≤ S8x1024.size a)
    (h5 : ∀ a, (![5, 0] : Fin 2 → Nat) a + S1x1024.size a ≤ S8x1024.size a)
    (h6 : ∀ a, (![6, 0] : Fin 2 → Nat) a + S1x1024.size a ≤ S8x1024.size a)
    (h7 : ∀ a, (![7, 0] : Fin 2 → Nat) a + S1x1024.size a ≤ S8x1024.size a)
    (fab : abV.view.ty.Contents (Elt F)) (p0 p1 p2 p3 p4 p5 p6 p7 : S1024.Idx → Elt F .f32)
    (q : Fin 8 → Fin 1024 → Elt F .f32)
    (e0 : ∀ j, p0 (ix1 j) = q 0 j) (e1 : ∀ j, p1 (ix1 j) = q 1 j) (e2 : ∀ j, p2 (ix1 j) = q 2 j) (e3 : ∀ j, p3 (ix1 j) = q 3 j)
    (e4 : ∀ j, p4 (ix1 j) = q 4 j) (e5 : ∀ j, p5 (ix1 j) = q 5 j) (e6 : ∀ j, p6 (ix1 j) = q 6 j) (e7 : ∀ j, p7 (ix1 j) = q 7 j)
    (i : Fin 8) (j : Fin 1024) :
    (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab p0 Finset.univ) p1 Finset.univ) p2 Finset.univ) p3 Finset.univ) p4 Finset.univ) p5 Finset.univ) p6 Finset.univ) p7 Finset.univ) (ix2 i j) = q i j := by
  rw [abRow_write 7 (by omega) h7, abRow_write 6 (by omega) h6, abRow_write 5 (by omega) h5, abRow_write 4 (by omega) h4,
    abRow_write 3 (by omega) h3, abRow_write 2 (by omega) h2, abRow_write 1 (by omega) h1, abRow_write 0 (by omega) h0]
  match i with
  | ⟨0, _⟩ => exact e0 j
  | ⟨1, _⟩ => exact e1 j
  | ⟨2, _⟩ => exact e2 j
  | ⟨3, _⟩ => exact e3 j
  | ⟨4, _⟩ => exact e4 j
  | ⟨5, _⟩ => exact e5 j
  | ⟨6, _⟩ => exact e6 j
  | ⟨7, _⟩ => exact e7 j

/-- The output audio block, written whole with what the scratch reads after the eight rows were staged, each with what
    the matching input row reads, holds every second row of the input. -/
theorem ao_done_of (d : Dev nD) (L : grid0.Coords)
    (h0 : ∀ a, (![0, 0] : Fin 2 → Nat) a + S1x1024.size a ≤ S8x1024.size a)
    (h1 : ∀ a, (![1, 0] : Fin 2 → Nat) a + S1x1024.size a ≤ S8x1024.size a)
    (h2 : ∀ a, (![2, 0] : Fin 2 → Nat) a + S1x1024.size a ≤ S8x1024.size a)
    (h3 : ∀ a, (![3, 0] : Fin 2 → Nat) a + S1x1024.size a ≤ S8x1024.size a)
    (h4 : ∀ a, (![4, 0] : Fin 2 → Nat) a + S1x1024.size a ≤ S8x1024.size a)
    (h5 : ∀ a, (![5, 0] : Fin 2 → Nat) a + S1x1024.size a ≤ S8x1024.size a)
    (h6 : ∀ a, (![6, 0] : Fin 2 → Nat) a + S1x1024.size a ≤ S8x1024.size a)
    (h7 : ∀ a, (![7, 0] : Fin 2 → Nat) a + S1x1024.size a ≤ S8x1024.size a)
    (fai : Buf (Elt F) (aiLoc d)) (fao : Buf (Elt F) (aoLoc d)) (fab : Buf (Elt F) (abV.view.loc (thr d L)))
    (p0 p1 p2 p3 p4 p5 p6 p7 : S1024.Idx → Elt F .f32)
    (e0 : p0 = ReadAs.same.apply (View.read (Elt F) (aiR L 0).view fai)) (e1 : p1 = ReadAs.same.apply (View.read (Elt F) (aiR L 1).view fai))
    (e2 : p2 = ReadAs.same.apply (View.read (Elt F) (aiR L 2).view fai)) (e3 : p3 = ReadAs.same.apply (View.read (Elt F) (aiR L 3).view fai))
    (e4 : p4 = ReadAs.same.apply (View.read (Elt F) (aiR L 4).view fai)) (e5 : p5 = ReadAs.same.apply (View.read (Elt F) (aiR L 5).view fai))
    (e6 : p6 = ReadAs.same.apply (View.read (Elt F) (aiR L 6).view fai)) (e7 : p7 = ReadAs.same.apply (View.read (Elt F) (aiR L 7).view fai)) :
    ((aoB L).view.loc (thr d L) ↦[(aoB L).view.set]{fullShare} (aoB L).view.writes (Elt F) fao
        [⟨Rect.whole S8x1024, ReadAs.same.apply (View.read (Elt F) abV.view
          (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab p0 Finset.univ) p1 Finset.univ) p2 Finset.univ) p3 Finset.univ) p4 Finset.univ) p5 Finset.univ) p6 Finset.univ) p7 Finset.univ))⟩] : sProp (𝕄F F))
      = ((aoB L).view.loc (thr d L) ↦[(aoB L).view.set]{fullShare} (Spec.takeA fai : Buf (Elt F) (aoLoc d))) := by
  subst e0 e1 e2 e3 e4 e5 e6 e7
  refine pointsTo_congr fun i hi => ?_
  obtain ⟨y, -, rfl⟩ := Finset.mem_map.mp hi
  have r1 := View.read_writes_cons_emb (aoB L).view fao (Rect.whole S8x1024) (ReadAs.same.apply (View.read (Elt F) abV.view
          (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab (ReadAs.same.apply (View.read (Elt F) (aiR L 0).view fai)) Finset.univ) (ReadAs.same.apply (View.read (Elt F) (aiR L 1).view fai)) Finset.univ) (ReadAs.same.apply (View.read (Elt F) (aiR L 2).view fai)) Finset.univ) (ReadAs.same.apply (View.read (Elt F) (aiR L 3).view fai)) Finset.univ) (ReadAs.same.apply (View.read (Elt F) (aiR L 4).view fai)) Finset.univ) (ReadAs.same.apply (View.read (Elt F) (aiR L 5).view fai)) Finset.univ) (ReadAs.same.apply (View.read (Elt F) (aiR L 6).view fai)) Finset.univ) (ReadAs.same.apply (View.read (Elt F) (aiR L 7).view fai)) Finset.univ))) [] y
  rw [Rect.emb_whole_apply] at r1
  have r2 : ∀ (i : Fin 8) (j : Fin 1024),
      (View.write (Elt F) (abRw ![7, 0] h7).view (View.write (Elt F) (abRw ![6, 0] h6).view (View.write (Elt F) (abRw ![5, 0] h5).view (View.write (Elt F) (abRw ![4, 0] h4).view (View.write (Elt F) (abRw ![3, 0] h3).view (View.write (Elt F) (abRw ![2, 0] h2).view (View.write (Elt F) (abRw ![1, 0] h1).view (View.write (Elt F) (abRw ![0, 0] h0).view fab (ReadAs.same.apply (View.read (Elt F) (aiR L 0).view fai)) Finset.univ) (ReadAs.same.apply (View.read (Elt F) (aiR L 1).view fai)) Finset.univ) (ReadAs.same.apply (View.read (Elt F) (aiR L 2).view fai)) Finset.univ) (ReadAs.same.apply (View.read (Elt F) (aiR L 3).view fai)) Finset.univ) (ReadAs.same.apply (View.read (Elt F) (aiR L 4).view fai)) Finset.univ) (ReadAs.same.apply (View.read (Elt F) (aiR L 5).view fai)) Finset.univ) (ReadAs.same.apply (View.read (Elt F) (aiR L 6).view fai)) Finset.univ) (ReadAs.same.apply (View.read (Elt F) (aiR L 7).view fai)) Finset.univ) (ix2 i j)
        = (aoB L).view.read (Elt F) (Spec.takeA fai : Buf (Elt F) (aoLoc d)) (ix2 i j) := fun i j =>
    (abRows_apply h0 h1 h2 h3 h4 h5 h6 h7 fab _ _ _ _ _ _ _ _ (fun i j => fai ((aiR L i).view.emb (ix1 j)))
      (fun _ => rfl) (fun _ => rfl) (fun _ => rfl) (fun _ => rfl) (fun _ => rfl) (fun _ => rfl) (fun _ => rfl) (fun _ => rfl) i j).trans
      (congrArg fai (srcA_aoB_ix L i j)).symm
  have r3 := r1.trans ((congrArg _ (eq_ix2 y)).trans ((r2 (y 0) (y 1)).trans (congrArg _ (eq_ix2 y)).symm))
  rw [View.read_apply, View.read_apply] at r3
  exact (cast_inj _).mp r3

/-- The same with the rows and payloads as the body names them: scratch row `k` at the literal offsets `(k, 0)`, its
    payload what input row `k` of the worker reads. -/
theorem ao_done (d : Dev nD) (L : grid0.Coords)
    (fai : Buf (Elt F) (aiLoc d)) (fao : Buf (Elt F) (aoLoc d)) (fab : Buf (Elt F) (abV.view.loc (thr d L))) :
    ((aoB L).view.loc (thr d L) ↦[(aoB L).view.set]{fullShare} (aoB L).view.writes (Elt F) fao
        [⟨Rect.whole S8x1024, ReadAs.same.apply (View.read (Elt F) abV.view
          (View.write (Elt F) (abRw ![7, 0] inb_S8x1024_S1x1024_7_0).view (View.write (Elt F) (abRw ![6, 0] inb_S8x1024_S1x1024_6_0).view (View.write (Elt F) (abRw ![5, 0] inb_S8x1024_S1x1024_5_0).view (View.write (Elt F) (abRw ![4, 0] inb_S8x1024_S1x1024_4_0).view (View.write (Elt F) (abRw ![3, 0] inb_S8x1024_S1x1024_3_0).view (View.write (Elt F) (abRw ![2, 0] inb_S8x1024_S1x1024_2_0).view (View.write (Elt F) (abRw ![1, 0] inb_S8x1024_S1x1024_1_0).view (View.write (Elt F) (abRw ![0, 0] inb_S8x1024_S1x1024_0_0).view fab (ReadAs.same.apply (View.read (Elt F) (aiRw L 0#32 (k0_off1_inb L 0)).view fai)) Finset.univ) (ReadAs.same.apply (View.read (Elt F) (aiRw L 1#32 (k0_off1_inb L 1)).view fai)) Finset.univ) (ReadAs.same.apply (View.read (Elt F) (aiRw L 2#32 (k0_off1_inb L 2)).view fai)) Finset.univ) (ReadAs.same.apply (View.read (Elt F) (aiRw L 3#32 (k0_off1_inb L 3)).view fai)) Finset.univ) (ReadAs.same.apply (View.read (Elt F) (aiRw L 4#32 (k0_off1_inb L 4)).view fai)) Finset.univ) (ReadAs.same.apply (View.read (Elt F) (aiRw L 5#32 (k0_off1_inb L 5)).view fai)) Finset.univ) (ReadAs.same.apply (View.read (Elt F) (aiRw L 6#32 (k0_off1_inb L 6)).view fai)) Finset.univ) (ReadAs.same.apply (View.read (Elt F) (aiRw L 7#32 (k0_off1_inb L 7)).view fai)) Finset.univ))⟩] : sProp (𝕄F F))
      = ((aoB L).view.loc (thr d L) ↦[(aoB L).view.set]{fullShare} (Spec.takeA fai : Buf (Elt F) (aoLoc d))) :=
  ao_done_of d L inb_S8x1024_S1x1024_0_0 inb_S8x1024_S1x1024_1_0 inb_S8x1024_S1x1024_2_0 inb_S8x1024_S1x1024_3_0 inb_S8x1024_S1x1024_4_0 inb_S8x1024_S1x1024_5_0 inb_S8x1024_S1x1024_6_0 inb_S8x1024_S1x1024_7_0 fai fao fab _ _ _ _ _ _ _ _ rfl rfl rfl rfl rfl rfl rfl rfl

end Cert.Proof.KB

end
-- ==== Proof.KBBody.lean ====
/-
  One tile's run of the copy kernel, followed copy by copy and wait by wait: eight audio-row copies started together on one
  semaphore, the sixteen half-frames streamed through the four-slot ring (a slot's inbound copy waited for before its
  outbound copy starts, the outbound waited for before the slot is refilled), the ring drained, the audio rows waited
  for and written out in one copy. Every wait is on a semaphore the tile itself signals, so nothing is owed to any
  other thread. What the output pieces hold afterwards is every second frame of the input.
-/
import proofs.«207661_g395136991783_cont_8to1_b_1346_21_alg».proof.Proof.KBRes
import proofs.«207661_g395136991783_cont_8to1_b_1346_21_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A recorded wait at the kernels' index keeps the waits' ledger in the form the launch asks for. -/
theorem ins_ok {W0 W : Waits sig (HIx 1)} (h : ∀ p ∈ W0, p ∈ W ∨ p.2 = none) (s : SemLoc sig) :
    ∀ p ∈ insert (s, (default : HIx 1)) W0, p ∈ W ∨ p.2 = none := by
  intro p hp
  rcases Finset.mem_insert.mp hp with hp | hp
  · exact .inr (hp ▸ rfl)
  · exact h p hp

set_option maxHeartbeats 8000000 in
/-- The body from the pieces, each slice held by exactly its own elements, to the same pieces, the outputs written; whatever else
    the tile holds (`R`) is carried along. -/
theorem tile_run (d : Dev nD) (L : grid0.Coords) (O : CellTallies nD τ sig (HIx 1)) (W : Waits sig (HIx 1))
    (fvb : Buf (Elt F) ((thr d L).loc cc0_scratch0)) (fab : Buf (Elt F) ((thr d L).loc cc0_scratch1))
    (fvi : Buf (Elt F) (viLoc d)) (fai : Buf (Elt F) (aiLoc d)) (fvo : Buf (Elt F) (voLoc d)) (fao : Buf (Elt F) (aoLoc d)) (R : sProp 𝕄) :
    (iprop(Transfers.MayWaits (thr d L) (default : HIx 1) O
      ∗ owes (thr d L) O W
      ∗ semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ ((vbS0).view.loc (thr d L) ↦[(vbS0).view.set]{fullShare} fvb)
      ∗ ((vbS1).view.loc (thr d L) ↦[(vbS1).view.set]{fullShare} fvb)
      ∗ ((vbS2).view.loc (thr d L) ↦[(vbS2).view.set]{fullShare} fvb)
      ∗ ((vbS3).view.loc (thr d L) ↦[(vbS3).view.set]{fullShare} fvb)
      ∗ ((abV).view.loc (thr d L) ↦{fullShare} fab)
      ∗ ((viAw L 0#32 (k0_off2_inb L 0)).view.loc (thr d L) ↦[(viAw L 0#32 (k0_off2_inb L 0)).view.set]{fullShare} fvi)
      ∗ ((viBw L 0#32 (k0_off3_inb L 0)).view.loc (thr d L) ↦[(viBw L 0#32 (k0_off3_inb L 0)).view.set]{fullShare} fvi)
      ∗ ((aiRw L 0#32 (k0_off1_inb L 0)).view.loc (thr d L) ↦[(aiRw L 0#32 (k0_off1_inb L 0)).view.set]{fullShare} fai)
      ∗ ((viAw L 1#32 (k0_off2_inb L 1)).view.loc (thr d L) ↦[(viAw L 1#32 (k0_off2_inb L 1)).view.set]{fullShare} fvi)
      ∗ ((viBw L 1#32 (k0_off3_inb L 1)).view.loc (thr d L) ↦[(viBw L 1#32 (k0_off3_inb L 1)).view.set]{fullShare} fvi)
      ∗ ((aiRw L 1#32 (k0_off1_inb L 1)).view.loc (thr d L) ↦[(aiRw L 1#32 (k0_off1_inb L 1)).view.set]{fullShare} fai)
      ∗ ((viAw L 2#32 (k0_off2_inb L 2)).view.loc (thr d L) ↦[(viAw L 2#32 (k0_off2_inb L 2)).view.set]{fullShare} fvi)
      ∗ ((viBw L 2#32 (k0_off3_inb L 2)).view.loc (thr d L) ↦[(viBw L 2#32 (k0_off3_inb L 2)).view.set]{fullShare} fvi)
      ∗ ((aiRw L 2#32 (k0_off1_inb L 2)).view.loc (thr d L) ↦[(aiRw L 2#32 (k0_off1_inb L 2)).view.set]{fullShare} fai)
      ∗ ((viAw L 3#32 (k0_off2_inb L 3)).view.loc (thr d L) ↦[(viAw L 3#32 (k0_off2_inb L 3)).view.set]{fullShare} fvi)
      ∗ ((viBw L 3#32 (k0_off3_inb L 3)).view.loc (thr d L) ↦[(viBw L 3#32 (k0_off3_inb L 3)).view.set]{fullShare} fvi)
      ∗ ((aiRw L 3#32 (k0_off1_inb L 3)).view.loc (thr d L) ↦[(aiRw L 3#32 (k0_off1_inb L 3)).view.set]{fullShare} fai)
      ∗ ((viAw L 4#32 (k0_off2_inb L 4)).view.loc (thr d L) ↦[(viAw L 4#32 (k0_off2_inb L 4)).view.set]{fullShare} fvi)
      ∗ ((viBw L 4#32 (k0_off3_inb L 4)).view.loc (thr d L) ↦[(viBw L 4#32 (k0_off3_inb L 4)).view.set]{fullShare} fvi)
      ∗ ((aiRw L 4#32 (k0_off1_inb L 4)).view.loc (thr d L) ↦[(aiRw L 4#32 (k0_off1_inb L 4)).view.set]{fullShare} fai)
      ∗ ((viAw L 5#32 (k0_off2_inb L 5)).view.loc (thr d L) ↦[(viAw L 5#32 (k0_off2_inb L 5)).view.set]{fullShare} fvi)
      ∗ ((viBw L 5#32 (k0_off3_inb L 5)).view.loc (thr d L) ↦[(viBw L 5#32 (k0_off3_inb L 5)).view.set]{fullShare} fvi)
      ∗ ((aiRw L 5#32 (k0_off1_inb L 5)).view.loc (thr d L) ↦[(aiRw L 5#32 (k0_off1_inb L 5)).view.set]{fullShare} fai)
      ∗ ((viAw L 6#32 (k0_off2_inb L 6)).view.loc (thr d L) ↦[(viAw L 6#32 (k0_off2_inb L 6)).view.set]{fullShare} fvi)
      ∗ ((viBw L 6#32 (k0_off3_inb L 6)).view.loc (thr d L) ↦[(viBw L 6#32 (k0_off3_inb L 6)).view.set]{fullShare} fvi)
      ∗ ((aiRw L 6#32 (k0_off1_inb L 6)).view.loc (thr d L) ↦[(aiRw L 6#32 (k0_off1_inb L 6)).view.set]{fullShare} fai)
      ∗ ((viAw L 7#32 (k0_off2_inb L 7)).view.loc (thr d L) ↦[(viAw L 7#32 (k0_off2_inb L 7)).view.set]{fullShare} fvi)
      ∗ ((viBw L 7#32 (k0_off3_inb L 7)).view.loc (thr d L) ↦[(viBw L 7#32 (k0_off3_inb L 7)).view.set]{fullShare} fvi)
      ∗ ((aiRw L 7#32 (k0_off1_inb L 7)).view.loc (thr d L) ↦[(aiRw L 7#32 (k0_off1_inb L 7)).view.set]{fullShare} fai)
      ∗ ((voAw L 0#32 (k0_off4_inb L 0)).view.loc (thr d L) ↦[(voAw L 0#32 (k0_off4_inb L 0)).view.set]{fullShare} fvo)
      ∗ ((voBw L 0#32 (k0_off5_inb L 0)).view.loc (thr d L) ↦[(voBw L 0#32 (k0_off5_inb L 0)).view.set]{fullShare} fvo)
      ∗ ((voAw L 1#32 (k0_off4_inb L 1)).view.loc (thr d L) ↦[(voAw L 1#32 (k0_off4_inb L 1)).view.set]{fullShare} fvo)
      ∗ ((voBw L 1#32 (k0_off5_inb L 1)).view.loc (thr d L) ↦[(voBw L 1#32 (k0_off5_inb L 1)).view.set]{fullShare} fvo)
      ∗ ((voAw L 2#32 (k0_off4_inb L 2)).view.loc (thr d L) ↦[(voAw L 2#32 (k0_off4_inb L 2)).view.set]{fullShare} fvo)
      ∗ ((voBw L 2#32 (k0_off5_inb L 2)).view.loc (thr d L) ↦[(voBw L 2#32 (k0_off5_inb L 2)).view.set]{fullShare} fvo)
      ∗ ((voAw L 3#32 (k0_off4_inb L 3)).view.loc (thr d L) ↦[(voAw L 3#32 (k0_off4_inb L 3)).view.set]{fullShare} fvo)
      ∗ ((voBw L 3#32 (k0_off5_inb L 3)).view.loc (thr d L) ↦[(voBw L 3#32 (k0_off5_inb L 3)).view.set]{fullShare} fvo)
      ∗ ((voAw L 4#32 (k0_off4_inb L 4)).view.loc (thr d L) ↦[(voAw L 4#32 (k0_off4_inb L 4)).view.set]{fullShare} fvo)
      ∗ ((voBw L 4#32 (k0_off5_inb L 4)).view.loc (thr d L) ↦[(voBw L 4#32 (k0_off5_inb L 4)).view.set]{fullShare} fvo)
      ∗ ((voAw L 5#32 (k0_off4_inb L 5)).view.loc (thr d L) ↦[(voAw L 5#32 (k0_off4_inb L 5)).view.set]{fullShare} fvo)
      ∗ ((voBw L 5#32 (k0_off5_inb L 5)).view.loc (thr d L) ↦[(voBw L 5#32 (k0_off5_inb L 5)).view.set]{fullShare} fvo)
      ∗ ((voAw L 6#32 (k0_off4_inb L 6)).view.loc (thr d L) ↦[(voAw L 6#32 (k0_off4_inb L 6)).view.set]{fullShare} fvo)
      ∗ ((voBw L 6#32 (k0_off5_inb L 6)).view.loc (thr d L) ↦[(voBw L 6#32 (k0_off5_inb L 6)).view.set]{fullShare} fvo)
      ∗ ((voAw L 7#32 (k0_off4_inb L 7)).view.loc (thr d L) ↦[(voAw L 7#32 (k0_off4_inb L 7)).view.set]{fullShare} fvo)
      ∗ ((voBw L 7#32 (k0_off5_inb L 7)).view.loc (thr d L) ↦[(voBw L 7#32 (k0_off5_inb L 7)).view.set]{fullShare} fvo)
      ∗ ((aoB L).view.loc (thr d L) ↦[(aoB L).view.set]{fullShare} fao)
      ∗ R) : sProp 𝕄)
      ⊢ wp frame (wpE (defs₀ (F := F)) 𝒱₀ (thr d L) none) Set.univ
          (cc0_sc_copy L viV (Memref.isWhole_whole _) aiV (Memref.isWhole_whole _) voV (Memref.isWhole_whole _) aoV (Memref.isWhole_whole _)
            vbV (Memref.isWhole_whole _) abV (Memref.isWhole_whole _) cc0_scratch2 cc0_scratch3 cc0_scratch4 cc0_scratch5)
          fun _ => iprop(semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ (∃ f, (vbS0).view.loc (thr d L) ↦[(vbS0).view.set]{fullShare} f)
      ∗ (∃ f, (vbS1).view.loc (thr d L) ↦[(vbS1).view.set]{fullShare} f)
      ∗ (∃ f, (vbS2).view.loc (thr d L) ↦[(vbS2).view.set]{fullShare} f)
      ∗ (∃ f, (vbS3).view.loc (thr d L) ↦[(vbS3).view.set]{fullShare} f)
      ∗ (∃ f, (abV).view.loc (thr d L) ↦{fullShare} f)
      ∗ ((viAw L 0#32 (k0_off2_inb L 0)).view.loc (thr d L) ↦[(viAw L 0#32 (k0_off2_inb L 0)).view.set]{fullShare} fvi)
      ∗ ((viBw L 0#32 (k0_off3_inb L 0)).view.loc (thr d L) ↦[(viBw L 0#32 (k0_off3_inb L 0)).view.set]{fullShare} fvi)
      ∗ ((aiRw L 0#32 (k0_off1_inb L 0)).view.loc (thr d L) ↦[(aiRw L 0#32 (k0_off1_inb L 0)).view.set]{fullShare} fai)
      ∗ ((viAw L 1#32 (k0_off2_inb L 1)).view.loc (thr d L) ↦[(viAw L 1#32 (k0_off2_inb L 1)).view.set]{fullShare} fvi)
      ∗ ((viBw L 1#32 (k0_off3_inb L 1)).view.loc (thr d L) ↦[(viBw L 1#32 (k0_off3_inb L 1)).view.set]{fullShare} fvi)
      ∗ ((aiRw L 1#32 (k0_off1_inb L 1)).view.loc (thr d L) ↦[(aiRw L 1#32 (k0_off1_inb L 1)).view.set]{fullShare} fai)
      ∗ ((viAw L 2#32 (k0_off2_inb L 2)).view.loc (thr d L) ↦[(viAw L 2#32 (k0_off2_inb L 2)).view.set]{fullShare} fvi)
      ∗ ((viBw L 2#32 (k0_off3_inb L 2)).view.loc (thr d L) ↦[(viBw L 2#32 (k0_off3_inb L 2)).view.set]{fullShare} fvi)
      ∗ ((aiRw L 2#32 (k0_off1_inb L 2)).view.loc (thr d L) ↦[(aiRw L 2#32 (k0_off1_inb L 2)).view.set]{fullShare} fai)
      ∗ ((viAw L 3#32 (k0_off2_inb L 3)).view.loc (thr d L) ↦[(viAw L 3#32 (k0_off2_inb L 3)).view.set]{fullShare} fvi)
      ∗ ((viBw L 3#32 (k0_off3_inb L 3)).view.loc (thr d L) ↦[(viBw L 3#32 (k0_off3_inb L 3)).view.set]{fullShare} fvi)
      ∗ ((aiRw L 3#32 (k0_off1_inb L 3)).view.loc (thr d L) ↦[(aiRw L 3#32 (k0_off1_inb L 3)).view.set]{fullShare} fai)
      ∗ ((viAw L 4#32 (k0_off2_inb L 4)).view.loc (thr d L) ↦[(viAw L 4#32 (k0_off2_inb L 4)).view.set]{fullShare} fvi)
      ∗ ((viBw L 4#32 (k0_off3_inb L 4)).view.loc (thr d L) ↦[(viBw L 4#32 (k0_off3_inb L 4)).view.set]{fullShare} fvi)
      ∗ ((aiRw L 4#32 (k0_off1_inb L 4)).view.loc (thr d L) ↦[(aiRw L 4#32 (k0_off1_inb L 4)).view.set]{fullShare} fai)
      ∗ ((viAw L 5#32 (k0_off2_inb L 5)).view.loc (thr d L) ↦[(viAw L 5#32 (k0_off2_inb L 5)).view.set]{fullShare} fvi)
      ∗ ((viBw L 5#32 (k0_off3_inb L 5)).view.loc (thr d L) ↦[(viBw L 5#32 (k0_off3_inb L 5)).view.set]{fullShare} fvi)
      ∗ ((aiRw L 5#32 (k0_off1_inb L 5)).view.loc (thr d L) ↦[(aiRw L 5#32 (k0_off1_inb L 5)).view.set]{fullShare} fai)
      ∗ ((viAw L 6#32 (k0_off2_inb L 6)).view.loc (thr d L) ↦[(viAw L 6#32 (k0_off2_inb L 6)).view.set]{fullShare} fvi)
      ∗ ((viBw L 6#32 (k0_off3_inb L 6)).view.loc (thr d L) ↦[(viBw L 6#32 (k0_off3_inb L 6)).view.set]{fullShare} fvi)
      ∗ ((aiRw L 6#32 (k0_off1_inb L 6)).view.loc (thr d L) ↦[(aiRw L 6#32 (k0_off1_inb L 6)).view.set]{fullShare} fai)
      ∗ ((viAw L 7#32 (k0_off2_inb L 7)).view.loc (thr d L) ↦[(viAw L 7#32 (k0_off2_inb L 7)).view.set]{fullShare} fvi)
      ∗ ((viBw L 7#32 (k0_off3_inb L 7)).view.loc (thr d L) ↦[(viBw L 7#32 (k0_off3_inb L 7)).view.set]{fullShare} fvi)
      ∗ ((aiRw L 7#32 (k0_off1_inb L 7)).view.loc (thr d L) ↦[(aiRw L 7#32 (k0_off1_inb L 7)).view.set]{fullShare} fai)
      ∗ ((voAw L 0#32 (k0_off4_inb L 0)).view.loc (thr d L) ↦[(voAw L 0#32 (k0_off4_inb L 0)).view.set]{fullShare} (Spec.takeV fvi : Buf (Elt F) (voLoc d)))
      ∗ ((voBw L 0#32 (k0_off5_inb L 0)).view.loc (thr d L) ↦[(voBw L 0#32 (k0_off5_inb L 0)).view.set]{fullShare} (Spec.takeV fvi : Buf (Elt F) (voLoc d)))
      ∗ ((voAw L 1#32 (k0_off4_inb L 1)).view.loc (thr d L) ↦[(voAw L 1#32 (k0_off4_inb L 1)).view.set]{fullShare} (Spec.takeV fvi : Buf (Elt F) (voLoc d)))
      ∗ ((voBw L 1#32 (k0_off5_inb L 1)).view.loc (thr d L) ↦[(voBw L 1#32 (k0_off5_inb L 1)).view.set]{fullShare} (Spec.takeV fvi : Buf (Elt F) (voLoc d)))
      ∗ ((voAw L 2#32 (k0_off4_inb L 2)).view.loc (thr d L) ↦[(voAw L 2#32 (k0_off4_inb L 2)).view.set]{fullShare} (Spec.takeV fvi : Buf (Elt F) (voLoc d)))
      ∗ ((voBw L 2#32 (k0_off5_inb L 2)).view.loc (thr d L) ↦[(voBw L 2#32 (k0_off5_inb L 2)).view.set]{fullShare} (Spec.takeV fvi : Buf (Elt F) (voLoc d)))
      ∗ ((voAw L 3#32 (k0_off4_inb L 3)).view.loc (thr d L) ↦[(voAw L 3#32 (k0_off4_inb L 3)).view.set]{fullShare} (Spec.takeV fvi : Buf (Elt F) (voLoc d)))
      ∗ ((voBw L 3#32 (k0_off5_inb L 3)).view.loc (thr d L) ↦[(voBw L 3#32 (k0_off5_inb L 3)).view.set]{fullShare} (Spec.takeV fvi : Buf (Elt F) (voLoc d)))
      ∗ ((voAw L 4#32 (k0_off4_inb L 4)).view.loc (thr d L) ↦[(voAw L 4#32 (k0_off4_inb L 4)).view.set]{fullShare} (Spec.takeV fvi : Buf (Elt F) (voLoc d)))
      ∗ ((voBw L 4#32 (k0_off5_inb L 4)).view.loc (thr d L) ↦[(voBw L 4#32 (k0_off5_inb L 4)).view.set]{fullShare} (Spec.takeV fvi : Buf (Elt F) (voLoc d)))
      ∗ ((voAw L 5#32 (k0_off4_inb L 5)).view.loc (thr d L) ↦[(voAw L 5#32 (k0_off4_inb L 5)).view.set]{fullShare} (Spec.takeV fvi : Buf (Elt F) (voLoc d)))
      ∗ ((voBw L 5#32 (k0_off5_inb L 5)).view.loc (thr d L) ↦[(voBw L 5#32 (k0_off5_inb L 5)).view.set]{fullShare} (Spec.takeV fvi : Buf (Elt F) (voLoc d)))
      ∗ ((voAw L 6#32 (k0_off4_inb L 6)).view.loc (thr d L) ↦[(voAw L 6#32 (k0_off4_inb L 6)).view.set]{fullShare} (Spec.takeV fvi : Buf (Elt F) (voLoc d)))
      ∗ ((voBw L 6#32 (k0_off5_inb L 6)).view.loc (thr d L) ↦[(voBw L 6#32 (k0_off5_inb L 6)).view.set]{fullShare} (Spec.takeV fvi : Buf (Elt F) (voLoc d)))
      ∗ ((voAw L 7#32 (k0_off4_inb L 7)).view.loc (thr d L) ↦[(voAw L 7#32 (k0_off4_inb L 7)).view.set]{fullShare} (Spec.takeV fvi : Buf (Elt F) (voLoc d)))
      ∗ ((voBw L 7#32 (k0_off5_inb L 7)).view.loc (thr d L) ↦[(voBw L 7#32 (k0_off5_inb L 7)).view.set]{fullShare} (Spec.takeV fvi : Buf (Elt F) (voLoc d)))
      ∗ ((aoB L).view.loc (thr d L) ↦[(aoB L).view.set]{fullShare} (Spec.takeA fai : Buf (Elt F) (aoLoc d)))
      ∗ R
      ∗ ∃ W', ⌜∀ p ∈ W', p ∈ W ∨ p.2 = none⌝ ∗ owes (thr d L) O W') := by
  have _plan : Transfers.BatchOf (thr d L) (SemLoc.dma (sig := sig) cc0_scratch4.sem) 8 (windows := true) := trivial
  rw [cc0_sc_copy_eq_skeleton]; unfold cc0_sc_copy_skel
  iintro ⟨Hmw, HO, Hi0, Hi1, Hi2, Hi3, Ho0, Ho1, Ho2, Ho3, Hsa, Hsb, Hvb0, Hvb1, Hvb2, Hvb3, Hab, HviA0, HviB0, Hai0, HviA1, HviB1, Hai1, HviA2, HviB2, Hai2, HviA3, HviB3, Hai3, HviA4, HviB4, Hai4, HviA5, HviB5, Hai5, HviA6, HviB6, Hai6, HviA7, HviB7, Hai7, HvoA0, HvoB0, HvoA1, HvoB1, HvoA2, HvoB2, HvoA3, HvoB3, HvoA4, HvoB4, HvoA5, HvoB5, HvoA6, HvoB6, HvoA7, HvoB7, Hao, HR⟩
  sl_exec
  sl_step
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hsa]; · iexact Hsa
  isplitl [Hsb]; · iexact Hsb
  isplitl [Hvb0]; · iexists _; iexact Hvb0
  isplitl [Hvb1]; · iexists _; iexact Hvb1
  isplitl [Hvb2]; · iexists _; iexact Hvb2
  isplitl [Hvb3]; · iexists _; iexact Hvb3
  isplitl [Hab]; · iexists _; iexact Hab
  isplitl [HviA0]; · iexact HviA0
  isplitl [HviB0]; · iexact HviB0
  isplitl [Hai0]; · iexact Hai0
  isplitl [HviA1]; · iexact HviA1
  isplitl [HviB1]; · iexact HviB1
  isplitl [Hai1]; · iexact Hai1
  isplitl [HviA2]; · iexact HviA2
  isplitl [HviB2]; · iexact HviB2
  isplitl [Hai2]; · iexact Hai2
  isplitl [HviA3]; · iexact HviA3
  isplitl [HviB3]; · iexact HviB3
  isplitl [Hai3]; · iexact Hai3
  isplitl [HviA4]; · iexact HviA4
  isplitl [HviB4]; · iexact HviB4
  isplitl [Hai4]; · iexact Hai4
  isplitl [HviA5]; · iexact HviA5
  isplitl [HviB5]; · iexact HviB5
  isplitl [Hai5]; · iexact Hai5
  isplitl [HviA6]; · iexact HviA6
  isplitl [HviB6]; · iexact HviB6
  isplitl [Hai6]; · iexact Hai6
  isplitl [HviA7]; · iexact HviA7
  isplitl [HviB7]; · iexact HviB7
  isplitl [Hai7]; · iexact Hai7
  isplitl [HvoA0]; · iapply (Entails.of_eq (voA_done (F := F) d L 0 _ fvi fvo _ _)); iexact HvoA0
  isplitl [HvoB0]; · iapply (Entails.of_eq (voB_done (F := F) d L 0 _ fvi fvo _ _)); iexact HvoB0
  isplitl [HvoA1]; · iapply (Entails.of_eq (voA_done (F := F) d L 1 _ fvi fvo _ _)); iexact HvoA1
  isplitl [HvoB1]; · iapply (Entails.of_eq (voB_done (F := F) d L 1 _ fvi fvo _ _)); iexact HvoB1
  isplitl [HvoA2]; · iapply (Entails.of_eq (voA_done (F := F) d L 2 _ fvi fvo _ _)); iexact HvoA2
  isplitl [HvoB2]; · iapply (Entails.of_eq (voB_done (F := F) d L 2 _ fvi fvo _ _)); iexact HvoB2
  isplitl [HvoA3]; · iapply (Entails.of_eq (voA_done (F := F) d L 3 _ fvi fvo _ _)); iexact HvoA3
  isplitl [HvoB3]; · iapply (Entails.of_eq (voB_done (F := F) d L 3 _ fvi fvo _ _)); iexact HvoB3
  isplitl [HvoA4]; · iapply (Entails.of_eq (voA_done (F := F) d L 4 _ fvi fvo _ _)); iexact HvoA4
  isplitl [HvoB4]; · iapply (Entails.of_eq (voB_done (F := F) d L 4 _ fvi fvo _ _)); iexact HvoB4
  isplitl [HvoA5]; · iapply (Entails.of_eq (voA_done (F := F) d L 5 _ fvi fvo _ _)); iexact HvoA5
  isplitl [HvoB5]; · iapply (Entails.of_eq (voB_done (F := F) d L 5 _ fvi fvo _ _)); iexact HvoB5
  isplitl [HvoA6]; · iapply (Entails.of_eq (voA_done (F := F) d L 6 _ fvi fvo _ _)); iexact HvoA6
  isplitl [HvoB6]; · iapply (Entails.of_eq (voB_done (F := F) d L 6 _ fvi fvo _ _)); iexact HvoB6
  isplitl [HvoA7]; · iapply (Entails.of_eq (voA_done (F := F) d L 7 _ fvi fvo _ _)); iexact HvoA7
  isplitl [HvoB7]; · iapply (Entails.of_eq (voB_done (F := F) d L 7 _ fvi fvo _ _)); iexact HvoB7
  isplitl [Hao]; · iapply (Entails.of_eq (ao_done (F := F) d L fai fao fab)); iexact Hao
  isplitl [HR]; · iexact HR
  iexists _; isplitr
  swap; · iexact HO
  ipureintro
  repeat (first | exact fun p hp => Or.inl hp | refine ins_ok ?_ _)

end Cert.Proof.KB

end
-- ==== Proof.KBOwn.lean ====
/-
  A tile's own scratch, piece by piece. The launch gives each vector subcore all of its scoped semaphore cells at zero
  and all of its own buffers at some contents. The body names ten of those cells (the ring's four inbound and four
  outbound semaphores, the audio's two) and two of those buffers (the four-slot half-frame ring and the audio block).
  Here: the cells as those ten beside the rest, the buffers as those two beside the rest, and the ring buffer as its
  four slots — the four parts of the ring's first axis, pairwise disjoint and covering it.
-/
import proofs.«207661_g395136991783_cont_8to1_b_1346_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Members of a separating conjunction taken out one by one -/

/-- A `bigSep` over a set with a list of distinct members taken out in order: the members' summands, then the summands
    of what is left of the set. -/
theorem bigSep_erase_list {M : Type} [URA M] {I : Type} [DecidableEq I] (Φ : I → sProp M) :
    ∀ (l : List I) (s : Finset I), l.Nodup → (∀ a ∈ l, a ∈ s) →
      bigSep s Φ = l.foldr (fun a P => iprop(Φ a ∗ P)) (bigSep (l.foldl Finset.erase s) Φ)
  | [], _, _, _ => rfl
  | a :: l, s, hn, hm => by
    have ih := bigSep_erase_list Φ l (s.erase a) (List.nodup_cons.mp hn).2 fun b hb =>
      Finset.mem_erase.mpr ⟨fun e => (List.nodup_cons.mp hn).1 (e ▸ hb), hm b (List.mem_cons.mpr (Or.inr hb))⟩
    rw [SparseCore.bigSep_erase' (hm a (List.mem_cons.mpr (Or.inl rfl)))]
    exact congrArg (fun P : sProp M => iprop(Φ a ∗ P)) ih

/-- A `bigSep` over `Fin 4` is its four summands. -/
theorem bigSep_univ_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-! ## The tile's own semaphore cells -/

/-- The cell of DMA semaphore `a` on the tile at `L`. -/
abbrev semCell (d : Dev nD) (L : grid0.Coords) (a : DmaSem sig) : GSem nD τ sig := (thr d L, SemLoc.dma a)

theorem semCell_injective (d : Dev nD) (L : grid0.Coords) : Function.Injective (semCell d L) :=
  fun _ _ e => SemLoc.dma.inj (Prod.mk.inj e).2

/-- Every DMA semaphore of a vector subcore is a scoped one. -/
theorem dma_scoped : ∀ a : DmaSem sig, (SemLoc.dma a : SemLoc sig).isScoped .scVector = true := by decide

/-- The ten DMA semaphores the body names, in the pool's order: they are pairwise different. -/
abbrev bodySems : List (DmaSem sig) :=
  [(inS0).sem, (inS1).sem, (inS2).sem, (inS3).sem, (outS0).sem, (outS1).sem, (outS2).sem, (outS3).sem, cc0_scratch4.sem, cc0_scratch5.sem]

theorem bodySems_nodup : bodySems.Nodup := by decide

/-- The tile's scoped cells other than the ten the body names. -/
abbrev restCells (d : Dev nD) (L : grid0.Coords) : Finset (GSem nD τ sig) :=
  ((((((((((ownCells (thr d L)).erase (thr d L, SemLoc.dma (inS0).sem)).erase (thr d L, SemLoc.dma (inS1).sem)).erase
    (thr d L, SemLoc.dma (inS2).sem)).erase (thr d L, SemLoc.dma (inS3).sem)).erase (thr d L, SemLoc.dma (outS0).sem)).erase
    (thr d L, SemLoc.dma (outS1).sem)).erase (thr d L, SemLoc.dma (outS2).sem)).erase (thr d L, SemLoc.dma (outS3).sem)).erase
    (thr d L, SemLoc.dma cc0_scratch4.sem)).erase (thr d L, SemLoc.dma cc0_scratch5.sem)

/-- The tile's scoped cells at zero are the ten the body names, each at zero, and the rest. -/
theorem ownSems0_V (d : Dev nD) (L : grid0.Coords) :
    (ownSems0 (thr d L) : sProp 𝕄)
      = iprop(semVal (thr d L, SemLoc.dma (inS0).sem) 0 ∗ semVal (thr d L, SemLoc.dma (inS1).sem) 0
          ∗ semVal (thr d L, SemLoc.dma (inS2).sem) 0 ∗ semVal (thr d L, SemLoc.dma (inS3).sem) 0
          ∗ semVal (thr d L, SemLoc.dma (outS0).sem) 0 ∗ semVal (thr d L, SemLoc.dma (outS1).sem) 0
          ∗ semVal (thr d L, SemLoc.dma (outS2).sem) 0 ∗ semVal (thr d L, SemLoc.dma (outS3).sem) 0
          ∗ semVal (thr d L, SemLoc.dma cc0_scratch4.sem) 0 ∗ semVal (thr d L, SemLoc.dma cc0_scratch5.sem) 0
          ∗ bigSep (restCells d L) fun g => semVal g 0) := by
  unfold SparseCore.Cfg.ownSems0
  exact bigSep_erase_list (fun g => semVal g 0) (bodySems.map (semCell d L)) (ownCells (thr d L))
    (bodySems_nodup.map (semCell_injective d L))
    (fun g hg => by
      obtain ⟨a, -, rfl⟩ := List.mem_map.mp hg
      exact mem_ownCells.mpr ⟨rfl, dma_scoped a⟩)

/-! ## The tile's own buffers -/

/-- The two scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The ring buffer as its four slots -/

theorem vdiv : 4 ∣ S4x3x56x112.size 0 := ⟨1, rfl⟩

/-- Slot `k` of the ring: the `k`-th of the four parts of its first axis. -/
abbrev slotRect (k : Fin 4) : Rect S4x3x56x112 := Rect.part (s := S4x3x56x112) (a₀ := 0) vdiv k
abbrev slotSet (k : Fin 4) : Finset S4x3x56x112.Idx := ((vbV).view.slice (slotRect k)).set

/-- The rectangle the body slices at offset `(k, 0, 0, 0)` is the `k`-th part. -/
theorem unit_slot (k : Fin 4) (h : ∀ a, (![k.val, 0, 0, 0] : Fin 4 → Nat) a + S1x3x56x112.size a ≤ S4x3x56x112.size a) :
    Rect.unit (s := S4x3x56x112) ![k.val, 0, 0, 0] S1x3x56x112.size h = slotRect k := by
  unfold slotRect Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_vbSw (k : Fin 4) (h : ∀ a, (![k.val, 0, 0, 0] : Fin 4 → Nat) a + S1x3x56x112.size a ≤ S4x3x56x112.size a) :
    (vbSw ![k.val, 0, 0, 0] h).view.set = slotSet k := by
  show (((vbV).view.slice (Rect.unit (s := S4x3x56x112) ![k.val, 0, 0, 0] S1x3x56x112.size h)).reshape S3x56x112
    squeezes_S1x3x56x112_S3x56x112.numel_eq).set = ((vbV).view.slice (slotRect k)).set
  rw [View.set_reshape]
  exact unit_slot k h ▸ rfl

theorem slotSet_eq (k : Fin 4) : slotSet k = (slotRect k).set := by
  show ((View.whole (cc0_scratch0 : Ref sig .scVector)).slice (slotRect k)).set = _
  rw [View.set_slice]; exact Finset.map_refl

theorem slots_disjoint : ∀ i ∈ (Finset.univ : Finset (Fin 4)), ∀ j ∈ (Finset.univ : Finset (Fin 4)), i ≠ j → Disjoint (slotSet i) (slotSet j) :=
  fun i _ j _ h => by rw [slotSet_eq, slotSet_eq]; exact Rect.part_disjoint vdiv h

theorem slots_cover : (Finset.univ : Finset (Fin 4)).biUnion slotSet = Finset.univ :=
  (Finset.biUnion_congr rfl fun i _ => slotSet_eq i).trans (Rect.biUnion_part vdiv)

/-- What the tile holds of a ring slot `M` (one of `vbS0 … vbS3`): the slot's elements of the ring buffer, whole, at `f`. -/
abbrev slotPts (d : Dev nD) (L : grid0.Coords) (M : Memref sig .scVector .vmem S3x56x112 .f32) (f : Buf (Elt F) (M.view.loc (thr d L))) : sProp 𝕄 :=
  M.view.loc (thr d L) ↦[M.view.set]{fullShare} f

theorem pts_slot (d : Dev nD) (L : grid0.Coords) (k : Fin 4) (h : ∀ a, (![k.val, 0, 0, 0] : Fin 4 → Nat) a + S1x3x56x112.size a ≤ S4x3x56x112.size a)
    (f : Buf (Elt F) ((thr d L).loc cc0_scratch0)) :
    (slotPts d L (vbSw ![k.val, 0, 0, 0] h) f : sProp 𝕄) = ((thr d L).loc cc0_scratch0 ↦[slotSet k]{fullShare} f) := by
  show ((vbSw ![k.val, 0, 0, 0] h).view.loc (thr d L) ↦[(vbSw ![k.val, 0, 0, 0] h).view.set]{fullShare} f : sProp 𝕄) = _
  rw [set_vbSw]

/-- The ring buffer whole is its four slots side by side. -/
theorem vb_slots (d : Dev nD) (L : grid0.Coords) (f : Buf (Elt F) ((thr d L).loc cc0_scratch0)) :
    ((thr d L).loc cc0_scratch0 ↦{fullShare} f : sProp 𝕄) = bigSep Finset.univ fun k : Fin 4 => (thr d L).loc cc0_scratch0 ↦[slotSet k]{fullShare} f := by
  rw [← pointsTo_biUnion Finset.univ (ℓ := (thr d L).loc cc0_scratch0) slotSet slots_disjoint, slots_cover]; try rfl

theorem vb_split (d : Dev nD) (L : grid0.Coords) (f : Buf (Elt F) ((thr d L).loc cc0_scratch0)) :
    ((thr d L).loc cc0_scratch0 ↦{fullShare} f : sProp 𝕄)
      = iprop(slotPts d L vbS0 f ∗ slotPts d L vbS1 f ∗ slotPts d L vbS2 f ∗ slotPts d L vbS3 f) := by
  have e0 : (slotPts d L vbS0 f : sProp 𝕄) = ((thr d L).loc cc0_scratch0 ↦[slotSet 0]{fullShare} f) := pts_slot d L 0 _ f
  have e1 : (slotPts d L vbS1 f : sProp 𝕄) = ((thr d L).loc cc0_scratch0 ↦[slotSet 1]{fullShare} f) := pts_slot d L 1 _ f
  have e2 : (slotPts d L vbS2 f : sProp 𝕄) = ((thr d L).loc cc0_scratch0 ↦[slotSet 2]{fullShare} f) := pts_slot d L 2 _ f
  have e3 : (slotPts d L vbS3 f : sProp 𝕄) = ((thr d L).loc cc0_scratch0 ↦[slotSet 3]{fullShare} f) := pts_slot d L 3 _ f
  rw [e0, e1, e2, e3, vb_slots d L f]
  exact bigSep_univ_four fun k : Fin 4 => ((thr d L).loc cc0_scratch0 ↦[slotSet k]{fullShare} f : sProp 𝕄)

set_option maxRecDepth 4096 in
/-- Four slots held at whatever contents are the ring buffer whole at some contents. -/
theorem vb_join (d : Dev nD) (L : grid0.Coords) (f0 f1 f2 f3 : Buf (Elt F) ((thr d L).loc cc0_scratch0)) :
    iprop(slotPts d L vbS0 f0 ∗ slotPts d L vbS1 f1 ∗ slotPts d L vbS2 f2 ∗ slotPts d L vbS3 f3)
      ⊢ (iprop(∃ f, (thr d L).loc cc0_scratch0 ↦{fullShare} f) : sProp 𝕄) := by
  have e0 : (slotPts d L vbS0 f0 : sProp 𝕄) = ((thr d L).loc cc0_scratch0 ↦[slotSet 0]{fullShare} f0) := pts_slot d L 0 _ f0
  have e1 : (slotPts d L vbS1 f1 : sProp 𝕄) = ((thr d L).loc cc0_scratch0 ↦[slotSet 1]{fullShare} f1) := pts_slot d L 1 _ f1
  have e2 : (slotPts d L vbS2 f2 : sProp 𝕄) = ((thr d L).loc cc0_scratch0 ↦[slotSet 2]{fullShare} f2) := pts_slot d L 2 _ f2
  have e3 : (slotPts d L vbS3 f3 : sProp 𝕄) = ((thr d L).loc cc0_scratch0 ↦[slotSet 3]{fullShare} f3) := pts_slot d L 3 _ f3
  have hb : (iprop(((thr d L).loc cc0_scratch0 ↦[slotSet 0]{fullShare} f0) ∗ ((thr d L).loc cc0_scratch0 ↦[slotSet 1]{fullShare} f1)
        ∗ ((thr d L).loc cc0_scratch0 ↦[slotSet 2]{fullShare} f2) ∗ ((thr d L).loc cc0_scratch0 ↦[slotSet 3]{fullShare} f3)) : sProp 𝕄)
      = bigSep Finset.univ fun k : Fin 4 => (thr d L).loc cc0_scratch0 ↦[slotSet k]{fullShare} (![f0, f1, f2, f3] k) :=
    (bigSep_univ_four fun k : Fin 4 => ((thr d L).loc cc0_scratch0 ↦[slotSet k]{fullShare} (![f0, f1, f2, f3] k) : sProp 𝕄)).symm
  rw [e0, e1, e2, e3, hb]
  iintro H
  ihave H' := (pointsTo_biUnion_join (ℓ := (thr d L).loc cc0_scratch0) (q := fullShare) (Val := Elt F) Finset.univ slotSet ![f0, f1, f2, f3] f0 slots_disjoint) $$ H
  icases H' with ⟨%g, -, Hg⟩
  rw [slots_cover]
  iexists g; iexact Hg

end Cert.Proof.KB

end
-- ==== Proof.KBTile.lean ====
/-
  One tile's task as the launch states it: from what the task is handed — its pieces of the four arrays, the tile's
  own buffers and semaphores — through the body's run to what it hands back. The pieces enter the run slice by slice
  (each slice of an array held by exactly its own elements, the ring buffer as its four slots) and leave it
  the same way; the tile's other buffers and semaphores are carried along untouched.
-/
import proofs.«207661_g395136991783_cont_8to1_b_1346_21_alg».proof.Proof.KBBody
import proofs.«207661_g395136991783_cont_8to1_b_1346_21_alg».proof.Proof.KBOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

omit [FloatOps F] in
/-- A `bigSep` over `Fin 8` is its eight summands. -/
theorem bigSep_univ_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]
  rfl

/-- The tile's buffers and semaphore cells the body does not name. -/
abbrev restOf (d : Dev nD) (L : grid0.Coords) : sProp 𝕄 :=
  iprop((bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
    ∗ bigSep (restCells d L) fun g => semVal g 0)

set_option maxHeartbeats 4000000 in
/-- What the run leaves is what the task hands back. -/
theorem post_conv (d : Dev nD) (L : grid0.Coords) (O : CellTallies nD τ sig (HIx 1)) (W : Waits sig (HIx 1)) :
    (iprop(semVal (thr d L, SemLoc.dma (inS0).sem) 0
      ∗ semVal (thr d L, SemLoc.dma (inS1).sem) 0
      ∗ semVal (thr d L, SemLoc.dma (inS2).sem) 0
      ∗ semVal (thr d L, SemLoc.dma (inS3).sem) 0
      ∗ semVal (thr d L, SemLoc.dma (outS0).sem) 0
      ∗ semVal (thr d L, SemLoc.dma (outS1).sem) 0
      ∗ semVal (thr d L, SemLoc.dma (outS2).sem) 0
      ∗ semVal (thr d L, SemLoc.dma (outS3).sem) 0
      ∗ semVal (thr d L, SemLoc.dma cc0_scratch4.sem) 0
      ∗ semVal (thr d L, SemLoc.dma cc0_scratch5.sem) 0
      ∗ (∃ f, (vbS0).view.loc (thr d L) ↦[(vbS0).view.set]{fullShare} f)
      ∗ (∃ f, (vbS1).view.loc (thr d L) ↦[(vbS1).view.set]{fullShare} f)
      ∗ (∃ f, (vbS2).view.loc (thr d L) ↦[(vbS2).view.set]{fullShare} f)
      ∗ (∃ f, (vbS3).view.loc (thr d L) ↦[(vbS3).view.set]{fullShare} f)
      ∗ (∃ f, (abV).view.loc (thr d L) ↦{fullShare} f)
      ∗ ((viAw L 0#32 (k0_off2_inb L 0)).view.loc (thr d L) ↦[(viAw L 0#32 (k0_off2_inb L 0)).view.set]{fullShare} (m (viLoc d)))
      ∗ ((viBw L 0#32 (k0_off3_inb L 0)).view.loc (thr d L) ↦[(viBw L 0#32 (k0_off3_inb L 0)).view.set]{fullShare} (m (viLoc d)))
      ∗ ((aiRw L 0#32 (k0_off1_inb L 0)).view.loc (thr d L) ↦[(aiRw L 0#32 (k0_off1_inb L 0)).view.set]{fullShare} (m (aiLoc d)))
      ∗ ((viAw L 1#32 (k0_off2_inb L 1)).view.loc (thr d L) ↦[(viAw L 1#32 (k0_off2_inb L 1)).view.set]{fullShare} (m (viLoc d)))
      ∗ ((viBw L 1#32 (k0_off3_inb L 1)).view.loc (thr d L) ↦[(viBw L 1#32 (k0_off3_inb L 1)).view.set]{fullShare} (m (viLoc d)))
      ∗ ((aiRw L 1#32 (k0_off1_inb L 1)).view.loc (thr d L) ↦[(aiRw L 1#32 (k0_off1_inb L 1)).view.set]{fullShare} (m (aiLoc d)))
      ∗ ((viAw L 2#32 (k0_off2_inb L 2)).view.loc (thr d L) ↦[(viAw L 2#32 (k0_off2_inb L 2)).view.set]{fullShare} (m (viLoc d)))
      ∗ ((viBw L 2#32 (k0_off3_inb L 2)).view.loc (thr d L) ↦[(viBw L 2#32 (k0_off3_inb L 2)).view.set]{fullShare} (m (viLoc d)))
      ∗ ((aiRw L 2#32 (k0_off1_inb L 2)).view.loc (thr d L) ↦[(aiRw L 2#32 (k0_off1_inb L 2)).view.set]{fullShare} (m (aiLoc d)))
      ∗ ((viAw L 3#32 (k0_off2_inb L 3)).view.loc (thr d L) ↦[(viAw L 3#32 (k0_off2_inb L 3)).view.set]{fullShare} (m (viLoc d)))
      ∗ ((viBw L 3#32 (k0_off3_inb L 3)).view.loc (thr d L) ↦[(viBw L 3#32 (k0_off3_inb L 3)).view.set]{fullShare} (m (viLoc d)))
      ∗ ((aiRw L 3#32 (k0_off1_inb L 3)).view.loc (thr d L) ↦[(aiRw L 3#32 (k0_off1_inb L 3)).view.set]{fullShare} (m (aiLoc d)))
      ∗ ((viAw L 4#32 (k0_off2_inb L 4)).view.loc (thr d L) ↦[(viAw L 4#32 (k0_off2_inb L 4)).view.set]{fullShare} (m (viLoc d)))
      ∗ ((viBw L 4#32 (k0_off3_inb L 4)).view.loc (thr d L) ↦[(viBw L 4#32 (k0_off3_inb L 4)).view.set]{fullShare} (m (viLoc d)))
      ∗ ((aiRw L 4#32 (k0_off1_inb L 4)).view.loc (thr d L) ↦[(aiRw L 4#32 (k0_off1_inb L 4)).view.set]{fullShare} (m (aiLoc d)))
      ∗ ((viAw L 5#32 (k0_off2_inb L 5)).view.loc (thr d L) ↦[(viAw L 5#32 (k0_off2_inb L 5)).view.set]{fullShare} (m (viLoc d)))
      ∗ ((viBw L 5#32 (k0_off3_inb L 5)).view.loc (thr d L) ↦[(viBw L 5#32 (k0_off3_inb L 5)).view.set]{fullShare} (m (viLoc d)))
      ∗ ((aiRw L 5#32 (k0_off1_inb L 5)).view.loc (thr d L) ↦[(aiRw L 5#32 (k0_off1_inb L 5)).view.set]{fullShare} (m (aiLoc d)))
      ∗ ((viAw L 6#32 (k0_off2_inb L 6)).view.loc (thr d L) ↦[(viAw L 6#32 (k0_off2_inb L 6)).view.set]{fullShare} (m (viLoc d)))
      ∗ ((viBw L 6#32 (k0_off3_inb L 6)).view.loc (thr d L) ↦[(viBw L 6#32 (k0_off3_inb L 6)).view.set]{fullShare} (m (viLoc d)))
      ∗ ((aiRw L 6#32 (k0_off1_inb L 6)).view.loc (thr d L) ↦[(aiRw L 6#32 (k0_off1_inb L 6)).view.set]{fullShare} (m (aiLoc d)))
      ∗ ((viAw L 7#32 (k0_off2_inb L 7)).view.loc (thr d L) ↦[(viAw L 7#32 (k0_off2_inb L 7)).view.set]{fullShare} (m (viLoc d)))
      ∗ ((viBw L 7#32 (k0_off3_inb L 7)).view.loc (thr d L) ↦[(viBw L 7#32 (k0_off3_inb L 7)).view.set]{fullShare} (m (viLoc d)))
      ∗ ((aiRw L 7#32 (k0_off1_inb L 7)).view.loc (thr d L) ↦[(aiRw L 7#32 (k0_off1_inb L 7)).view.set]{fullShare} (m (aiLoc d)))
      ∗ ((voAw L 0#32 (k0_off4_inb L 0)).view.loc (thr d L) ↦[(voAw L 0#32 (k0_off4_inb L 0)).view.set]{fullShare} (Spec.takeV (m (viLoc d)) : Buf (Elt F) (voLoc d)))
      ∗ ((voBw L 0#32 (k0_off5_inb L 0)).view.loc (thr d L) ↦[(voBw L 0#32 (k0_off5_inb L 0)).view.set]{fullShare} (Spec.takeV (m (viLoc d)) : Buf (Elt F) (voLoc d)))
      ∗ ((voAw L 1#32 (k0_off4_inb L 1)).view.loc (thr d L) ↦[(voAw L 1#32 (k0_off4_inb L 1)).view.set]{fullShare} (Spec.takeV (m (viLoc d)) : Buf (Elt F) (voLoc d)))
      ∗ ((voBw L 1#32 (k0_off5_inb L 1)).view.loc (thr d L) ↦[(voBw L 1#32 (k0_off5_inb L 1)).view.set]{fullShare} (Spec.takeV (m (viLoc d)) : Buf (Elt F) (voLoc d)))
      ∗ ((voAw L 2#32 (k0_off4_inb L 2)).view.loc (thr d L) ↦[(voAw L 2#32 (k0_off4_inb L 2)).view.set]{fullShare} (Spec.takeV (m (viLoc d)) : Buf (Elt F) (voLoc d)))
      ∗ ((voBw L 2#32 (k0_off5_inb L 2)).view.loc (thr d L) ↦[(voBw L 2#32 (k0_off5_inb L 2)).view.set]{fullShare} (Spec.takeV (m (viLoc d)) : Buf (Elt F) (voLoc d)))
      ∗ ((voAw L 3#32 (k0_off4_inb L 3)).view.loc (thr d L) ↦[(voAw L 3#32 (k0_off4_inb L 3)).view.set]{fullShare} (Spec.takeV (m (viLoc d)) : Buf (Elt F) (voLoc d)))
      ∗ ((voBw L 3#32 (k0_off5_inb L 3)).view.loc (thr d L) ↦[(voBw L 3#32 (k0_off5_inb L 3)).view.set]{fullShare} (Spec.takeV (m (viLoc d)) : Buf (Elt F) (voLoc d)))
      ∗ ((voAw L 4#32 (k0_off4_inb L 4)).view.loc (thr d L) ↦[(voAw L 4#32 (k0_off4_inb L 4)).view.set]{fullShare} (Spec.takeV (m (viLoc d)) : Buf (Elt F) (voLoc d)))
      ∗ ((voBw L 4#32 (k0_off5_inb L 4)).view.loc (thr d L) ↦[(voBw L 4#32 (k0_off5_inb L 4)).view.set]{fullShare} (Spec.takeV (m (viLoc d)) : Buf (Elt F) (voLoc d)))
      ∗ ((voAw L 5#32 (k0_off4_inb L 5)).view.loc (thr d L) ↦[(voAw L 5#32 (k0_off4_inb L 5)).view.set]{fullShare} (Spec.takeV (m (viLoc d)) : Buf (Elt F) (voLoc d)))
      ∗ ((voBw L 5#32 (k0_off5_inb L 5)).view.loc (thr d L) ↦[(voBw L 5#32 (k0_off5_inb L 5)).view.set]{fullShare} (Spec.takeV (m (viLoc d)) : Buf (Elt F) (voLoc d)))
      ∗ ((voAw L 6#32 (k0_off4_inb L 6)).view.loc (thr d L) ↦[(voAw L 6#32 (k0_off4_inb L 6)).view.set]{fullShare} (Spec.takeV (m (viLoc d)) : Buf (Elt F) (voLoc d)))
      ∗ ((voBw L 6#32 (k0_off5_inb L 6)).view.loc (thr d L) ↦[(voBw L 6#32 (k0_off5_inb L 6)).view.set]{fullShare} (Spec.takeV (m (viLoc d)) : Buf (Elt F) (voLoc d)))
      ∗ ((voAw L 7#32 (k0_off4_inb L 7)).view.loc (thr d L) ↦[(voAw L 7#32 (k0_off4_inb L 7)).view.set]{fullShare} (Spec.takeV (m (viLoc d)) : Buf (Elt F) (voLoc d)))
      ∗ ((voBw L 7#32 (k0_off5_inb L 7)).view.loc (thr d L) ↦[(voBw L 7#32 (k0_off5_inb L 7)).view.set]{fullShare} (Spec.takeV (m (viLoc d)) : Buf (Elt F) (voLoc d)))
      ∗ ((aoB L).view.loc (thr d L) ↦[(aoB L).view.set]{fullShare} (Spec.takeA (m (aiLoc d)) : Buf (Elt F) (aoLoc d)))
      ∗ restOf d L
      ∗ ∃ W', ⌜∀ p ∈ W', p ∈ W ∨ p.2 = none⌝ ∗ owes (thr d L) O W') : sProp 𝕄)
    ⊢ iprop(tdRes m d L
        ∗ ((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
        ∗ (semVal (thr d L, SemLoc.dma (inS0).sem) 0 ∗ semVal (thr d L, SemLoc.dma (inS1).sem) 0
          ∗ semVal (thr d L, SemLoc.dma (inS2).sem) 0 ∗ semVal (thr d L, SemLoc.dma (inS3).sem) 0
          ∗ semVal (thr d L, SemLoc.dma (outS0).sem) 0 ∗ semVal (thr d L, SemLoc.dma (outS1).sem) 0
          ∗ semVal (thr d L, SemLoc.dma (outS2).sem) 0 ∗ semVal (thr d L, SemLoc.dma (outS3).sem) 0
          ∗ semVal (thr d L, SemLoc.dma cc0_scratch4.sem) 0 ∗ semVal (thr d L, SemLoc.dma cc0_scratch5.sem) 0
          ∗ bigSep (restCells d L) fun g => semVal g 0)
        ∗ ∃ W', ⌜∀ p ∈ W', p ∈ W ∨ p.2 = none⌝ ∗ owes (thr d L) O W') := by
  unfold tdRes tileIn tileOut
  rw [bigSep_univ_eight, bigSep_univ_eight]
  iintro ⟨Hi0, Hi1, Hi2, Hi3, Ho0, Ho1, Ho2, Ho3, Hsa, Hsb, ⟨%g0, Hvb0⟩, ⟨%g1, Hvb1⟩, ⟨%g2, Hvb2⟩, ⟨%g3, Hvb3⟩, Hab, HviA0, HviB0, Hai0, HviA1, HviB1, Hai1, HviA2, HviB2, Hai2, HviA3, HviB3, Hai3, HviA4, HviB4, Hai4, HviA5, HviB5, Hai5, HviA6, HviB6, Hai6, HviA7, HviB7, Hai7, HvoA0, HvoB0, HvoA1, HvoB1, HvoA2, HvoB2, HvoA3, HvoB3, HvoA4, HvoB4, HvoA5, HvoB5, HvoA6, HvoB6, HvoA7, HvoB7, Hao, ⟨Hbufs, Hsems⟩, HW⟩
  isplitl [HviA0 HviB0 Hai0 HvoA0 HvoB0 HviA1 HviB1 Hai1 HvoA1 HvoB1 HviA2 HviB2 Hai2 HvoA2 HvoB2 HviA3 HviB3 Hai3 HvoA3 HvoB3 HviA4 HviB4 Hai4 HvoA4 HvoB4 HviA5 HviB5 Hai5 HvoA5 HvoB5 HviA6 HviB6 Hai6 HvoA6 HvoB6 HviA7 HviB7 Hai7 HvoA7 HvoB7 Hao]
  · isplitl [HviA0 HviB0 Hai0 HviA1 HviB1 Hai1 HviA2 HviB2 Hai2 HviA3 HviB3 Hai3 HviA4 HviB4 Hai4 HviA5 HviB5 Hai5 HviA6 HviB6 Hai6 HviA7 HviB7 Hai7]
    · isplitl [HviA0 HviB0 Hai0]
      · isplitl [HviA0]; · iexact HviA0
        isplitl [HviB0]; · iexact HviB0
        iexact Hai0
      isplitl [HviA1 HviB1 Hai1]
      · isplitl [HviA1]; · iexact HviA1
        isplitl [HviB1]; · iexact HviB1
        iexact Hai1
      isplitl [HviA2 HviB2 Hai2]
      · isplitl [HviA2]; · iexact HviA2
        isplitl [HviB2]; · iexact HviB2
        iexact Hai2
      isplitl [HviA3 HviB3 Hai3]
      · isplitl [HviA3]; · iexact HviA3
        isplitl [HviB3]; · iexact HviB3
        iexact Hai3
      isplitl [HviA4 HviB4 Hai4]
      · isplitl [HviA4]; · iexact HviA4
        isplitl [HviB4]; · iexact HviB4
        iexact Hai4
      isplitl [HviA5 HviB5 Hai5]
      · isplitl [HviA5]; · iexact HviA5
        isplitl [HviB5]; · iexact HviB5
        iexact Hai5
      isplitl [HviA6 HviB6 Hai6]
      · isplitl [HviA6]; · iexact HviA6
        isplitl [HviB6]; · iexact HviB6
        iexact Hai6
      isplitl [HviA7]; · iexact HviA7
      isplitl [HviB7]; · iexact HviB7
      iexact Hai7
    isplitl [HvoA0 HvoB0 HvoA1 HvoB1 HvoA2 HvoB2 HvoA3 HvoB3 HvoA4 HvoB4 HvoA5 HvoB5 HvoA6 HvoB6 HvoA7 HvoB7]
    · isplitl [HvoA0 HvoB0]
      · isplitl [HvoA0]; · iexact HvoA0
        iexact HvoB0
      isplitl [HvoA1 HvoB1]
      · isplitl [HvoA1]; · iexact HvoA1
        iexact HvoB1
      isplitl [HvoA2 HvoB2]
      · isplitl [HvoA2]; · iexact HvoA2
        iexact HvoB2
      isplitl [HvoA3 HvoB3]
      · isplitl [HvoA3]; · iexact HvoA3
        iexact HvoB3
      isplitl [HvoA4 HvoB4]
      · isplitl [HvoA4]; · iexact HvoA4
        iexact HvoB4
      isplitl [HvoA5 HvoB5]
      · isplitl [HvoA5]; · iexact HvoA5
        iexact HvoB5
      isplitl [HvoA6 HvoB6]
      · isplitl [HvoA6]; · iexact HvoA6
        iexact HvoB6
      isplitl [HvoA7]; · iexact HvoA7
      iexact HvoB7
    iexact Hao
  isplitl [Hvb0 Hvb1 Hvb2 Hvb3 Hab Hbufs]
  · isplitl [Hvb0 Hvb1 Hvb2 Hvb3]
    · iapply (vb_join (F := F) d L g0 g1 g2 g3)
      isplitl [Hvb0]; · iexact Hvb0
      isplitl [Hvb1]; · iexact Hvb1
      isplitl [Hvb2]; · iexact Hvb2
      iexact Hvb3
    isplitl [Hab]; · iexact Hab
    iexact Hbufs
  isplitl [Hi0 Hi1 Hi2 Hi3 Ho0 Ho1 Ho2 Ho3 Hsa Hsb Hsems]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    isplitl [Ho3]; · iexact Ho3
    isplitl [Hsa]; · iexact Hsa
    isplitl [Hsb]; · iexact Hsb
    iexact Hsems
  iexact HW

set_option maxHeartbeats 4000000 in
/-- The task on the tile at `L`: nothing owed to any other thread is waited for; the outputs' pieces come back written. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goRes m d L
        ∗ scopedBufs (thr d L) ∗ scopedSems0 (thr d L) ∗ owes (thr d L) O W)
      ⊢ wp frame (wpE (defs₀ (F := F)) 𝒱₀ (thr d L) none) Set.univ
          (cc0_sc_copy L viV (Memref.isWhole_whole _) aiV (Memref.isWhole_whole _) voV (Memref.isWhole_whole _) aoV (Memref.isWhole_whole _)
            vbV (Memref.isWhole_whole _) abV (Memref.isWhole_whole _) cc0_scratch2 cc0_scratch3 cc0_scratch4 cc0_scratch5)
          fun _ => iprop(tdRes m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  refine BI.Entails.trans ?_ (wp_mono frame _ _ fun _ => post_conv (F := F) m d L O W)
  unfold goRes tileIn tileOut
  rw [bigSep_univ_eight, bigSep_univ_eight]
  change _ ⊢ wp _ _ _ _ _
  iintro ⟨#Hlv, -, ⟨⟨⟨HviA0, HviB0, Hai0⟩, ⟨HviA1, HviB1, Hai1⟩, ⟨HviA2, HviB2, Hai2⟩, ⟨HviA3, HviB3, Hai3⟩, ⟨HviA4, HviB4, Hai4⟩, ⟨HviA5, HviB5, Hai5⟩, ⟨HviA6, HviB6, Hai6⟩, ⟨HviA7, HviB7, Hai7⟩⟩, ⟨⟨HvoA0, HvoB0⟩, ⟨HvoA1, HvoB1⟩, ⟨HvoA2, HvoB2⟩, ⟨HvoA3, HvoB3⟩, ⟨HvoA4, HvoB4⟩, ⟨HvoA5, HvoB5⟩, ⟨HvoA6, HvoB6⟩, ⟨HvoA7, HvoB7⟩⟩, Hao⟩, ⟨⟨%fvb, Hvb⟩, ⟨%fab, Hab⟩, Hbufs⟩, ⟨Hi0, Hi1, Hi2, Hi3, Ho0, Ho1, Ho2, Ho3, Hsa, Hsb, Hsems⟩, HO⟩
  ihave Hmw := (show levAts (K (F := F)).L (K (F := F)).lev ⊢ Transfers.MayWaits (thr d L) (default : HIx 1) O from
    (K (F := F)).mayWaits_none (thr := thr d L) hO) $$ Hlv
  ihave Hvb' := (Entails.of_eq (vb_split (F := F) d L fvb)) $$ Hvb
  icases Hvb' with ⟨Hvb0, Hvb1, Hvb2, Hvb3⟩
  iapply (tile_run (F := F) d L O W fvb fab (m (viLoc d)) (m (aiLoc d)) (m (voLoc d)) (m (aoLoc d)) (restOf d L))
  isplitl [Hmw]; · iexact Hmw
  isplitl [HO]; · iexact HO
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hsa]; · iexact Hsa
  isplitl [Hsb]; · iexact Hsb
  isplitl [Hvb0]; · iexact Hvb0
  isplitl [Hvb1]; · iexact Hvb1
  isplitl [Hvb2]; · iexact Hvb2
  isplitl [Hvb3]; · iexact Hvb3
  isplitl [Hab]; · iexact Hab
  isplitl [HviA0]; · iexact HviA0
  isplitl [HviB0]; · iexact HviB0
  isplitl [Hai0]; · iexact Hai0
  isplitl [HviA1]; · iexact HviA1
  isplitl [HviB1]; · iexact HviB1
  isplitl [Hai1]; · iexact Hai1
  isplitl [HviA2]; · iexact HviA2
  isplitl [HviB2]; · iexact HviB2
  isplitl [Hai2]; · iexact Hai2
  isplitl [HviA3]; · iexact HviA3
  isplitl [HviB3]; · iexact HviB3
  isplitl [Hai3]; · iexact Hai3
  isplitl [HviA4]; · iexact HviA4
  isplitl [HviB4]; · iexact HviB4
  isplitl [Hai4]; · iexact Hai4
  isplitl [HviA5]; · iexact HviA5
  isplitl [HviB5]; · iexact HviB5
  isplitl [Hai5]; · iexact Hai5
  isplitl [HviA6]; · iexact HviA6
  isplitl [HviB6]; · iexact HviB6
  isplitl [Hai6]; · iexact Hai6
  isplitl [HviA7]; · iexact HviA7
  isplitl [HviB7]; · iexact HviB7
  isplitl [Hai7]; · iexact Hai7
  isplitl [HvoA0]; · iexact HvoA0
  isplitl [HvoB0]; · iexact HvoB0
  isplitl [HvoA1]; · iexact HvoA1
  isplitl [HvoB1]; · iexact HvoB1
  isplitl [HvoA2]; · iexact HvoA2
  isplitl [HvoB2]; · iexact HvoB2
  isplitl [HvoA3]; · iexact HvoA3
  isplitl [HvoB3]; · iexact HvoB3
  isplitl [HvoA4]; · iexact HvoA4
  isplitl [HvoB4]; · iexact HvoB4
  isplitl [HvoA5]; · iexact HvoA5
  isplitl [HvoB5]; · iexact HvoB5
  isplitl [HvoA6]; · iexact HvoA6
  isplitl [HvoB6]; · iexact HvoB6
  isplitl [HvoA7]; · iexact HvoA7
  isplitl [HvoB7]; · iexact HvoB7
  isplitl [Hao]; · iexact Hao
  isplitl [Hbufs]; · iexact Hbufs
  iexact Hsems

end Cert.Proof.KB

end
-- ==== Proof.KBSplit.lean ====
/-
  The launch's partition. The sixteen tiles of the two SparseCores are the 32 workers `w = 2 * tile + core`.
  Each slice a tile's body names is, as a set of elements, the matching unit rectangle of the worker; the
  output half-frames tile the output video and the audio blocks the output audio, the input pieces are
  pairwise disjoint. So the four arrays held whole split into the SparseCores' shares beside the inputs'
  remaining elements, and from the shares returned with the outputs written the arrays come back whole.
-/
import proofs.«207661_g395136991783_cont_8to1_b_1346_21_alg».proof.Proof.KBRes
import proofs.«207661_g395136991783_cont_8to1_b_1346_21_alg».proof.Proof.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker of a tile -/

theorem wid_lt (L : grid0.Coords) : wid L < 32 := by
  have h0 : (L 0).val < 2 := (L 0).isLt
  have h1 : (L 1).val < 16 := (L 1).isLt
  unfold wid; omega

/-- The worker of the tile at `L`. -/
def wOf (L : grid0.Coords) : Fin 32 := ⟨wid L, wid_lt L⟩

/-- Tile `i` of SparseCore `c` is worker `2 * i + c`: the pairs (SparseCore, tile) are the 32 workers. -/
def eW : Fin 2 × Fin 16 ≃ Fin 32 where
  toFun x := ⟨x.2.val * 2 + x.1.val, by have := x.1.isLt; have := x.2.isLt; omega⟩
  invFun w := (⟨w.val % 2, Nat.mod_lt _ (by omega)⟩, ⟨w.val / 2, by have := w.isLt; omega⟩)
  left_inv x := by
    obtain ⟨c, i⟩ := x
    refine Prod.ext (Fin.ext ?_) (Fin.ext ?_)
    · show (i.val * 2 + c.val) % 2 = c.val
      have := c.isLt; omega
    · show (i.val * 2 + c.val) / 2 = i.val
      have := c.isLt; omega
  right_inv w := Fin.ext (by show w.val / 2 * 2 + w.val % 2 = w.val; omega)

theorem wOf_Lof (c : Fin ((K (F := F)).nCore 0)) (i : Fin ((K (F := F)).nSub 0)) : wOf (Lof (F := F) c i) = eW (c, i) :=
  Fin.ext rfl

/-! ## Each slice is its worker's rectangle -/

/-- A slice of a whole array at a rectangle equal to `R'` has `R'`'s elements. -/
theorem set_slice_whole_eq {κ : Kind} (b : Ref sig κ) (R R' : Rect b.ty.shape) (e : R = R') :
    ((View.whole b).slice R).set = R'.set := by
  subst e; exact View.set_slice_whole b R

theorem rect_unit_congr {s : Shape} {o o' sz sz' : Fin s.rank → Nat} (ho : o = o') (hs : sz = sz')
    (h : ∀ a, o a + sz a ≤ s.size a) (h' : ∀ a, o' a + sz' a ≤ s.size a) : Rect.unit o sz h = Rect.unit o' sz' h' := by
  subst ho; subst hs; rfl

theorem set_viA (L : grid0.Coords) (r : Fin 8) : (viA L r).view.set = (Pieces.rVi (wOf L) r 0).set := by
  have e : (Rect.unit (s := S4x128x3x112x112) (k0_off2 L (BitVec.ofNat 32 r.val)) S1x1x3x56x112.size (k0_off2_inb L r) : Rect S4x128x3x112x112) = Pieces.rVi (wOf L) r 0 :=
    rect_unit_congr (off2_eq L r) rfl _ _
  show (((viV).view.slice (Rect.unit (s := S4x128x3x112x112) (k0_off2 L (BitVec.ofNat 32 r.val)) S1x1x3x56x112.size (k0_off2_inb L r))).reshape S3x56x112 squeezes_S1x1x3x56x112_S3x56x112.numel_eq).set = _
  rw [View.set_reshape]
  exact set_slice_whole_eq (main_arg0_scv : Ref sig .scVector) _ _ e
theorem set_viB (L : grid0.Coords) (r : Fin 8) : (viB L r).view.set = (Pieces.rVi (wOf L) r 1).set := by
  have e : (Rect.unit (s := S4x128x3x112x112) (k0_off3 L (BitVec.ofNat 32 r.val)) S1x1x3x56x112.size (k0_off3_inb L r) : Rect S4x128x3x112x112) = Pieces.rVi (wOf L) r 1 :=
    rect_unit_congr (off3_eq L r) rfl _ _
  show (((viV).view.slice (Rect.unit (s := S4x128x3x112x112) (k0_off3 L (BitVec.ofNat 32 r.val)) S1x1x3x56x112.size (k0_off3_inb L r))).reshape S3x56x112 squeezes_S1x1x3x56x112_S3x56x112.numel_eq).set = _
  rw [View.set_reshape]
  exact set_slice_whole_eq (main_arg0_scv : Ref sig .scVector) _ _ e
theorem set_voA (L : grid0.Coords) (r : Fin 8) : (voA L r).view.set = (Pieces.rVo (wOf L) r 0).set := by
  have e : (Rect.unit (s := S4x64x3x112x112) (k0_off4 L (BitVec.ofNat 32 r.val)) S1x1x3x56x112.size (k0_off4_inb L r) : Rect S4x64x3x112x112) = Pieces.rVo (wOf L) r 0 :=
    rect_unit_congr (off4_eq L r) rfl _ _
  show (((voV).view.slice (Rect.unit (s := S4x64x3x112x112) (k0_off4 L (BitVec.ofNat 32 r.val)) S1x1x3x56x112.size (k0_off4_inb L r))).reshape S3x56x112 squeezes_S1x1x3x56x112_S3x56x112.numel_eq).set = _
  rw [View.set_reshape]
  exact set_slice_whole_eq (main_v0_0_scv : Ref sig .scVector) _ _ e
theorem set_voB (L : grid0.Coords) (r : Fin 8) : (voB L r).view.set = (Pieces.rVo (wOf L) r 1).set := by
  have e : (Rect.unit (s := S4x64x3x112x112) (k0_off5 L (BitVec.ofNat 32 r.val)) S1x1x3x56x112.size (k0_off5_inb L r) : Rect S4x64x3x112x112) = Pieces.rVo (wOf L) r 1 :=
    rect_unit_congr (off5_eq L r) rfl _ _
  show (((voV).view.slice (Rect.unit (s := S4x64x3x112x112) (k0_off5 L (BitVec.ofNat 32 r.val)) S1x1x3x56x112.size (k0_off5_inb L r))).reshape S3x56x112 squeezes_S1x1x3x56x112_S3x56x112.numel_eq).set = _
  rw [View.set_reshape]
  exact set_slice_whole_eq (main_v0_0_scv : Ref sig .scVector) _ _ e
theorem set_aiR (L : grid0.Coords) (r : Fin 8) : (aiR L r).view.set = (Pieces.rAi (wOf L) r).set := by
  have e : (Rect.unit (s := S4x128x1024) (k0_off1 L (BitVec.ofNat 32 r.val)) S1x1x1024.size (k0_off1_inb L r) : Rect S4x128x1024) = Pieces.rAi (wOf L) r :=
    rect_unit_congr (off1_eq L r) rfl _ _
  show (((aiV).view.slice (Rect.unit (s := S4x128x1024) (k0_off1 L (BitVec.ofNat 32 r.val)) S1x1x1024.size (k0_off1_inb L r))).reshape S1024 squeezes_S1x1x1024_S1024.numel_eq).set = _
  rw [View.set_reshape]
  exact set_slice_whole_eq (main_arg1_scv : Ref sig .scVector) _ _ e
theorem set_aoB (L : grid0.Coords) : (aoB L).view.set = (Pieces.rAo (wOf L)).set := by
  have e : (Rect.unit (s := S4x64x1024) (k0_off6 L) S1x8x1024.size (k0_off6_inb L) : Rect S4x64x1024) = Pieces.rAo (wOf L) :=
    rect_unit_congr (off6_eq L) rfl _ _
  show (((aoV).view.slice (Rect.unit (s := S4x64x1024) (k0_off6 L) S1x8x1024.size (k0_off6_inb L))).reshape S8x1024 squeezes_S1x8x1024_S8x1024.numel_eq).set = _
  rw [View.set_reshape]
  exact set_slice_whole_eq (main_v0_1_scv : Ref sig .scVector) _ _ e

/-! ## A worker's pieces over the rectangles -/

/-- The input pieces of worker `w`, at the launch contents. -/
def wIn (m : (ℓ : Loc nD τ sig) → Buf (Elt F) ℓ) (d : Dev nD) (w : Fin 32) : sProp 𝕄 :=
  bigSep Finset.univ fun r : Fin 8 => iprop((viLoc d ↦[(Pieces.rVi w r 0).set]{fullShare} m (viLoc d))
    ∗ (viLoc d ↦[(Pieces.rVi w r 1).set]{fullShare} m (viLoc d)) ∗ (aiLoc d ↦[(Pieces.rAi w r).set]{fullShare} m (aiLoc d)))

/-- The output pieces of worker `w`, the video's at `gv` and the audio's at `ga`. -/
def wOut (d : Dev nD) (w : Fin 32) (gv : Buf (Elt F) (voLoc d)) (ga : Buf (Elt F) (aoLoc d)) : sProp 𝕄 :=
  iprop((bigSep Finset.univ fun r : Fin 8 => iprop((voLoc d ↦[(Pieces.rVo w r 0).set]{fullShare} gv) ∗ (voLoc d ↦[(Pieces.rVo w r 1).set]{fullShare} gv)))
    ∗ (aoLoc d ↦[(Pieces.rAo w).set]{fullShare} ga))

theorem tileIn_eq (m : (ℓ : Loc nD τ sig) → Buf (Elt F) ℓ) (d : Dev nD) (L : grid0.Coords) : tileIn m d L = wIn m d (wOf L) := by
  unfold tileIn wIn
  refine bigSep_congr fun r _ => ?_
  rw [set_viA, set_viB, set_aiR]

theorem tileOut_eq (d : Dev nD) (L : grid0.Coords) (gv : Buf (Elt F) (voLoc d)) (ga : Buf (Elt F) (aoLoc d)) :
    tileOut d L gv ga = wOut d (wOf L) gv ga := by
  have e : (bigSep Finset.univ fun r : Fin 8 => (iprop((voLoc d ↦[(voA L r).view.set]{fullShare} gv) ∗ (voLoc d ↦[(voB L r).view.set]{fullShare} gv)) : sProp 𝕄))
      = bigSep Finset.univ fun r : Fin 8 => iprop((voLoc d ↦[(Pieces.rVo (wOf L) r 0).set]{fullShare} gv) ∗ (voLoc d ↦[(Pieces.rVo (wOf L) r 1).set]{fullShare} gv)) :=
    bigSep_congr fun r _ => by rw [set_voA, set_voB]
  unfold tileOut wOut
  rw [e, set_aoB]

/-- The SparseCores' shares, tile by tile, are the 32 workers' pieces. -/
theorem tiles_flat (m : (ℓ : Loc nD τ sig) → Buf (Elt F) ℓ) (d : Dev nD) (gv : Buf (Elt F) (voLoc d)) (ga : Buf (Elt F) (aoLoc d)) :
    (bigSep Finset.univ fun c : Fin ((K (F := F)).nCore 0) => bigSep Finset.univ fun i : Fin ((K (F := F)).nSub 0) =>
        (iprop(tileIn m d (Lof c i) ∗ tileOut d (Lof c i) gv ga) : sProp 𝕄))
      = bigSep Finset.univ fun w : Fin 32 => iprop(wIn m d w ∗ wOut d w gv ga) := by
  refine Eq.trans ?_ (bigSep_univ_equiv eW (fun w : Fin 32 => (iprop(wIn m d w ∗ wOut d w gv ga) : sProp 𝕄))).symm
  refine Eq.trans ?_ (bigSep_univ_prod (fun x : Fin 2 × Fin 16 => (iprop(wIn m d (eW x) ∗ wOut d (eW x) gv ga) : sProp 𝕄))).symm
  refine bigSep_congr fun c _ => bigSep_congr fun i _ => ?_
  rw [tileIn_eq, tileOut_eq, wOf_Lof]

/-! ## The arrays as their pieces -/

/-- All the input video pieces, and all the input audio pieces. -/
def UVi : Finset S4x128x3x112x112.Idx := (Finset.univ : Finset Pieces.PV).biUnion fun p => (Pieces.rVi p.1 p.2.1 p.2.2).set
def UAi : Finset S4x128x1024.Idx := (Finset.univ : Finset Pieces.PA).biUnion fun p => (Pieces.rAi p.1 p.2).set

/-- A product over the video pieces' names, worker by worker and frame by frame, the two halves side by side. -/
theorem bigSep_PV (Φ : Fin 32 → Fin 8 → Fin 2 → sProp 𝕄) :
    (bigSep Finset.univ fun p : Pieces.PV => Φ p.1 p.2.1 p.2.2)
      = bigSep Finset.univ fun w : Fin 32 => bigSep Finset.univ fun r : Fin 8 => iprop(Φ w r 0 ∗ Φ w r 1) := by
  refine (bigSep_univ_prod (fun p : Pieces.PV => Φ p.1 p.2.1 p.2.2)).trans ?_
  refine bigSep_congr fun w _ => ?_
  refine (bigSep_univ_prod (fun q : Fin 8 × Fin 2 => Φ w q.1 q.2)).trans ?_
  refine bigSep_congr fun r _ => ?_
  exact bigSep_univ_two _

theorem vo_pieces (d : Dev nD) (gv : Buf (Elt F) (voLoc d)) :
    (voLoc d ↦{fullShare} gv : sProp 𝕄)
      = bigSep Finset.univ fun w : Fin 32 => bigSep Finset.univ fun r : Fin 8 =>
          iprop((voLoc d ↦[(Pieces.rVo w r 0).set]{fullShare} gv) ∗ (voLoc d ↦[(Pieces.rVo w r 1).set]{fullShare} gv)) := by
  refine Eq.trans ?_ (bigSep_PV (fun w r h => (voLoc d ↦[(Pieces.rVo w r h).set]{fullShare} gv : sProp 𝕄)))
  rw [← pointsTo_biUnion Finset.univ (ℓ := voLoc d) (fun p : Pieces.PV => (Pieces.rVo p.1 p.2.1 p.2.2).set)
    (fun p _ p' _ h => Pieces.rVo_disjoint h), Pieces.rVo_cover]

theorem ao_pieces (d : Dev nD) (ga : Buf (Elt F) (aoLoc d)) :
    (aoLoc d ↦{fullShare} ga : sProp 𝕄) = bigSep Finset.univ fun w : Fin 32 => aoLoc d ↦[(Pieces.rAo w).set]{fullShare} ga := by
  rw [← pointsTo_biUnion Finset.univ (ℓ := aoLoc d) (fun w : Fin 32 => (Pieces.rAo w).set)
    (fun w _ w' _ h => Pieces.rAo_disjoint h), Pieces.rAo_cover]

theorem vi_pieces (d : Dev nD) (f : Buf (Elt F) (viLoc d)) :
    (viLoc d ↦[UVi]{fullShare} f : sProp 𝕄)
      = bigSep Finset.univ fun w : Fin 32 => bigSep Finset.univ fun r : Fin 8 =>
          iprop((viLoc d ↦[(Pieces.rVi w r 0).set]{fullShare} f) ∗ (viLoc d ↦[(Pieces.rVi w r 1).set]{fullShare} f)) := by
  refine Eq.trans ?_ (bigSep_PV (fun w r h => (viLoc d ↦[(Pieces.rVi w r h).set]{fullShare} f : sProp 𝕄)))
  exact pointsTo_biUnion Finset.univ (ℓ := viLoc d) (fun p : Pieces.PV => (Pieces.rVi p.1 p.2.1 p.2.2).set)
    (fun p _ p' _ h => Pieces.rVi_disjoint h)

theorem ai_pieces (d : Dev nD) (f : Buf (Elt F) (aiLoc d)) :
    (aiLoc d ↦[UAi]{fullShare} f : sProp 𝕄)
      = bigSep Finset.univ fun w : Fin 32 => bigSep Finset.univ fun r : Fin 8 => aiLoc d ↦[(Pieces.rAi w r).set]{fullShare} f := by
  refine Eq.trans ?_ (bigSep_univ_prod (fun p : Pieces.PA => (aiLoc d ↦[(Pieces.rAi p.1 p.2).set]{fullShare} f : sProp 𝕄)))
  exact pointsTo_biUnion Finset.univ (ℓ := aiLoc d) (fun p : Pieces.PA => (Pieces.rAi p.1 p.2).set)
    (fun p _ p' _ h => Pieces.rAi_disjoint h)

/-- The 32 workers' pieces are the inputs' pieces and the two outputs whole. -/
theorem flat_eq (m : (ℓ : Loc nD τ sig) → Buf (Elt F) ℓ) (d : Dev nD) (gv : Buf (Elt F) (voLoc d)) (ga : Buf (Elt F) (aoLoc d)) :
    (bigSep Finset.univ fun w : Fin 32 => (iprop(wIn m d w ∗ wOut d w gv ga) : sProp 𝕄))
      = iprop(((viLoc d ↦[UVi]{fullShare} m (viLoc d)) ∗ (aiLoc d ↦[UAi]{fullShare} m (aiLoc d)))
          ∗ ((voLoc d ↦{fullShare} gv) ∗ (aoLoc d ↦{fullShare} ga))) := by
  rw [bigSep_sep']
  congr 1
  · rw [vi_pieces, ai_pieces, ← bigSep_sep']
    refine bigSep_congr fun w _ => ?_
    unfold wIn
    rw [← bigSep_sep']
    refine bigSep_congr fun r _ => ?_
    exact equiv_iff.mp ⟨sep_assoc', sep_assoc⟩
  · rw [vo_pieces, ao_pieces, ← bigSep_sep']
    rfl

/-! ## The launch's split -/

/-- The SparseCores' shares at the launch, tile by tile. -/
theorem st_tiles (m : (ℓ : Loc nD τ sig) → Buf (Elt F) ℓ) (d : Dev nD) :
    (bigSep Finset.univ fun c : Fin ((K (F := F)).nCore 0) => (P m).st 0 d c)
      = bigSep Finset.univ fun c : Fin ((K (F := F)).nCore 0) => bigSep Finset.univ fun i : Fin ((K (F := F)).nSub 0) =>
          (iprop(tileIn m d (Lof c i) ∗ tileOut d (Lof c i) (m (voLoc d)) (m (aoLoc d))) : sProp 𝕄) := by
  refine bigSep_congr fun c _ => ?_
  show (bigSep Finset.univ fun i : Fin ((K (F := F)).nSub 0) => goRes m d (Lof c i)) = _
  refine bigSep_congr fun i _ => ?_
  unfold goRes
  rfl

/-- The SparseCores' shares when they return, tile by tile. -/
theorem dn_tiles (m : (ℓ : Loc nD τ sig) → Buf (Elt F) ℓ) (d : Dev nD) :
    (bigSep Finset.univ fun c : Fin ((K (F := F)).nCore 0) => (P m).dn 0 d c)
      = bigSep Finset.univ fun c : Fin ((K (F := F)).nCore 0) => bigSep Finset.univ fun i : Fin ((K (F := F)).nSub 0) =>
          (iprop(tileIn m d (Lof c i) ∗ tileOut d (Lof c i) (GV m d) (GA m d)) : sProp 𝕄) := by
  refine bigSep_congr fun c _ => ?_
  show (bigSep Finset.univ fun i : Fin ((K (F := F)).nSub 0) => tdRes m d (Lof c i)) = _
  refine bigSep_congr fun i _ => ?_
  unfold tdRes
  rfl

theorem launch_split [FloatOps F] (m : (ℓ : Loc nD τ sig) → Buf (Elt F) ℓ) (d : Dev nD) :
    (iprop((viLoc d ↦{fullShare} m (viLoc d)) ∗ (aiLoc d ↦{fullShare} m (aiLoc d)) ∗ (voLoc d ↦{fullShare} m (voLoc d)) ∗ (aoLoc d ↦{fullShare} m (aoLoc d))) : sProp 𝕄)
      ⊢ iprop((bigSep Finset.univ fun c : Fin ((K (F := F)).nCore 0) => (P m).st 0 d c)
          ∗ ((bigSep Finset.univ fun c : Fin ((K (F := F)).nCore 0) => (P m).dn 0 d c)
              -∗ iprop((viLoc d ↦{fullShare} m (viLoc d)) ∗ (aiLoc d ↦{fullShare} m (aiLoc d)) ∗ (voLoc d ↦{fullShare} GV m d) ∗ (aoLoc d ↦{fullShare} GA m d)))) := by
  have hst : (bigSep Finset.univ fun c : Fin ((K (F := F)).nCore 0) => (P m).st 0 d c)
      = (iprop(((viLoc d ↦[UVi]{fullShare} m (viLoc d)) ∗ (aiLoc d ↦[UAi]{fullShare} m (aiLoc d)))
          ∗ ((voLoc d ↦{fullShare} m (voLoc d)) ∗ (aoLoc d ↦{fullShare} m (aoLoc d)))) : sProp 𝕄) :=
    (st_tiles m d).trans ((tiles_flat m d (m (voLoc d)) (m (aoLoc d))).trans (flat_eq m d (m (voLoc d)) (m (aoLoc d))))
  have hdn : (bigSep Finset.univ fun c : Fin ((K (F := F)).nCore 0) => (P m).dn 0 d c)
      = (iprop(((viLoc d ↦[UVi]{fullShare} m (viLoc d)) ∗ (aiLoc d ↦[UAi]{fullShare} m (aiLoc d)))
          ∗ ((voLoc d ↦{fullShare} GV m d) ∗ (aoLoc d ↦{fullShare} GA m d))) : sProp 𝕄) :=
    (dn_tiles m d).trans ((tiles_flat m d (GV m d) (GA m d)).trans (flat_eq m d (GV m d) (GA m d)))
  rw [hst, hdn]
  have sV : UVi ⊆ (Finset.univ : Finset (Idx (viLoc d))) := Finset.subset_univ _
  have sA : UAi ⊆ (Finset.univ : Finset (Idx (aiLoc d))) := Finset.subset_univ _
  iintro ⟨Hvi, Hai, Hvo, Hao⟩
  ihave Hvi' := (pointsTo_split_subset (ℓ := viLoc d) (q := fullShare) (f := m (viLoc d)) sV).1 $$ Hvi
  icases Hvi' with ⟨Hvi1, Hvi2⟩
  ihave Hai' := (pointsTo_split_subset (ℓ := aiLoc d) (q := fullShare) (f := m (aiLoc d)) sA).1 $$ Hai
  icases Hai' with ⟨Hai1, Hai2⟩
  isplitl [Hvi1 Hai1 Hvo Hao]
  · isplitl [Hvi1 Hai1]
    · isplitl [Hvi1]; · iexact Hvi1
      iexact Hai1
    · isplitl [Hvo]; · iexact Hvo
      iexact Hao
  iintro ⟨⟨Hvi1, Hai1⟩, Hvo, Hao⟩
  isplitl [Hvi1 Hvi2]
  · iapply (pointsTo_split_subset (ℓ := viLoc d) (q := fullShare) (f := m (viLoc d)) sV).2
    isplitl [Hvi1]; · iexact Hvi1
    iexact Hvi2
  isplitl [Hai1 Hai2]
  · iapply (pointsTo_split_subset (ℓ := aiLoc d) (q := fullShare) (f := m (aiLoc d)) sA).2
    isplitl [Hai1]; · iexact Hai1
    iexact Hai2
  isplitl [Hvo]; · iexact Hvo
  iexact Hao

end Cert.Proof.KB

end
-- ==== Proof.KBLaunch.lean ====
/-
  The launch: every weakly fair execution of the device's thirty-five threads — the TensorCore's one call, the two
  sequencers' dispatch, the thirty-two tiles' tasks — terminates without a fault, with the outputs at every second
  frame of the inputs and the inputs unchanged. The TensorCore deals the four arrays to the tiles piece by piece and
  takes them back written; a tile's task is its body's run; no thread signals another outside the launch's own
  handshakes, so the ghost state is the handshakes' beside one counter per local copy in flight.
-/
import proofs.«207661_g395136991783_cont_8to1_b_1346_21_alg».proof.Proof.KBTile
import proofs.«207661_g395136991783_cont_8to1_b_1346_21_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The launch theorem's obligation for a tile -/

theorem defs₀_vector (c : Fin τ.nSC) (s : Fin τ.nSub) :
    defs₀ (F := F) (.scVector c s) 0 ()
      = SparseCore.onTile hcore0 hsub0 (fun c s => cc0_sc_copy (coordsV c s)
          viV (Memref.isWhole_whole _) aiV (Memref.isWhole_whole _) voV (Memref.isWhole_whole _) aoV (Memref.isWhole_whole _)
          vbV (Memref.isWhole_whole _) abV (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore: the one call -/

omit [FloatOps F] in
theorem unscopedBufs_eq (d : Dev nD) (W : (b : Ref sig .tc) → Buf (Elt F) ((d.tc : Thread nD τ).loc b)) :
    (unscopedBufs d W : sProp 𝕄) = iprop((viLoc d ↦{fullShare} W main_arg0) ∗ (aiLoc d ↦{fullShare} W main_arg1)
      ∗ (voLoc d ↦{fullShare} W main_v0_0) ∗ aoLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What @main leaves the claim: the inputs at their launch contents, the outputs at every second frame of them. -/
abbrev FIN (d : Dev nD) : sProp 𝕄 :=
  iprop((viLoc d ↦{fullShare} m (viLoc d)) ∗ (aiLoc d ↦{fullShare} m (aiLoc d)) ∗ (voLoc d ↦{fullShare} GV m d) ∗ (aoLoc d ↦{fullShare} GA m d))

theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hvi, Hai, Hvo, Hao⟩, -, -⟩, -⟩
  ihave Hsp := (launch_split m d) $$ [Hvi Hai Hvo Hao]
  · isplitl [Hvi]; · iexact Hvi
    isplitl [Hai]; · iexact Hai
    isplitl [Hvo]; · iexact Hvo
    iexact Hao
  icases Hsp with ⟨Hgo, Hback⟩
  iapply ((K (F := F)).wp_run (D (F := F)) 𝒱 (EH := EH) (P := P m) κ d 0) $$ [Hst Hgo Hback]
  isplitr; · iexact Hctx
  isplitl [Hst]; · iexact Hst
  isplitl [Hgo]; · iexact Hgo
  iintro ⟨Hst, Hdn⟩
  ihave Hfin := Hback $$ Hdn
  imodintro
  isplitl [Hst]; · iexact Hst
  iexact Hfin

def fq (d : Dev nD) (s' : Phys nD τ sig (Elt F)) : Prop :=
  s'.mem.mem (viLoc d) = m (viLoc d) ∧ s'.mem.mem (aiLoc d) = m (aiLoc d) ∧ s'.mem.mem (voLoc d) = GV m d ∧ s'.mem.mem (aoLoc d) = GA m d

set_option maxRecDepth 16384 in
theorem hfin (d : Dev nD) (s' : Phys nD τ sig (Elt F)) : iprop(FIN m d ∗ SI s') ⊢ (⌜fq m d s'⌝ : sProp 𝕄) := by
  iintro ⟨⟨Hvi, Hai, Hvo, Hao⟩, HSI⟩
  ihave H := (persistent_entails_right (SI_pointsTo_agree (st := s') (ℓ := viLoc d) (I := Finset.univ) (q := fullShare) (f := m (viLoc d)))) $$ [HSI Hvi]
  · isplitl [HSI] <;> iassumption
  icases H with ⟨%h1, HSI, -⟩
  ihave H := (persistent_entails_right (SI_pointsTo_agree (st := s') (ℓ := aiLoc d) (I := Finset.univ) (q := fullShare) (f := m (aiLoc d)))) $$ [HSI Hai]
  · isplitl [HSI] <;> iassumption
  icases H with ⟨%h2, HSI, -⟩
  ihave H := (persistent_entails_right (SI_pointsTo_agree (st := s') (ℓ := voLoc d) (I := Finset.univ) (q := fullShare) (f := GV m d))) $$ [HSI Hvo]
  · isplitl [HSI] <;> iassumption
  icases H with ⟨%h3, HSI, -⟩
  ihave H := (SI_pointsTo_agree (st := s') (ℓ := aoLoc d) (I := Finset.univ) (q := fullShare) (f := GA m d)) $$ [HSI Hao]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every device ends with the outputs at every second frame of the inputs and the inputs unchanged. -/
def QC : PUnit × MemSt nD τ sig (Elt F) → Prop := fun r => ∀ c : Dev nD,
  r.2.mem (viLoc c) = m (viLoc c) ∧ r.2.mem (aiLoc c) = m (aiLoc c) ∧ r.2.mem (voLoc c) = GV m c ∧ r.2.mem (aoLoc c) = GA m c

theorem run_main [∀ e, Nonempty (Elt F e)] (ρ : Dev nD → PrngReg) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefRun.lean ====
/-
  The reference's run. The reference takes every second frame along axis 1 by a gather at the indices
  0, 2, …, 126: @main builds the 64 indices `0 + 2 * i`, and for each of the two arrays a call wraps
  negative indices around (`idx + 128` where `idx < 0`), writes them as a column, computes the mask
  `0 ≤ idx ≤ 127`, gathers along axis 1 and keeps the gathered entry where the mask holds (a NaN elsewhere).
  Here: @main with its calls unfolded as one straight line of operations, its run, and the two results
  as composed terms `outV`, `outA` of the arguments. What those terms are, index by index, is the next
  module's (RefValue.lean).
-/
import proofs.«207661_g395136991783_cont_8to1_b_1346_21_alg».proof.Proof.Gen.ReferenceIdeal
import proofs.«207661_g395136991783_cont_8to1_b_1346_21_alg».proof.Proof.Spec
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded (each twenty-three operations, the inner
    `where` one select). -/
abbrev ops : List (HloOp τ sig (Elt F)) :=
  [ nullary main_v0 (iotaInDim S64 32 0),
    nullary main_c (constantI S_ 32 2#32),
    unary main_c main_v1 (broadcastInDim S64 ![] bcast_S_S64 : (⟨S_, .i32⟩ : BufTy).Contents (Elt F) → (⟨S64, .i32⟩ : BufTy).Contents (Elt F)),
    binary main_v1 main_v0 main_v2 (muli : (⟨S64, .i32⟩ : BufTy).Contents (Elt F) → (⟨S64, .i32⟩ : BufTy).Contents (Elt F) → (⟨S64, .i32⟩ : BufTy).Contents (Elt F)),
    nullary main_c_0 (constantI S_ 32 0#32),
    unary main_c_0 main_v3 (broadcastInDim S64 ![] bcast_S_S64 : (⟨S_, .i32⟩ : BufTy).Contents (Elt F) → (⟨S64, .i32⟩ : BufTy).Contents (Elt F)),
    binary main_v3 main_v2 main_v4 (addi : (⟨S64, .i32⟩ : BufTy).Contents (Elt F) → (⟨S64, .i32⟩ : BufTy).Contents (Elt F) → (⟨S64, .i32⟩ : BufTy).Contents (Elt F)),
    TRef.nullary main_call0.c (constantI S_ 32 0#32),
    TRef.unary main_call0.c main_call0.v0 (broadcastInDim S64 ![] bcast_S_S64),
    TRef.binary (.of main_v4) main_call0.v0 main_call0.v1 (cmpi .slt),
    TRef.nullary main_call0.c_0 (constantI S_ 32 128#32),
    TRef.unary main_call0.c_0 main_call0.v2 (broadcastInDim S64 ![] bcast_S_S64),
    TRef.binary (.of main_v4) main_call0.v2 main_call0.v3 addi,
    TRef.ternary main_call0.v1 main_call0.v3 (.of main_v4) main_call0.call0.v0 select,
    TRef.unary main_call0.call0.v0 main_call0.v5 (broadcastInDim S64x1 ![0] bcast_S64_S64x1_0),
    TRef.nullary main_call0.c_1 (constantI S1 32 127#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg0) main_call0.v5 main_call0.v13 (fun x i => Host.gather gather_S4x128x3x112x112_S64x1_S4x64x3x112x112_0234_1_n_n_1_1_413112112 x i),
    TRef.unary main_call0.v12 main_call0.v14 (broadcastInDim S4x64x3x112x112 ![1] bcast_S64_S4x64x3x112x112_1),
    TRef.nullary main_call0.cst (constant S_ .f32 0x7FC00000#32),
    TRef.unary main_call0.cst main_call0.v15 (broadcastInDim S4x64x3x112x112 ![] bcast_S_S4x64x3x112x112),
    TRef.ternary main_call0.v14 main_call0.v13 main_call0.v15 main_call0.v16 select,
    TRef.nullary main_call1.c (constantI S_ 32 0#32),
    TRef.unary main_call1.c main_call1.v0 (broadcastInDim S64 ![] bcast_S_S64),
    TRef.binary (.of main_v4) main_call1.v0 main_call1.v1 (cmpi .slt),
    TRef.nullary main_call1.c_0 (constantI S_ 32 128#32),
    TRef.unary main_call1.c_0 main_call1.v2 (broadcastInDim S64 ![] bcast_S_S64),
    TRef.binary (.of main_v4) main_call1.v2 main_call1.v3 addi,
    TRef.ternary main_call1.v1 main_call1.v3 (.of main_v4) main_call1.call0.v0 select,
    TRef.unary main_call1.call0.v0 main_call1.v5 (broadcastInDim S64x1 ![0] bcast_S64_S64x1_0),
    TRef.nullary main_call1.c_1 (constantI S1 32 127#32),
    TRef.nullary main_call1.c_2 (constantI S_ 32 0#32),
    TRef.unary main_call1.c_2 main_call1.v6 (broadcastInDim S64x1 ![] bcast_S_S64x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S64x1 ![0, 1] bcast_S1x1_S64x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S64x1_S64_d1 h_S_),
    TRef.binary (.of main_arg1) main_call1.v5 main_call1.v13 (fun x i => Host.gather gather_S4x128x1024_S64x1_S4x64x1024_02_1_n_n_1_1_411024 x i),
    TRef.unary main_call1.v12 main_call1.v14 (broadcastInDim S4x64x1024 ![1] bcast_S64_S4x64x1024_1),
    TRef.nullary main_call1.cst (constant S_ .f32 0x7FC00000#32),
    TRef.unary main_call1.cst main_call1.v15 (broadcastInDim S4x64x1024 ![] bcast_S_S4x64x1024),
    TRef.ternary main_call1.v14 main_call1.v13 main_call1.v15 main_call1.v16 select ]

-- fifty-three binds re-associated
set_option maxRecDepth 2048 in
/-- @main is that straight line: the functions unfolded at their calls. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-! ## The values -/

/-- The indices @main builds: `0 + 2 * i`. -/
def idx0 : IVec S64 32 :=
  addi (broadcastInDim S64 ![] bcast_S_S64 (constantI S_ 32 0#32))
    (muli (broadcastInDim S64 ![] bcast_S_S64 (constantI S_ 32 2#32)) (iotaInDim S64 32 0))

/-- Negative indices wrapped around: `where(idx < 0, idx + 128, idx)`. -/
def idxN : IVec S64 32 :=
  select (cmpi .slt idx0 (broadcastInDim S64 ![] bcast_S_S64 (constantI S_ 32 0#32)))
    (addi idx0 (broadcastInDim S64 ![] bcast_S_S64 (constantI S_ 32 128#32))) idx0

/-- The indices as a column. -/
def idxC : IVec S64x1 32 := broadcastInDim S64x1 ![0] bcast_S64_S64x1_0 idxN

/-- Which indices are in bounds: `0 ≤ idx ≤ 127`, reduced by `and` over the column's one entry. -/
def mask : IVec S64 1 :=
  Host.reduce IntOp.andi
    (andi (cmpi .sge idxC (broadcastInDim S64x1 ![] bcast_S_S64x1 (constantI S_ 32 0#32)))
      (cmpi .sle idxC (broadcastInDim S64x1 ![0, 1] bcast_S1x1_S64x1_0_1
        (broadcastInDim S1x1 ![1] bcast_S1_S1x1_1 (constantI S1 32 127#32)))))
    (constantI S_ 1 1#1) reducesTo_S64x1_S64_d1 h_S_

/-- The reference's first result as a function of its first argument. -/
def outV (x : FVec F S4x128x3x112x112 .f32) : FVec F S4x64x3x112x112 .f32 :=
  select (broadcastInDim S4x64x3x112x112 ![1] bcast_S64_S4x64x3x112x112_1 mask)
    (Host.gather gather_S4x128x3x112x112_S64x1_S4x64x3x112x112_0234_1_n_n_1_1_413112112 x idxC)
    (broadcastInDim S4x64x3x112x112 ![] bcast_S_S4x64x3x112x112 (constant S_ .f32 0x7FC00000#32))

/-- The reference's second result as a function of its second argument. -/
def outA (x : FVec F S4x128x1024 .f32) : FVec F S4x64x1024 .f32 :=
  select (broadcastInDim S4x64x1024 ![1] bcast_S64_S4x64x1024_1 mask)
    (Host.gather gather_S4x128x1024_S64x1_S4x64x1024_02_1_n_n_1_1_411024 x idxC)
    (broadcastInDim S4x64x1024 ![] bcast_S_S4x64x1024 (constant S_ .f32 0x7FC00000#32))

attribute [local irreducible] Host.reduce Host.gather in
set_option maxRecDepth 8192 in
theorem v5_eq (V : Valuation τ sig (Elt F)) :
    after ops V (main_v5 : DevRef τ sig) = outV (F := F) (V (main_arg0 : DevRef τ sig)) := by
  after_results_simp
  rfl

attribute [local irreducible] Host.reduce Host.gather in
set_option maxRecDepth 8192 in
theorem v6_eq (V : Valuation τ sig (Elt F)) :
    after ops V (main_v6 : DevRef τ sig) = outA (F := F) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution
    of @main terminates with each result at its composed term of the arguments and the arguments unchanged. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = outV (F := F) (m ((c.tc : Thread nD τ).loc main_arg0))
      ∧ r.2.mem ((c.tc : Thread nD τ).loc main_v6) = outA (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (v5_eq _), (h c main_v6).trans (v6_eq _),
      (h c main_arg0).trans (arg0_eq _), (h c main_arg1).trans (arg1_eq _)⟩)
    (run_seq scopedRefs_eq scopedSems_eq defs main (fun _ => ops) main_eq (fun _ => ops_sub) m ρ)

end Cert.Proof.RefRun

end
-- ==== Proof.RefValue.lean ====
/-
  The reference's two results, index by index. All 64 indices `2 * i` lie in `[0, 127]`, so none is
  wrapped, the mask holds everywhere and the select keeps the gathered entry; the gather at result
  index `j` reads the operand at frame `2 * (j 1)` of the same batch, every other coordinate kept.
  Hence the results are `Spec.takeV`, `Spec.takeA` of the arguments, and the reference's run ends there.
-/
import proofs.«207661_g395136991783_cont_8to1_b_1346_21_alg».proof.Proof.RefRun
import Idealize.ShloMosaic.PureOps.Reduce

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The indices and the mask -/

open Idealize.ShloMosaic.ValueIdx

/-- Index `v` after the wrap-around of negative indices, as a word: `0 + 2 * v`, wrapped if negative. -/
def word (v : Fin 64) : BitVec 32 :=
  Scalar.select (IntOp.cmpi .slt (IntOp.addi 0#32 (IntOp.muli 2#32 (BitVec.ofNat 32 v.val))) 0#32)
    (IntOp.addi (IntOp.addi 0#32 (IntOp.muli 2#32 (BitVec.ofNat 32 v.val))) 128#32)
    (IntOp.addi 0#32 (IntOp.muli 2#32 (BitVec.ofNat 32 v.val)))

/-- The wrapped indices are those words. -/
theorem idxN_apply (n : S64.Idx) : idxN n = word (n 0) := rfl

/-- The column of indices reads the same words. -/
theorem idxC_apply (k : S64x1.Idx) : idxC k = word (k 0) := rfl

/-- Each of the 64 words is `2 * v`, which lies in `[0, 127]`: it passes both comparisons of the mask,
    and read as a signed integer it is the natural number `2 * v`. -/
theorem word_facts : ∀ v : Fin 64,
    IntOp.andi (IntOp.cmpi .sge (word v) 0#32) (IntOp.cmpi .sle (word v) 127#32) = 1#1
      ∧ (word v).toInt.toNat = 2 * v.val := by
  decide

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a List.mem_cons_self]; rfl
    rw [List.foldl_cons, e]
    exact foldl_andi_ones f l fun n hn => h n (List.mem_cons_of_mem _ hn)

/-- Every index is in bounds: the mask is 1 everywhere. -/
theorem mask_apply (i : S64.Idx) : mask i = 1#1 := by
  unfold mask
  rw [Host.reduce_eq_foldl]
  refine foldl_andi_ones _ _ fun k _ => ?_
  exact (word_facts (k 0)).1

/-! ## The gathers read at an index -/

/-- The video gather's operand index: frame `2 * (j 1)` of the same batch, the other coordinates kept. -/
theorem operandIdxV (j : S4x64x3x112x112.Idx) :
    gather_S4x128x3x112x112_S64x1_S4x64x3x112x112_0234_1_n_n_1_1_413112112.operandIdx j idxC = Spec.srcV j := by
  have key : min (word (j 1)).toInt.toNat (128 - 1) = 2 * (j 1 : Fin 64).val := by
    have hw := (word_facts (j 1)).2
    have h1 : ((j 1 : Fin 64) : Nat) < 64 := (j 1).isLt
    rw [hw]; omega
  funext a
  refine Fin.ext ?_
  rw [Spec.srcV_val]
  show gather_S4x128x3x112x112_S64x1_S4x64x3x112x112_0234_1_n_n_1_1_413112112.start j idxC a + gather_S4x128x3x112x112_S64x1_S4x64x3x112x112_0234_1_n_n_1_1_413112112.batchCoord j a + gather_S4x128x3x112x112_S64x1_S4x64x3x112x112_0234_1_n_n_1_1_413112112.offCoord j a = _
  rw [GatherDims.batchCoord_eq_zero _ _ _ List.not_mem_nil, Nat.add_zero]
  match a with
  | ⟨0, _⟩ =>
    rw [GatherDims.start, dif_neg (by decide +revert), GatherDims.offCoord, dif_pos (by decide +revert), Nat.zero_add]; rfl
  | ⟨1, _⟩ =>
    rw [GatherDims.offCoord_eq_zero _ _ _ (by decide +revert), Nat.add_zero, GatherDims.start, dif_pos (by decide +revert)]
    exact key
  | ⟨2, _⟩ =>
    rw [GatherDims.start, dif_neg (by decide +revert), GatherDims.offCoord, dif_pos (by decide +revert), Nat.zero_add]; rfl
  | ⟨3, _⟩ =>
    rw [GatherDims.start, dif_neg (by decide +revert), GatherDims.offCoord, dif_pos (by decide +revert), Nat.zero_add]; rfl
  | ⟨4, _⟩ =>
    rw [GatherDims.start, dif_neg (by decide +revert), GatherDims.offCoord, dif_pos (by decide +revert), Nat.zero_add]; rfl

/-- The audio gather's operand index: row `2 * (j 1)` of the same batch, the column kept. -/
theorem operandIdxA (j : S4x64x1024.Idx) :
    gather_S4x128x1024_S64x1_S4x64x1024_02_1_n_n_1_1_411024.operandIdx j idxC = Spec.srcA j := by
  have key : min (word (j 1)).toInt.toNat (128 - 1) = 2 * (j 1 : Fin 64).val := by
    have hw := (word_facts (j 1)).2
    have h1 : ((j 1 : Fin 64) : Nat) < 64 := (j 1).isLt
    rw [hw]; omega
  funext a
  refine Fin.ext ?_
  rw [Spec.srcA_val]
  show gather_S4x128x1024_S64x1_S4x64x1024_02_1_n_n_1_1_411024.start j idxC a + gather_S4x128x1024_S64x1_S4x64x1024_02_1_n_n_1_1_411024.batchCoord j a + gather_S4x128x1024_S64x1_S4x64x1024_02_1_n_n_1_1_411024.offCoord j a = _
  rw [GatherDims.batchCoord_eq_zero _ _ _ List.not_mem_nil, Nat.add_zero]
  match a with
  | ⟨0, _⟩ =>
    rw [GatherDims.start, dif_neg (by decide +revert), GatherDims.offCoord, dif_pos (by decide +revert), Nat.zero_add]; rfl
  | ⟨1, _⟩ =>
    rw [GatherDims.offCoord_eq_zero _ _ _ (by decide +revert), Nat.add_zero, GatherDims.start, dif_pos (by decide +revert)]
    exact key
  | ⟨2, _⟩ =>
    rw [GatherDims.start, dif_neg (by decide +revert), GatherDims.offCoord, dif_pos (by decide +revert), Nat.zero_add]; rfl

/-- The reference's first result is every second frame of its first argument: the mask holds everywhere,
    so the select keeps the gathered entry, which is the argument's at the doubled frame. -/
theorem outV_eq (x : FVec F S4x128x3x112x112 .f32) : outV x = Spec.takeV x := by
  funext j
  show Scalar.select (broadcastInDim S4x64x3x112x112 ![1] bcast_S64_S4x64x3x112x112_1 mask j)
    (x (gather_S4x128x3x112x112_S64x1_S4x64x3x112x112_0234_1_n_n_1_1_413112112.operandIdx j idxC)) _ = x (Spec.srcV j)
  rw [show broadcastInDim S4x64x3x112x112 ![1] bcast_S64_S4x64x3x112x112_1 mask j = 1#1 from mask_apply _,
    select_one, operandIdxV]

/-- The reference's second result is every second row of its second argument, likewise. -/
theorem outA_eq (x : FVec F S4x128x1024 .f32) : outA x = Spec.takeA x := by
  funext j
  show Scalar.select (broadcastInDim S4x64x1024 ![1] bcast_S64_S4x64x1024_1 mask j)
    (x (gather_S4x128x1024_S64x1_S4x64x1024_02_1_n_n_1_1_411024.operandIdx j idxC)) _ = x (Spec.srcA j)
  rw [show broadcastInDim S4x64x1024 ![1] bcast_S64_S4x64x1024_1 mask j = 1#1 from mask_apply _,
    select_one, operandIdxA]

/-! ## The run -/

/-- On every device, for any float values, from any memory with zero counters: every weakly fair execution
    of the reference's @main terminates with its first result every second frame of its first argument, its
    second result every second row of its second argument, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v5) = Spec.takeV (m ((c.tc : Thread nD τ).loc main_arg0))
      ∧ r.2.mem ((c.tc : Thread nD τ).loc main_v6) = Spec.takeA (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c).1.trans (outV_eq _), (h c).2.1.trans (outA_eq _), (h c).2.2.1, (h c).2.2.2⟩)
    (run0 m ρ)

end Cert.Proof.RefRun

end
-- ==== Proof.lean ====
/-
  The copy kernel against `jnp.take(x, arange(0, 128, 2), axis = 1)`: both programs leave, in each output, every second
  frame (row) of the corresponding input along axis 1, and touch nothing else of the inputs. The kernel only moves data
  (thirty-two SparseCore tiles, each copying its eight frames in half-frames through a four-slot ring, and its eight audio
  rows through one scratch block), so no arithmetic law and no finiteness of the inputs is used: the claim is an equation
  between index maps, output index `j` reading input index `j` with its frame coordinate doubled. The kernel's run — the
  launch of the tiles, each tile's body, the partition of the arrays among the tiles — is proved once for any reading of
  the floats and used at the word level and at the extended reals; the reference's run is its host operations composed,
  whose gather at the indices `2·i < 128` is in bounds everywhere, so its mask selects the gathered entry.
-/
import proofs.«207661_g395136991783_cont_8to1_b_1346_21_alg».proof.Defs
import proofs.«207661_g395136991783_cont_8to1_b_1346_21_alg».proof.Proof.Gen.Kernel
import proofs.«207661_g395136991783_cont_8to1_b_1346_21_alg».proof.Proof.Gen.Kernel.Skeleton
import proofs.«207661_g395136991783_cont_8to1_b_1346_21_alg».proof.Proof.Gen.KernelIdeal
import proofs.«207661_g395136991783_cont_8to1_b_1346_21_alg».proof.Proof.Gen.KernelIdeal.Skeleton
import proofs.«207661_g395136991783_cont_8to1_b_1346_21_alg».proof.Proof.Gen.ReferenceIdeal
import proofs.«207661_g395136991783_cont_8to1_b_1346_21_alg».proof.Proof.Gen.Pre_finite_inputs
import proofs.«207661_g395136991783_cont_8to1_b_1346_21_alg».proof.Proof.KILaunch
import proofs.«207661_g395136991783_cont_8to1_b_1346_21_alg».proof.Proof.KBLaunch
import proofs.«207661_g395136991783_cont_8to1_b_1346_21_alg».proof.Proof.RefValue
import Idealize.ShloMosaic.Adequacy
import Idealize.ShloMosaic.Init

noncomputable section

namespace Cert.Proof

open Idealize.ShloMosaic Idealize.SL.Sem

/-- The word-level kernel runs to the end, the inputs unchanged. -/
theorem frame_k : Cert.frame_Kernel := fun m ρ _ =>
  (θ_run Cert.Kernel.defs _ _).mono (fun _ h c => ⟨(h c).1, (h c).2.1⟩) (Cert.Proof.KB.run_main (F := Bits) m ρ)

/-- The idealized kernel runs to the end, the inputs unchanged. -/
theorem frame_ki : Cert.frame_KernelIdeal := fun m ρ _ =>
  (θ_run Cert.KernelIdeal.defs _ _).mono (fun _ h c => ⟨(h c).1, (h c).2.1⟩) (Cert.Proof.KI.run_main (F := Ideal) m ρ)

/-- The reference runs to the end, the inputs unchanged. -/
theorem frame_ri : Cert.frame_ReferenceIdeal := fun m ρ _ =>
  (θ_run Cert.ReferenceIdeal.defs _ _).mono (fun _ h c => ⟨(h c).2.2.1, (h c).2.2.2⟩) (Cert.Proof.RefRun.run (F := Ideal) m ρ)

/-- Both programs end with every second frame of the video and every second row of the audio. -/
theorem algebraic : Cert.algebraic_KernelIdeal_ReferenceIdeal := by
  intro m ρ m' ρ' _ hagree
  refine ⟨fun c => Cert.Proof.KI.GV m c, fun c => Cert.Proof.KI.GA m c, ?_, ?_⟩
  · exact (θ_run Cert.KernelIdeal.defs _ _).mono (fun _ h c => ⟨(h c).2.2.1, (h c).2.2.2, (h c).1, (h c).2.1⟩)
      (Cert.Proof.KI.run_main (F := Ideal) m ρ)
  · refine (θ_run Cert.ReferenceIdeal.defs _ _).mono (fun _ h c => ?_) (Cert.Proof.RefRun.run (F := Ideal) m' ρ')
    obtain ⟨h5, h6, ha0, ha1⟩ := h c
    refine ⟨?_, ?_, ha0, ha1⟩
    · rw [h5, (hagree c).1]
    · rw [h6, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
